-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S8192x2048 : Shape := ⟨2, ![8192, 2048]⟩
abbrev S2048x8192 : Shape := ⟨2, ![2048, 8192]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x1024x2048 .f32) (main_arg1 : FVec F S8192x2048 .f32) (main_arg2 : FVec F S2048x8192 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x1024x2048 : Shape := ⟨3, ![4, 1024, 2048]⟩
abbrev S8192x2048 : Shape := ⟨2, ![8192, 2048]⟩
abbrev S2048x8192 : Shape := ⟨2, ![2048, 8192]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 105
  | .vmem => 13
  | .smem => 0
  | _ => 0

abbrev bufTy : (tb : Table) → Fin (tcTables nBuf tb) → BufTy
  | .hbm, ⟨0, _⟩ => ⟨S4x1024x2048, .f32⟩
  | .hbm, ⟨1, _⟩ => ⟨S8192x2048, .f32⟩
  | .hbm, ⟨2, _⟩ => ⟨S2048x8192, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S4096x8192, .f32⟩
  | .hbm, ⟨54, _⟩ => ⟨S4096x8192, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x8192, .f32⟩
  | .hbm, ⟨66, _⟩ => ⟨S4096x8192, .f32⟩
  | .hbm, ⟨67, _⟩ => ⟨S4096x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4096x8192, .f32⟩
  | .hbm, ⟨72, _⟩ => ⟨S4096x8192, .f32⟩
  | .hbm, ⟨73, _⟩ => ⟨S_, .f32⟩
  | .hbm, ⟨74, _⟩ => ⟨S4096x8192, .f32⟩
  | .hbm, ⟨75, _⟩ => ⟨S4096x8192, .f32⟩
  | .hbm, ⟨76, _⟩ => ⟨S4096x8192, .f32⟩
  | .hbm, ⟨77, _⟩ => ⟨S4096x8192, .f32⟩
  | .hbm, ⟨78, _⟩ => ⟨S4096x8192, .bf16⟩
  | .hbm, ⟨79, _⟩ => ⟨S2048x8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S2048x8192, .f32⟩
  | .hbm, ⟨90, _⟩ => ⟨S2048x8192, .f32⟩
  | .hbm, ⟨91, _⟩ => ⟨S2048x8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S2048x8192, .f32⟩
  | .hbm, ⟨96, _⟩ => ⟨S2048x8192, .f32⟩
  | .hbm, ⟨97, _⟩ => ⟨S_, .f32⟩
  | .hbm, ⟨98, _⟩ => ⟨S2048x8192, .f32⟩
  | .hbm, ⟨99, _⟩ => ⟨S2048x8192, .f32⟩
  | .hbm, ⟨100, _⟩ => ⟨S2048x8192, .f32⟩
  | .hbm, ⟨101, _⟩ => ⟨S2048x8192, .f32⟩
  | .hbm, ⟨102, _⟩ => ⟨S2048x8192, .bf16⟩
  | .hbm, ⟨103, _⟩ => ⟨S4096x2048, .f32⟩
  | .hbm, ⟨104, _⟩ => ⟨S4x1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_call3_v0 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_call6_v0 : Ref sig .tc := ⟨.hbm, 59, rfl⟩
abbrev main_call6_v1 : Ref sig .tc := ⟨.hbm, 60, rfl⟩
abbrev main_v30 : Ref sig .tc := ⟨.hbm, 61, rfl⟩
abbrev main_cst_12 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_13 : Ref sig .tc := ⟨.hbm, 68, rfl⟩
abbrev main_cst_14 : Ref sig .tc := ⟨.hbm, 69, rfl⟩
abbrev main_call8_v0 : Ref sig .tc := ⟨.hbm, 70, rfl⟩
abbrev main_call8_v1 : Ref sig .tc := ⟨.hbm, 71, rfl⟩
abbrev main_call8_v2 : Ref sig .tc := ⟨.hbm, 72, rfl⟩
abbrev main_call8_v3 : Ref sig .tc := ⟨.hbm, 73, rfl⟩
abbrev main_call8_v4 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_15 : Ref sig .tc := ⟨.hbm, 80, rfl⟩
abbrev main_v41 : Ref sig .tc := ⟨.hbm, 81, rfl⟩
abbrev main_cst_16 : Ref sig .tc := ⟨.hbm, 82, rfl⟩
abbrev main_v42 : Ref sig .tc := ⟨.hbm, 83, rfl⟩
abbrev main_cst_17 : Ref sig .tc := ⟨.hbm, 84, rfl⟩
abbrev main_call9_v0 : Ref sig .tc := ⟨.hbm, 85, rfl⟩
abbrev main_v43 : Ref sig .tc := ⟨.hbm, 86, rfl⟩
abbrev main_cst_18 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_19 : Ref sig .tc := ⟨.hbm, 92, rfl⟩
abbrev main_cst_20 : Ref sig .tc := ⟨.hbm, 93, rfl⟩
abbrev main_call11_v0 : Ref sig .tc := ⟨.hbm, 94, rfl⟩
abbrev main_call11_v1 : Ref sig .tc := ⟨.hbm, 95, rfl⟩
abbrev main_call11_v2 : Ref sig .tc := ⟨.hbm, 96, rfl⟩
abbrev main_call11_v3 : Ref sig .tc := ⟨.hbm, 97, rfl⟩
abbrev main_call11_v4 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S4x1024x2048_S4096x2048 : S4x1024x2048.ShapeCasts S4096x2048
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  bitsLt_bf16_f32 : FTy.bits .bf16 < FTy.bits .f32
  reducesTo_S8192x2048_S_d0_1 : S8192x2048.ReducesTo [0, 1] S_
  bcast_S_S8192x2048 : S_.BroadcastsInDim S8192x2048 (![] : Fin 0 → Fin S8192x2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  reducesTo_S4096x8192_S4096_d1 : S4096x8192.ReducesTo [1] S4096
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S2048x8192_S_d0_1 : S2048x8192.ReducesTo [0, 1] S_
  bcast_S_S2048x8192 : S_.BroadcastsInDim S2048x8192 (![] : Fin 0 → Fin S2048x8192.rank)
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S4096x2048_S4x1024x2048 : S4096x2048.ShapeCasts S4x1024x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x8192.size a
  hwx0_2 : ∀ i : grid0.Coords, EltTy.bits .f32 = 32 ∨ (Rect.block (s := S4096x8192) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x8192.size a
  hwx1_0 : ∀ i : grid1.Coords, EltTy.bits .bf16 = 32 ∨ (Rect.block (s := S4096x8192) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x8192.size a
  hwx1_1 : ∀ i : grid1.Coords, EltTy.bits .bf16 = 32 ∨ (Rect.block (s := S2048x8192) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x2048.size a
  hwx1_2 : ∀ i : grid1.Coords, EltTy.bits .f32 = 32 ∨ (Rect.block (s := S4096x2048) S512x2048.size (cc1_transform_2 i) (hinb1_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v13) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S8192x2048 : Shape := ⟨2, ![8192, 2048]⟩
abbrev S2048x8192 : Shape := ⟨2, ![2048, 8192]⟩
abbrev S_ : Shape := ⟨0, ![]⟩
abbrev S4x1024 : Shape := ⟨2, ![4, 1024]⟩
abbrev S4x1024x1 : Shape := ⟨3, ![4, 1024, 1]⟩
abbrev S4x1024x8192 : Shape := ⟨3, ![4, 1024, 8192]⟩

abbrev nBuf : Space → Nat
  | .hbm => 110
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S8192x2048, .f32⟩
  | .hbm, ⟨2, _⟩ => ⟨S2048x8192, .f32⟩
  | .hbm, ⟨3, _⟩ => ⟨S4x1024x2048, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S_, .f32⟩
  | .hbm, ⟨8, _⟩ => ⟨S_, .f32⟩
  | .hbm, ⟨9, _⟩ => ⟨S4x1024x1, .f32⟩
  | .hbm, ⟨10, _⟩ => ⟨S4x1024x1, .f32⟩
  | .hbm, ⟨11, _⟩ => ⟨S_, .f32⟩
  | .hbm, ⟨12, _⟩ => ⟨S4x1024x1, .f32⟩
  | .hbm, ⟨13, _⟩ => ⟨S4x1024x1, .f32⟩
  | .hbm, ⟨14, _⟩ => ⟨S4x1024x2048, .f32⟩
  | .hbm, ⟨15, _⟩ => ⟨S4x1024x2048, .f32⟩
  | .hbm, ⟨16, _⟩ => ⟨S4x1024x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x1024x2048, .f32⟩
  | .hbm, ⟨21, _⟩ => ⟨S4x1024x2048, .f32⟩
  | .hbm, ⟨22, _⟩ => ⟨S_, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S4x1024x2048, .f32⟩
  | .hbm, ⟨27, _⟩ => ⟨S4x1024x2048, .f32⟩
  | .hbm, ⟨28, _⟩ => ⟨S4x1024x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S4x1024x8192, .f32⟩
  | .hbm, ⟨55, _⟩ => ⟨S_, .f32⟩
  | .hbm, ⟨56, _⟩ => ⟨S4x1024x8192, .f32⟩
  | .hbm, ⟨57, _⟩ => ⟨S4x1024x8192, .f32⟩
  | .hbm, ⟨58, _⟩ => ⟨S4x1024x8192, .f32⟩
  | .hbm, ⟨59, _⟩ => ⟨S_, .f32⟩
  | .hbm, ⟨60, _⟩ => ⟨S4x1024, .f32⟩
  | .hbm, ⟨61, _⟩ => ⟨S4x1024x1, .f32⟩
  | .hbm, ⟨62, _⟩ => ⟨S_, .f32⟩
  | .hbm, ⟨63, _⟩ => ⟨S_, .f32⟩
  | .hbm, ⟨64, _⟩ => ⟨S4x1024x1, .f32⟩
  | .hbm, ⟨65, _⟩ => ⟨S4x1024x1, .f32⟩
  | .hbm, ⟨66, _⟩ => ⟨S_, .f32⟩
  | .hbm, ⟨67, _⟩ => ⟨S4x1024x1, .f32⟩
  | .hbm, ⟨68, _⟩ => ⟨S4x1024x1, .f32⟩
  | .hbm, ⟨69, _⟩ => ⟨S4x1024x8192, .f32⟩
  | .hbm, ⟨70, _⟩ => ⟨S4x1024x8192, .f32⟩
  | .hbm, ⟨71, _⟩ => ⟨S4x1024x8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4x1024x8192, .f32⟩
  | .hbm, ⟨76, _⟩ => ⟨S4x1024x8192, .f32⟩
  | .hbm, ⟨77, _⟩ => ⟨S_, .f32⟩
  | .hbm, ⟨78, _⟩ => ⟨S4x1024x8192, .f32⟩
  | .hbm, ⟨79, _⟩ => ⟨S4x1024x8192, .f32⟩
  | .hbm, ⟨80, _⟩ => ⟨S4x1024x8192, .f32⟩
  | .hbm, ⟨81, _⟩ => ⟨S4x1024x8192, .f32⟩
  | .hbm, ⟨82, _⟩ => ⟨S4x1024x8192, .f32⟩
  | .hbm, ⟨83, _⟩ => ⟨S4x1024x8192, .f32⟩
  | .hbm, ⟨84, _⟩ => ⟨S2048x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2048x8192, .f32⟩
  | .hbm, ⟨95, _⟩ => ⟨S2048x8192, .f32⟩
  | .hbm, ⟨96, _⟩ => ⟨S2048x8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S2048x8192, .f32⟩
  | .hbm, ⟨101, _⟩ => ⟨S2048x8192, .f32⟩
  | .hbm, ⟨102, _⟩ => ⟨S_, .f32⟩
  | .hbm, ⟨103, _⟩ => ⟨S2048x8192, .f32⟩
  | .hbm, ⟨104, _⟩ => ⟨S2048x8192, .f32⟩
  | .hbm, ⟨105, _⟩ => ⟨S2048x8192, .f32⟩
  | .hbm, ⟨106, _⟩ => ⟨S2048x8192, .f32⟩
  | .hbm, ⟨107, _⟩ => ⟨S2048x8192, .f32⟩
  | .hbm, ⟨108, _⟩ => ⟨S2048x8192, .f32⟩
  | .hbm, ⟨109, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_call3_v0 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call6_cst : Ref sig .tc := ⟨.hbm, 55, rfl⟩
abbrev main_call6_v0 : Ref sig .tc := ⟨.hbm, 56, rfl⟩
abbrev main_v28 : Ref sig .tc := ⟨.hbm, 57, rfl⟩
abbrev main_v29 : Ref sig .tc := ⟨.hbm, 58, rfl⟩
abbrev main_cst_10 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_call7_v0 : Ref sig .tc := ⟨.hbm, 63, rfl⟩
abbrev main_call7_v1 : Ref sig .tc := ⟨.hbm, 64, rfl⟩
abbrev main_v32 : Ref sig .tc := ⟨.hbm, 65, rfl⟩
abbrev main_cst_12 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_13 : Ref sig .tc := ⟨.hbm, 72, rfl⟩
abbrev main_cst_14 : Ref sig .tc := ⟨.hbm, 73, rfl⟩
abbrev main_call9_v0 : Ref sig .tc := ⟨.hbm, 74, rfl⟩
abbrev main_call9_v1 : Ref sig .tc := ⟨.hbm, 75, rfl⟩
abbrev main_call9_v2 : Ref sig .tc := ⟨.hbm, 76, rfl⟩
abbrev main_call9_v3 : Ref sig .tc := ⟨.hbm, 77, rfl⟩
abbrev main_call9_v4 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_15 : Ref sig .tc := ⟨.hbm, 85, rfl⟩
abbrev main_v44 : Ref sig .tc := ⟨.hbm, 86, rfl⟩
abbrev main_cst_16 : Ref sig .tc := ⟨.hbm, 87, rfl⟩
abbrev main_v45 : Ref sig .tc := ⟨.hbm, 88, rfl⟩
abbrev main_cst_17 : Ref sig .tc := ⟨.hbm, 89, rfl⟩
abbrev main_call10_v0 : Ref sig .tc := ⟨.hbm, 90, rfl⟩
abbrev main_v46 : Ref sig .tc := ⟨.hbm, 91, rfl⟩
abbrev main_cst_18 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_19 : Ref sig .tc := ⟨.hbm, 97, rfl⟩
abbrev main_cst_20 : Ref sig .tc := ⟨.hbm, 98, rfl⟩
abbrev main_call12_v0 : Ref sig .tc := ⟨.hbm, 99, rfl⟩
abbrev main_call12_v1 : Ref sig .tc := ⟨.hbm, 100, rfl⟩
abbrev main_call12_v2 : Ref sig .tc := ⟨.hbm, 101, rfl⟩
abbrev main_call12_v3 : Ref sig .tc := ⟨.hbm, 102, rfl⟩
abbrev main_call12_v4 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩

abbrev nD : Nat := 1
abbrev τ : Topo := Topo.v7x

variable {F : FTy → Type} [FloatOps F]

class Facts₀ : Prop where
  reducesTo_S4x1024x2048_S4x1024_d2 : S4x1024x2048.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x2048_0_1_2 : S4x1024x1.BroadcastsInDim S4x1024x2048 (![0, 1, 2] : Fin 3 → Fin S4x1024x2048.rank)
  bcast_S_S4x1024x2048 : S_.BroadcastsInDim S4x1024x2048 (![] : Fin 0 → Fin S4x1024x2048.rank)
  reducesTo_S8192x2048_S_d0_1 : S8192x2048.ReducesTo [0, 1] S_
  bcast_S_S8192x2048 : S_.BroadcastsInDim S8192x2048 (![] : Fin 0 → Fin S8192x2048.rank)
  bcast_S_S4x1024x8192 : S_.BroadcastsInDim S4x1024x8192 (![] : Fin 0 → Fin S4x1024x8192.rank)
  reducesTo_S4x1024x8192_S4x1024_d2 : S4x1024x8192.ReducesTo [2] S4x1024
  bcast_S4x1024x1_S4x1024x8192_0_1_2 : S4x1024x1.BroadcastsInDim S4x1024x8192 (![0, 1, 2] : Fin 3 → Fin S4x1024x8192.rank)
  reducesTo_S2048x8192_S_d0_1 : S2048x8192.ReducesTo [0, 1] S_
  bcast_S_S2048x8192 : S_.BroadcastsInDim S2048x8192 (![] : Fin 0 → Fin S2048x8192.rank)
  dot_S4x1024x2048_S8192x2048_S4x1024x8192_2_1_01_0_n_n_wf : DotDims.WF S4x1024x2048 S8192x2048 S4x1024x8192 [2] [1] [0, 1] [0] [] []
  dot_S4x1024x8192_S2048x8192_S4x1024x2048_2_1_01_0_n_n_wf : DotDims.WF S4x1024x8192 S2048x8192 S4x1024x2048 [2] [1] [0, 1] [0] [] []

variable [Facts₀]

def dot_S4x1024x2048_S8192x2048_S4x1024x8192_2_1_01_0_n_n : DotDims S4x1024x2048 S8192x2048 S4x1024x8192 where
  lhsContracting := [2]
  rhsContracting := [1]
  lhsNonContracting := [0, 1]
  rhsNonContracting := [0]
  lhsBatch := []
  rhsBatch := []
  wf := dot_S4x1024x2048_S8192x2048_S4x1024x8192_2_1_01_0_n_n_wf
def dot_S4x1024x8192_S2048x8192_S4x1024x2048_2_1_01_0_n_n : DotDims S4x1024x8192 S2048x8192 S4x1024x2048 where
  lhsContracting := [2]
  rhsContracting := [1]
  lhsNonContracting := [0, 1]
  rhsNonContracting := [0]
  lhsBatch := []
  rhsBatch := []
  wf := dot_S4x1024x8192_S2048x8192_S4x1024x2048_2_1_01_0_n_n_wf

class Facts : Prop extends Facts₀ where

variable [Facts]
-- ==== Proof.BReg0.lean ====
/-
  The first matrix product's region: what one grid point does, and the data the launch rule needs.

  The grid is 8 x 16. At point (i, j) the body is handed row block i of the quantized activations
  (512 x 2048) and row block j of the quantized weights (512 x 2048) and writes the 512 x 512 block (i, j)
  of the hidden array: the positive part of the product of the first with the transpose of the second.
  Nothing is kept from one point to the next, so after the body the two input blocks are as they were and the
  output block is the one store's value; that is all the launch rule asks.
-/
import proofs.«133375_j41592463294489_2_alg».proof.Proof.Gen.Kernel.Launch
import proofs.«133375_j41592463294489_2_alg».proof.Proof.Gen.Kernel.Skeleton
import proofs.«133375_j41592463294489_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, fixed when the regions are put in sequence
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds row block i at every point of row i of the grid, whether or not it was
    fetched there: along a row of the grid the block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds row block j at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 2048 block, as the rectangle the body loads, and the whole 512 x 512 block it stores. -/
abbrev rIn0 : Rect S512x2048 := Rect.unit (s := S512x2048) ![0, 0] S512x2048.size inb_S512x2048_S512x2048_0_0
abbrev rOut0 : Rect S512x512 := Rect.unit (s := S512x512) ![0, 0] S512x512.size inb_S512x512_S512x512_0_0

/-- The output block after the body: its one store, the positive part of the product of the two loaded blocks. -/
def out0_2 (x0 : Vec F S512x2048 .bf16) (x1 : Vec F S512x2048 .bf16) : Vec F S512x512 .f32 :=
  View.canon [⟨rOut0, k0_pay1 (View.ld x0 rIn0) (View.ld x1 rIn0)⟩]

/-- The one store covers the block. -/
theorem cover0_2 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging buffers, the inputs' at contents `x0`, `x1` and the output's at anything, runs to the end
    leaving the inputs' as they were and the output's at `out0_2 x0 x1`. -/
theorem sound_kernel0 (c : Dev nD) (E : Set ℕ) (i : grid0.Coords) (arg2 : Memref sig .tc .vmem S512x2048 .bf16) (harg2 : arg2.IsWhole) (arg3 : Memref sig .tc .vmem S512x2048 .bf16) (harg3 : arg3.IsWhole)
    (arg4 : Memref sig .tc .vmem S512x512 .f32) (harg4 : arg4.IsWhole)
    (x0 : Vec F S512x2048 .bf16) (x1 : Vec F S512x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dense1_kernel i arg2 harg2 arg3 harg3 arg4 harg4) K := by
  simp only [cc0__dense1_kernel_eq_skeleton]; unfold cc0__dense1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data the launch rule takes for this region on core `c`: the arrays as the region finds them; after the body at
    point `t` each input's buffer at its block and the output's at `out0_2` of the two input blocks; nothing carried
    between points beyond the region's untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run above applies; the region's rest and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch rule's obligation for the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BReg1Base.lean ====
/-
  The second matrix product's region: what its grid points share.

  The grid is 8 x 16. At point (i, k) the body is handed block (i, k) of the quantized hidden array (512 x 512) and
  column block k of the second quantized weights (2048 x 512). It keeps a 512 x 2048 accumulator across the sixteen
  points of a row: at k = 0 it first sets the accumulator to zero; at every point it adds the product of the first block
  with the transpose of the second; at k = 15 it copies the accumulator to the output block (i, 0), which is written back
  only there. So a point is in one of three cases, according to k = 0, 0 < k < 15, k = 15; stated here are the two
  conditions in closed form over the grid, where the output block is live, and the buffers the body is called with.
-/
import proofs.«133375_j41592463294489_2_alg».proof.Proof.Gen.Kernel.Launch
import proofs.«133375_j41592463294489_2_alg».proof.Proof.Gen.Kernel.Skeleton
import proofs.«133375_j41592463294489_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden array's staging buffer holds block (i, k) at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds column block k at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
/-- It holds at the points that are 0 modulo 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "k = 15", as the body computes it. -/
abbrev cond1_1 (i : grid1.Coords) : Prop := k1_cond2 i = 1#1
/-- It holds at the points that are 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-- The two input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k < 15 the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where k = 15 it is live. -/
theorem liveAt1_2_C : ∀ t : Fin cfg1.N, ¬cond1_0 (grid1.coords t) → cond1_1 (grid1.coords t) → cfg1.idle 2 (grid1.coords t) = false := by decide +kernel

/-- One staging buffer of the output window, through which its contents are stated (the choice does not matter). -/
abbrev VO1_2 : View sig .tc .vmem S512x2048 .f32 := (Memref.whole cc1_stg2_0 : Memref sig .tc .vmem S512x2048 .f32).view
/-- Each window's current staging buffer at point `t`, and that it is whole. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
/-- The accumulator: a whole buffer of the region's own. -/
abbrev scM1_0 : Memref sig .tc .vmem S512x2048 .f32 := Memref.whole cc1_scratch0
abbrev VS1_0 : View sig .tc .vmem S512x2048 .f32 := scM1_0.view

/-- The region's untouched rest: the other region's six staging buffers and the accumulator, each at some contents, beside the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BReg1A.lean ====
/-
  The second matrix product's body run whole, at a point with k = 0: the accumulator is set to zero and the first product added; the output block is not touched.
  The run is found by executing the body's memory operations symbolically; what each buffer ends with is recorded as the list
  of the rectangles stored into it with their values, last store first.
-/
import proofs.«133375_j41592463294489_2_alg».proof.Proof.BReg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__dense2_kernel i arg2 harg2 arg3 harg3 arg4 harg4 arg5 harg5) K } := by
  refine ⟨[], ?_, fun xi2 E K => ?run⟩
  case run =>
    simp only [cc1__dense2_kernel_eq_skeleton]; unfold cc1__dense2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BReg1B.lean ====
/-
  The second matrix product's body run whole, at a point with 0 < k < 15: the product is added to the accumulator the point before left; the output block is not touched.
  The run is found by executing the body's memory operations symbolically; what each buffer ends with is recorded as the list
  of the rectangles stored into it with their values, last store first.
-/
import proofs.«133375_j41592463294489_2_alg».proof.Proof.BReg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__dense2_kernel i arg2 harg2 arg3 harg3 arg4 harg4 arg5 harg5) K } := by
  refine ⟨[], ?_, fun xi2 E K => ?run⟩
  case run =>
    simp only [cc1__dense2_kernel_eq_skeleton]; unfold cc1__dense2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BReg1C.lean ====
/-
  The second matrix product's body run whole, at a point with k = 15: the product is added to the accumulator the point before left, and the accumulator copied to the output block.
  The run is found by executing the body's memory operations symbolically; what each buffer ends with is recorded as the list
  of the rectangles stored into it with their values, last store first.
-/
import proofs.«133375_j41592463294489_2_alg».proof.Proof.BReg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) :
    Σ' (L2 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__dense2_kernel i arg2 harg2 arg3 harg3 arg4 harg4 arg5 harg5) K } := by
  refine ⟨?_, ?_, fun E K => ?run⟩
  case run =>
    simp only [cc1__dense2_kernel_eq_skeleton]; unfold cc1__dense2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BReg1.lean ====
/-
  The second matrix product's region, point by point.

  What the accumulator and the output block hold after each grid point is defined by recursion on the point: at a point
  with k = 0 it is what the reset-and-add case leaves from the point's two input blocks; at a later point it is what the
  add case (and at k = 15 the add-and-copy case) leaves from the input blocks and the accumulator the point before left.
  The region's invariant hands the body the accumulator at exactly those contents, which is what lets the sixteen partial
  products of a row of the grid be named; the launch rule then needs only the body's run in each case.
-/
import proofs.«133375_j41592463294489_2_alg».proof.Proof.BReg1A
import proofs.«133375_j41592463294489_2_alg».proof.Proof.BReg1B
import proofs.«133375_j41592463294489_2_alg».proof.Proof.BReg1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- With k = 0 nothing is stored into the output block: a placeholder that nothing consults. -/
def out1_A_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) : Vec F S512x2048 .f32 :=
  VO1_2.read (Elt F) (VO1_2.writes (Elt F) VO1_2.junk (kernelRun1_A c i arg2 harg2 arg3 harg3 arg4 harg4 arg5 harg5 hc0 hc1 x0 x1).1)

/-- With k = 0 the stores into the accumulator cover it. -/
theorem scover1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) (y : S512x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S512x2048.size (by sl_kernel_rfl) y

/-- What the accumulator holds after a point with k = 0. -/
def sout1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) : Vec F S512x2048 .f32 :=
  VS1_0.read (Elt F) (VS1_0.writes (Elt F) VS1_0.junk (kernelRun1_A c i arg2 harg2 arg3 harg3 arg4 harg4 arg5 harg5 hc0 hc1 x0 x1).2.1)

/-- With 0 < k < 15 nothing is stored into the output block either. -/
def out1_B_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) : Vec F S512x2048 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) (y : S512x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S512x2048.size (by sl_kernel_rfl) y

/-- What the accumulator holds after a point with 0 < k < 15, from what the point before left in it. -/
def sout1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) : Vec F S512x2048 .f32 :=
  VS1_0.read (Elt F) (VS1_0.writes (Elt F) VS1_0.junk (kernelRun1_B c i arg2 harg2 arg3 harg3 arg4 harg4 arg5 harg5 hc0 hc1 x0 x1 xs0).2.1)

/-- With k = 15 the one store into the output block covers it. -/
theorem cover1_C_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) (y : S512x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S512x2048.size (by sl_kernel_rfl) y

/-- What the output block holds after a point with k = 15. -/
def out1_C_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) : Vec F S512x2048 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) (y : S512x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S512x2048.size (by sl_kernel_rfl) y

/-- What the accumulator holds after a point with k = 15. -/
def sout1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) : Vec F S512x2048 .f32 :=
  VS1_0.read (Elt F) (VS1_0.writes (Elt F) VS1_0.junk (kernelRun1_C c i arg2 harg2 arg3 harg3 arg4 harg4 arg5 harg5 hc0 hc1 x0 x1 xs0).2.1)

/-! ## The accumulation, point by point -/

/-- What the output block and the accumulator hold after the body at position `n` (a pair: the output block, then the
    accumulator): the case the position's residue modulo 16 selects, run at the point's buffers and input blocks, over the
    accumulator the position before left. Residues 0 and 15 at once are no position. -/
def outsAt1 (c : Dev nD) : (n : ℕ) → n < cfg1.N → Vec F S512x2048 .f32 × Vec F S512x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with k = 0. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point with 0 < k < 15: over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 15: over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the start the region's untouched rest (the accumulator at anything); afterwards the accumulator
    at what the position before left, beside the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The data the launch rule takes -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the residue of the point modulo 16 says which case it is
    in; the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Hb1, Hb2, Hb3, Hb4, Hb5, Hb6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨Hb1, Hb2, Hb3, Hb4, Hb5, Hb6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; have hN : t.val < 128 := lt_of_lt_of_eq t.isLt (show cfg1.N = 128 from N_1); omega
      · rw [PhiS_castSucc V c t, PhiS_pos V c _ _ hz]
        iintro ⟨⟨⟨Hb1, Hb2, Hb3, Hb4, Hb5, Hb6, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; have hN : t.val < 128 := lt_of_lt_of_eq t.isLt (show cfg1.N = 128 from N_1); omega
      · rw [PhiS_castSucc V c t, PhiS_pos V c _ _ hz]
        iintro ⟨⟨⟨Hb1, Hb2, Hb3, Hb4, Hb5, Hb6, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the untouched rest back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, Hb6, HS0⟩, Hg⟩
  isplitl [Hb1 Hb2 Hb3 Hb4 Hb5 Hb6 HS0]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.BRun.lean ====
/-
  The whole program's run: host operations, the first matrix product's region, host operations, the second's, a reshape.

  Between two items of the program every array holds what the items before it left: the launch contents, then each
  stretch of host operations applied, and after a region its output array at what the region's write-backs leave. Each
  region is entered with its three arrays split out of those contents and left with them put back; the accumulator of
  the second region is given to it at anything and taken back at anything. The frame follows: no item writes an argument.
-/
import proofs.«133375_j41592463294489_2_alg».proof.Proof.Gen.Kernel.Regions
import proofs.«133375_j41592463294489_2_alg».proof.Proof.BReg0
import proofs.«133375_j41592463294489_2_alg».proof.Proof.BReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays between the items -/

/-- The contents the first region is entered with, read at a reference. -/
abbrev U13 (c : Dev nD) (b : Ref sig .tc) : Buf (Elt F) ((c : Thread nD τ).loc b) := V13 m c b

/-- The hidden array as the first region's write-backs leave it. -/
def out14 (c : Dev nD) : Buf (Elt F) ((c : Thread nD τ).loc main_v26) := (dat0 (U13 m) c).arrAt 2 cfg0.N

/-- What the regions leave, first the hidden array alone, -/
def outs1 : Outs (F := F) := fun _ r c => (Function.update (V13 m c) main_v26 (out14 m c)) r

/-- The contents the second region is entered with, read at a reference. -/
abbrev U27 (c : Dev nD) (b : Ref sig .tc) : Buf (Elt F) ((c : Thread nD τ).loc b) := V27 m (outs1 m) c b

/-- The output array as the second region's write-backs leave it. -/
def out28 (c : Dev nD) : Buf (Elt F) ((c : Thread nD τ).loc main_v52) := (dat1 (U27 m) c).arrAt 2 cfg1.N

/-- then both. -/
def outs : Outs (F := F) := fun J r c =>
  if J = 28 then (Function.update (V27 m (outs1 m) c) main_v52 (out28 m c)) r else outs1 m J r c

theorem outs_14 (c : Dev nD) : outs m 14 main_v26 c = out14 m c := by
  unfold outs; rw [if_neg (by decide)]; unfold outs1; exact Function.update_self _ _ _

theorem outs_28 (c : Dev nD) : outs m 28 main_v52 c = out28 m c := by
  unfold outs; rw [if_pos rfl]; exact Function.update_self _ _ _

/-- Up to the second region only the hidden array has been left. -/
theorem V27_outs (c : Dev nD) : V27 m (outs m) c = V27 m (outs1 m) c := by
  have e : outs m 14 main_v26 c = outs1 m 14 main_v26 c := by
    rw [outs_14]; unfold outs1; exact Eq.symm (Function.update_self _ _ _)
  dsimp only [V27, V26, V25, V24, V23, V22, V21, V20, V19, V18, V17, V16, V15, V14]
  rw [e]

abbrev U14 (c : Dev nD) (b : Ref sig .tc) : Buf (Elt F) ((c : Thread nD τ).loc b) := V14 m (outs m) c b
abbrev U28 (c : Dev nD) (b : Ref sig .tc) : Buf (Elt F) ((c : Thread nD τ).loc b) := V28 m (outs m) c b

theorem U14_v26 (c : Dev nD) : U14 m c main_v26 = out14 m c := by
  show Function.update (V13 m c) main_v26 (outs m 14 main_v26 c) main_v26 = _
  rw [Function.update_self, outs_14]

theorem U28_v52 (c : Dev nD) : U28 m c main_v52 = out28 m c := by
  show Function.update (V27 m (outs m) c) main_v52 (outs m 28 main_v52 c) main_v52 = _
  rw [Function.update_self, outs_28]

/-- After the first region each of its arrays holds what the region leaves, -/
theorem hF0 (c : Dev nD) (w : Fin cfg0.W) : (dat0 (U13 m) c).arrAt w cfg0.N = U14 m c (Pipeline.arrRef spec0 w) := by
  match w with
  | ⟨0, _⟩ => exact (((dat0 (U13 m) c).arrAt_in 0 rfl _).trans (A_eq0 (U13 m) c 0)).trans (V14_of m (outs m) c main_v13 (by decide)).symm
  | ⟨1, _⟩ => exact (((dat0 (U13 m) c).arrAt_in 1 rfl _).trans (A_eq0 (U13 m) c 1)).trans (V14_of m (outs m) c main_v25 (by decide)).symm
  | ⟨2, _⟩ => exact (U14_v26 m c).symm
/-- and every other array what it held. -/
theorem hrest0 (c : Dev nD) : ∀ b, b ∉ Finset.univ.image (Pipeline.arrRef spec0) → U14 m c b = U13 m c b := fun b hb =>
  V14_of m (outs m) c b (fun h => hb (Finset.mem_image.mpr ⟨2, Finset.mem_univ _, (List.mem_singleton.mp h).symm⟩))

theorem hF1 (c : Dev nD) (w : Fin cfg1.W) : (dat1 (U27 m) c).arrAt w cfg1.N = U28 m c (Pipeline.arrRef spec1 w) := by
  match w with
  | ⟨0, _⟩ => exact (((dat1 (U27 m) c).arrAt_in 0 rfl _).trans (A_eq1 (U27 m) c 0)).trans ((V28_of m (outs m) c main_v39 (by decide)).trans (congrFun (V27_outs m c) _)).symm
  | ⟨1, _⟩ => exact (((dat1 (U27 m) c).arrAt_in 1 rfl _).trans (A_eq1 (U27 m) c 1)).trans ((V28_of m (outs m) c main_v51 (by decide)).trans (congrFun (V27_outs m c) _)).symm
  | ⟨2, _⟩ => exact (U28_v52 m c).symm
theorem hrest1 (c : Dev nD) : ∀ b, b ∉ Finset.univ.image (Pipeline.arrRef spec1) → U28 m c b = U27 m c b := fun b hb =>
  (V28_of m (outs m) c b (fun h => hb (Finset.mem_image.mpr ⟨2, Finset.mem_univ _, (List.mem_singleton.mp h).symm⟩))).trans (congrFun (V27_outs m c) _)

/-! ## The regions as items -/

/-- Each region's data, at the contents it is entered with. -/
def pdats : (p : Fin 2) → (c : Dev nD) → Dat τ (Elt F) Unit ℕ (UR sig nD τ) ℕ (Pipeline.pin (pcfgs (F := F)) adm p) c
  | ⟨0, _⟩ => fun c => dat0 (U13 m) c
  | ⟨1, _⟩ => fun c => dat1 (U27 m) c

abbrev L : GSem nD τ sig → Finset Unit := fun _ => ∅
abbrev lv : GSem nD τ sig → Unit → ℕ := fun _ _ => 0
/-- What rides beside the arrays through every item: the generator register at some state, and the core owing nothing. -/
abbrev R (c : Dev nD) : sProp 𝕄 := iprop((∃ r, prngReg c r) ∗ ∃ W, owes (c : Thread nD τ) (0 : CellTallies nD τ sig Unit) W)

/-- What the launch gives a core, less what this program does not use, is what rides beside the arrays. -/
theorem launchR (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R c := by
  iintro ⟨-, HO, -, Hp, -⟩
  isplitl [Hp]; · iexists _; iexact Hp
  iexists ∅; iexact HO

set_option backward.isDefEq.respectTransparency.types false in
/-- The first region: entered from the arrays at the contents after the first thirteen stretches, left with the hidden
    array at what its write-backs leave. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U13 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U13 m c) (U14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the arrays at the contents after the next thirteen stretches, left with the output
    array at what its write-backs leave; the accumulator goes in at anything and comes back at anything. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U27 m) c).loose
  hwaits := Pipeline.hwaits_of_owed_zero _ _ _ _ L lv 1 fun _ _ => rfl
  pre c := iprop(StableHlo.held (c : Thread nD τ) (Pipeline.ucRefs τ sig) (V27 m (outs1 m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U27 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U27 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U27 m c) (U28 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program terminates, nothing faulting, with
    the three argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (show (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => (R c : sProp 𝕄)) from bigSep_mono fun c _ => launchR ρ c)
      iexact H)
    (hE2 := fun c => by iintro ⟨-, HO⟩; iexact HO)
    (R0 := reg0 m) (hpre0 := fun _ => .rfl) (hpost0 := fun _ => .rfl)
    (R1 := reg1 m) (hpre1 := fun c => by rw [V27_outs]; exact .rfl) (hpost1 := fun _ => .rfl)

end Cert.Kernel.Hand

end
-- ==== Proof.KReg0.lean ====
/-
  The first matrix product's region: what one grid point does, and the data the launch rule needs.

  The grid is 8 x 16. At point (i, j) the body is handed row block i of the quantized activations
  (512 x 2048) and row block j of the quantized weights (512 x 2048) and writes the 512 x 512 block (i, j)
  of the hidden array: the positive part of the product of the first with the transpose of the second.
  Nothing is kept from one point to the next, so after the body the two input blocks are as they were and the
  output block is the one store's value; that is all the launch rule asks.
-/
import proofs.«133375_j41592463294489_2_alg».proof.Proof.Gen.KernelIdeal.Launch
import proofs.«133375_j41592463294489_2_alg».proof.Proof.Gen.KernelIdeal.Skeleton
import proofs.«133375_j41592463294489_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, fixed when the regions are put in sequence
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds row block i at every point of row i of the grid, whether or not it was
    fetched there: along a row of the grid the block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds row block j at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 2048 block, as the rectangle the body loads, and the whole 512 x 512 block it stores. -/
abbrev rIn0 : Rect S512x2048 := Rect.unit (s := S512x2048) ![0, 0] S512x2048.size inb_S512x2048_S512x2048_0_0
abbrev rOut0 : Rect S512x512 := Rect.unit (s := S512x512) ![0, 0] S512x512.size inb_S512x512_S512x512_0_0

/-- The output block after the body: its one store, the positive part of the product of the two loaded blocks. -/
def out0_2 (x0 : Vec F S512x2048 .bf16) (x1 : Vec F S512x2048 .bf16) : Vec F S512x512 .f32 :=
  View.canon [⟨rOut0, k0_pay1 (View.ld x0 rIn0) (View.ld x1 rIn0)⟩]

/-- The one store covers the block. -/
theorem cover0_2 (p0 : Vec F S512x512 .f32) (y : S512x512.Idx) :
    ∃ pc ∈ ([⟨rOut0, p0⟩] : List (View.Piece (Elt F) S512x512 .f32)), y ∈ pc.1.set :=
  View.cover_of_tiled [⟨rOut0, p0⟩] S512x512.size (by rfl) y

set_option maxHeartbeats 1000000 in
/-- The body on whole staging buffers, the inputs' at contents `x0`, `x1` and the output's at anything, runs to the end
    leaving the inputs' as they were and the output's at `out0_2 x0 x1`. -/
theorem sound_kernel0 (c : Dev nD) (E : Set ℕ) (i : grid0.Coords) (arg2 : Memref sig .tc .vmem S512x2048 .bf16) (harg2 : arg2.IsWhole) (arg3 : Memref sig .tc .vmem S512x2048 .bf16) (harg3 : arg3.IsWhole)
    (arg4 : Memref sig .tc .vmem S512x512 .f32) (harg4 : arg4.IsWhole)
    (x0 : Vec F S512x2048 .bf16) (x1 : Vec F S512x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dense1_kernel i arg2 harg2 arg3 harg3 arg4 harg4) K := by
  simp only [cc0__dense1_kernel_eq_skeleton]; unfold cc0__dense1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data the launch rule takes for this region on core `c`: the arrays as the region finds them; after the body at
    point `t` each input's buffer at its block and the output's at `out0_2` of the two input blocks; nothing carried
    between points beyond the region's untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run above applies; the region's rest and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch rule's obligation for the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KReg1Base.lean ====
/-
  The second matrix product's region: what its grid points share.

  The grid is 8 x 16. At point (i, k) the body is handed block (i, k) of the quantized hidden array (512 x 512) and
  column block k of the second quantized weights (2048 x 512). It keeps a 512 x 2048 accumulator across the sixteen
  points of a row: at k = 0 it first sets the accumulator to zero; at every point it adds the product of the first block
  with the transpose of the second; at k = 15 it copies the accumulator to the output block (i, 0), which is written back
  only there. So a point is in one of three cases, according to k = 0, 0 < k < 15, k = 15; stated here are the two
  conditions in closed form over the grid, where the output block is live, and the buffers the body is called with.
-/
import proofs.«133375_j41592463294489_2_alg».proof.Proof.Gen.KernelIdeal.Launch
import proofs.«133375_j41592463294489_2_alg».proof.Proof.Gen.KernelIdeal.Skeleton
import proofs.«133375_j41592463294489_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden array's staging buffer holds block (i, k) at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds column block k at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
/-- It holds at the points that are 0 modulo 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "k = 15", as the body computes it. -/
abbrev cond1_1 (i : grid1.Coords) : Prop := k1_cond2 i = 1#1
/-- It holds at the points that are 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-- The two input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k < 15 the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where k = 15 it is live. -/
theorem liveAt1_2_C : ∀ t : Fin cfg1.N, ¬cond1_0 (grid1.coords t) → cond1_1 (grid1.coords t) → cfg1.idle 2 (grid1.coords t) = false := by decide +kernel

/-- One staging buffer of the output window, through which its contents are stated (the choice does not matter). -/
abbrev VO1_2 : View sig .tc .vmem S512x2048 .f32 := (Memref.whole cc1_stg2_0 : Memref sig .tc .vmem S512x2048 .f32).view
/-- Each window's current staging buffer at point `t`, and that it is whole. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
/-- The accumulator: a whole buffer of the region's own. -/
abbrev scM1_0 : Memref sig .tc .vmem S512x2048 .f32 := Memref.whole cc1_scratch0
abbrev VS1_0 : View sig .tc .vmem S512x2048 .f32 := scM1_0.view

/-- The region's untouched rest: the other region's six staging buffers and the accumulator, each at some contents, beside the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KReg1A.lean ====
/-
  The second matrix product's body run whole, at a point with k = 0: the accumulator is set to zero and the first product added; the output block is not touched.
  The run is found by executing the body's memory operations symbolically; what each buffer ends with is recorded as the list
  of the rectangles stored into it with their values, last store first.
-/
import proofs.«133375_j41592463294489_2_alg».proof.Proof.KReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__dense2_kernel i arg2 harg2 arg3 harg3 arg4 harg4 arg5 harg5) K } := by
  refine ⟨[], ?_, fun xi2 E K => ?run⟩
  case run =>
    simp only [cc1__dense2_kernel_eq_skeleton]; unfold cc1__dense2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KReg1B.lean ====
/-
  The second matrix product's body run whole, at a point with 0 < k < 15: the product is added to the accumulator the point before left; the output block is not touched.
  The run is found by executing the body's memory operations symbolically; what each buffer ends with is recorded as the list
  of the rectangles stored into it with their values, last store first.
-/
import proofs.«133375_j41592463294489_2_alg».proof.Proof.KReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) :
    Σ' (L2 : List (View.Piece (Elt F) S512x2048 .f32)), { LS0 : List (View.Piece (Elt F) S512x2048 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__dense2_kernel i arg2 harg2 arg3 harg3 arg4 harg4 arg5 harg5) K } := by
  refine ⟨[], ?_, fun xi2 E K => ?run⟩
  case run =>
    simp only [cc1__dense2_kernel_eq_skeleton]; unfold cc1__dense2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KReg1C.lean ====
/-
  The second matrix product's body run whole, at a point with k = 15: the product is added to the accumulator the point before left, and the accumulator copied to the output block.
  The run is found by executing the body's memory operations symbolically; what each buffer ends with is recorded as the list
  of the rectangles stored into it with their values, last store first.
-/
import proofs.«133375_j41592463294489_2_alg».proof.Proof.KReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) :
    Σ' (L2 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__dense2_kernel i arg2 harg2 arg3 harg3 arg4 harg4 arg5 harg5) K } := by
  refine ⟨?_, ?_, fun E K => ?run⟩
  case run =>
    simp only [cc1__dense2_kernel_eq_skeleton]; unfold cc1__dense2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KReg1.lean ====
/-
  The second matrix product's region, point by point.

  What the accumulator and the output block hold after each grid point is defined by recursion on the point: at a point
  with k = 0 it is what the reset-and-add case leaves from the point's two input blocks; at a later point it is what the
  add case (and at k = 15 the add-and-copy case) leaves from the input blocks and the accumulator the point before left.
  The region's invariant hands the body the accumulator at exactly those contents, which is what lets the sixteen partial
  products of a row of the grid be named; the launch rule then needs only the body's run in each case.
-/
import proofs.«133375_j41592463294489_2_alg».proof.Proof.KReg1A
import proofs.«133375_j41592463294489_2_alg».proof.Proof.KReg1B
import proofs.«133375_j41592463294489_2_alg».proof.Proof.KReg1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- With k = 0 nothing is stored into the output block: a placeholder that nothing consults. -/
def out1_A_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) : Vec F S512x2048 .f32 :=
  VO1_2.read (Elt F) (VO1_2.writes (Elt F) VO1_2.junk (kernelRun1_A c i arg2 harg2 arg3 harg3 arg4 harg4 arg5 harg5 hc0 hc1 x0 x1).1)

/-- With k = 0 the stores into the accumulator cover it. -/
theorem scover1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) (y : S512x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S512x2048.size (by sl_kernel_rfl) y

/-- What the accumulator holds after a point with k = 0. -/
def sout1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond1_0 i) (hc1 : ¬cond1_1 i)
    (x0 : Vec F S512x512 .bf16) (x1 : Vec F S2048x512 .bf16) : Vec F S512x2048 .f32 :=
  VS1_0.read (Elt F) (VS1_0.writes (Elt F) VS1_0.junk (kernelRun1_A c i arg2 harg2 arg3 harg3 arg4 harg4 arg5 harg5 hc0 hc1 x0 x1).2.1)

/-- With 0 < k < 15 nothing is stored into the output block either. -/
def out1_B_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) : Vec F S512x2048 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) (y : S512x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S512x2048.size (by sl_kernel_rfl) y

/-- What the accumulator holds after a point with 0 < k < 15, from what the point before left in it. -/
def sout1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : ¬cond1_1 i)
    (x0 : Vec F S512x512 .bf16) (x1 : Vec F S2048x512 .bf16) (xs0 : Vec F S512x2048 .f32) : Vec F S512x2048 .f32 :=
  VS1_0.read (Elt F) (VS1_0.writes (Elt F) VS1_0.junk (kernelRun1_B c i arg2 harg2 arg3 harg3 arg4 harg4 arg5 harg5 hc0 hc1 x0 x1 xs0).2.1)

/-- With k = 15 the one store into the output block covers it. -/
theorem cover1_C_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) (y : S512x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S512x2048.size (by sl_kernel_rfl) y

/-- What the output block holds after a point with k = 15. -/
def out1_C_2 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) : Vec F S512x2048 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) (y : S512x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S512x2048.size (by sl_kernel_rfl) y

/-- What the accumulator holds after a point with k = 15. -/
def sout1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond1_0 i) (hc1 : cond1_1 i)
    (x0 : Vec F S512x512 .bf16) (x1 : Vec F S2048x512 .bf16) (xs0 : Vec F S512x2048 .f32) : Vec F S512x2048 .f32 :=
  VS1_0.read (Elt F) (VS1_0.writes (Elt F) VS1_0.junk (kernelRun1_C c i arg2 harg2 arg3 harg3 arg4 harg4 arg5 harg5 hc0 hc1 x0 x1 xs0).2.1)

/-! ## The accumulation, point by point -/

/-- What the output block and the accumulator hold after the body at position `n` (a pair: the output block, then the
    accumulator): the case the position's residue modulo 16 selects, run at the point's buffers and input blocks, over the
    accumulator the position before left. Residues 0 and 15 at once are no position. -/
def outsAt1 (c : Dev nD) : (n : ℕ) → n < cfg1.N → Vec F S512x2048 .f32 × Vec F S512x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with k = 0. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point with 0 < k < 15: over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 15: over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: at the start the region's untouched rest (the accumulator at anything); afterwards the accumulator
    at what the position before left, beside the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The data the launch rule takes -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the residue of the point modulo 16 says which case it is
    in; the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Hb1, Hb2, Hb3, Hb4, Hb5, Hb6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨Hb1, Hb2, Hb3, Hb4, Hb5, Hb6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; have hN : t.val < 128 := lt_of_lt_of_eq t.isLt (show cfg1.N = 128 from N_1); omega
      · rw [PhiS_castSucc V c t, PhiS_pos V c _ _ hz]
        iintro ⟨⟨⟨Hb1, Hb2, Hb3, Hb4, Hb5, Hb6, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; have hN : t.val < 128 := lt_of_lt_of_eq t.isLt (show cfg1.N = 128 from N_1); omega
      · rw [PhiS_castSucc V c t, PhiS_pos V c _ _ hz]
        iintro ⟨⟨⟨Hb1, Hb2, Hb3, Hb4, Hb5, Hb6, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hb1 Hb2 Hb3 Hb4 Hb5 Hb6 HS0 Hg]
        · isplitl [Hb1 Hb2 Hb3 Hb4 Hb5 Hb6 HS0]
          · isplitl [Hb1]; · iexact Hb1
            isplitl [Hb2]; · iexact Hb2
            isplitl [Hb3]; · iexact Hb3
            isplitl [Hb4]; · iexact Hb4
            isplitl [Hb5]; · iexact Hb5
            isplitl [Hb6]; · iexact Hb6
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the untouched rest back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, Hb6, HS0⟩, Hg⟩
  isplitl [Hb1 Hb2 Hb3 Hb4 Hb5 Hb6 HS0]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KRun.lean ====
/-
  The whole program's run: host operations, the first matrix product's region, host operations, the second's, a reshape.

  Between two items of the program every array holds what the items before it left: the launch contents, then each
  stretch of host operations applied, and after a region its output array at what the region's write-backs leave. Each
  region is entered with its three arrays split out of those contents and left with them put back; the accumulator of
  the second region is given to it at anything and taken back at anything. The frame follows: no item writes an argument.
-/
import proofs.«133375_j41592463294489_2_alg».proof.Proof.Gen.KernelIdeal.Regions
import proofs.«133375_j41592463294489_2_alg».proof.Proof.KReg0
import proofs.«133375_j41592463294489_2_alg».proof.Proof.KReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays between the items -/

/-- The contents the first region is entered with, read at a reference. -/
abbrev U13 (c : Dev nD) (b : Ref sig .tc) : Buf (Elt F) ((c : Thread nD τ).loc b) := V13 m c b

/-- The hidden array as the first region's write-backs leave it. -/
def out14 (c : Dev nD) : Buf (Elt F) ((c : Thread nD τ).loc main_v26) := (dat0 (U13 m) c).arrAt 2 cfg0.N

/-- What the regions leave, first the hidden array alone, -/
def outs1 : Outs (F := F) := fun _ r c => (Function.update (V13 m c) main_v26 (out14 m c)) r

/-- The contents the second region is entered with, read at a reference. -/
abbrev U27 (c : Dev nD) (b : Ref sig .tc) : Buf (Elt F) ((c : Thread nD τ).loc b) := V27 m (outs1 m) c b

/-- The output array as the second region's write-backs leave it. -/
def out28 (c : Dev nD) : Buf (Elt F) ((c : Thread nD τ).loc main_v52) := (dat1 (U27 m) c).arrAt 2 cfg1.N

/-- then both. -/
def outs : Outs (F := F) := fun J r c =>
  if J = 28 then (Function.update (V27 m (outs1 m) c) main_v52 (out28 m c)) r else outs1 m J r c

theorem outs_14 (c : Dev nD) : outs m 14 main_v26 c = out14 m c := by
  unfold outs; rw [if_neg (by decide)]; unfold outs1; exact Function.update_self _ _ _

theorem outs_28 (c : Dev nD) : outs m 28 main_v52 c = out28 m c := by
  unfold outs; rw [if_pos rfl]; exact Function.update_self _ _ _

/-- Up to the second region only the hidden array has been left. -/
theorem V27_outs (c : Dev nD) : V27 m (outs m) c = V27 m (outs1 m) c := by
  have e : outs m 14 main_v26 c = outs1 m 14 main_v26 c := by
    rw [outs_14]; unfold outs1; exact Eq.symm (Function.update_self _ _ _)
  dsimp only [V27, V26, V25, V24, V23, V22, V21, V20, V19, V18, V17, V16, V15, V14]
  rw [e]

abbrev U14 (c : Dev nD) (b : Ref sig .tc) : Buf (Elt F) ((c : Thread nD τ).loc b) := V14 m (outs m) c b
abbrev U28 (c : Dev nD) (b : Ref sig .tc) : Buf (Elt F) ((c : Thread nD τ).loc b) := V28 m (outs m) c b

theorem U14_v26 (c : Dev nD) : U14 m c main_v26 = out14 m c := by
  show Function.update (V13 m c) main_v26 (outs m 14 main_v26 c) main_v26 = _
  rw [Function.update_self, outs_14]

theorem U28_v52 (c : Dev nD) : U28 m c main_v52 = out28 m c := by
  show Function.update (V27 m (outs m) c) main_v52 (outs m 28 main_v52 c) main_v52 = _
  rw [Function.update_self, outs_28]

/-- After the first region each of its arrays holds what the region leaves, -/
theorem hF0 (c : Dev nD) (w : Fin cfg0.W) : (dat0 (U13 m) c).arrAt w cfg0.N = U14 m c (Pipeline.arrRef spec0 w) := by
  match w with
  | ⟨0, _⟩ => exact (((dat0 (U13 m) c).arrAt_in 0 rfl _).trans (A_eq0 (U13 m) c 0)).trans (V14_of m (outs m) c main_v13 (by decide)).symm
  | ⟨1, _⟩ => exact (((dat0 (U13 m) c).arrAt_in 1 rfl _).trans (A_eq0 (U13 m) c 1)).trans (V14_of m (outs m) c main_v25 (by decide)).symm
  | ⟨2, _⟩ => exact (U14_v26 m c).symm
/-- and every other array what it held. -/
theorem hrest0 (c : Dev nD) : ∀ b, b ∉ Finset.univ.image (Pipeline.arrRef spec0) → U14 m c b = U13 m c b := fun b hb =>
  V14_of m (outs m) c b (fun h => hb (Finset.mem_image.mpr ⟨2, Finset.mem_univ _, (List.mem_singleton.mp h).symm⟩))

theorem hF1 (c : Dev nD) (w : Fin cfg1.W) : (dat1 (U27 m) c).arrAt w cfg1.N = U28 m c (Pipeline.arrRef spec1 w) := by
  match w with
  | ⟨0, _⟩ => exact (((dat1 (U27 m) c).arrAt_in 0 rfl _).trans (A_eq1 (U27 m) c 0)).trans ((V28_of m (outs m) c main_v39 (by decide)).trans (congrFun (V27_outs m c) _)).symm
  | ⟨1, _⟩ => exact (((dat1 (U27 m) c).arrAt_in 1 rfl _).trans (A_eq1 (U27 m) c 1)).trans ((V28_of m (outs m) c main_v51 (by decide)).trans (congrFun (V27_outs m c) _)).symm
  | ⟨2, _⟩ => exact (U28_v52 m c).symm
theorem hrest1 (c : Dev nD) : ∀ b, b ∉ Finset.univ.image (Pipeline.arrRef spec1) → U28 m c b = U27 m c b := fun b hb =>
  (V28_of m (outs m) c b (fun h => hb (Finset.mem_image.mpr ⟨2, Finset.mem_univ _, (List.mem_singleton.mp h).symm⟩))).trans (congrFun (V27_outs m c) _)

/-! ## The regions as items -/

/-- Each region's data, at the contents it is entered with. -/
def pdats : (p : Fin 2) → (c : Dev nD) → Dat τ (Elt F) Unit ℕ (UR sig nD τ) ℕ (Pipeline.pin (pcfgs (F := F)) adm p) c
  | ⟨0, _⟩ => fun c => dat0 (U13 m) c
  | ⟨1, _⟩ => fun c => dat1 (U27 m) c

abbrev L : GSem nD τ sig → Finset Unit := fun _ => ∅
abbrev lv : GSem nD τ sig → Unit → ℕ := fun _ _ => 0
/-- What rides beside the arrays through every item: the generator register at some state, and the core owing nothing. -/
abbrev R (c : Dev nD) : sProp 𝕄 := iprop((∃ r, prngReg c r) ∗ ∃ W, owes (c : Thread nD τ) (0 : CellTallies nD τ sig Unit) W)

/-- What the launch gives a core, less what this program does not use, is what rides beside the arrays. -/
theorem launchR (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R c := by
  iintro ⟨-, HO, -, Hp, -⟩
  isplitl [Hp]; · iexists _; iexact Hp
  iexists ∅; iexact HO

set_option backward.isDefEq.respectTransparency.types false in
/-- The first region: entered from the arrays at the contents after the first thirteen stretches, left with the hidden
    array at what its write-backs leave. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U13 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U13 m c) (U14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the arrays at the contents after the next thirteen stretches, left with the output
    array at what its write-backs leave; the accumulator goes in at anything and comes back at anything. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U27 m) c).loose
  hwaits := Pipeline.hwaits_of_owed_zero _ _ _ _ L lv 1 fun _ _ => rfl
  pre c := iprop(StableHlo.held (c : Thread nD τ) (Pipeline.ucRefs τ sig) (V27 m (outs1 m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U27 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U27 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U27 m c) (U28 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of the program terminates, nothing faulting, with
    the three argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (show (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => (R c : sProp 𝕄)) from bigSep_mono fun c _ => launchR ρ c)
      iexact H)
    (hE2 := fun c => by iintro ⟨-, HO⟩; iexact HO)
    (R0 := reg0 m) (hpre0 := fun _ => .rfl) (hpost0 := fun _ => .rfl)
    (R1 := reg1 m) (hpre1 := fun c => by rw [V27_outs]; exact .rfl) (hpost1 := fun _ => .rfl)

end Cert.KernelIdeal.Hand

end
-- ==== Proof.RefRunLemmas.lean ====
/-
  A straight line of operations, read one operation at a time.

  What a buffer holds after a straight line of operations is the fold of the operations' results over the contents
  the line starts from. The fold is read from the front: after one more operation the buffer it writes holds the
  operation's function of what its operands held, and every other buffer holds what it held. So a property of the
  contents after the whole line follows if it holds after the rest of the line from ANY contents with those two
  properties. Used along a line in which every operation writes a buffer of its own: if each operand held a value
  known by name, the written buffer now holds the operation's function of those, and the buffers still to be read keep
  what they held; no term longer than one operation's is ever formed.
-/
import proofs.«133375_j41592463294489_2_alg».proof.Proof.Gen.ReferenceIdeal
import Idealize.ShloMosaic.Lib.StableHlo.Run

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-! ## One more operation

For a property Q of the contents after the line: it holds after an operation followed by the rest if it holds after
the rest from ANY contents that have the operation's value at its result buffer and the old contents elsewhere. -/

theorem after_nullary_k {Q : Valuation τ sig (Elt F) → Prop} {y : Ref sig .tc} {v : y.ty.Contents (Elt F)} {hy}
    {rest : List (HloOp τ sig (Elt F))} {V : Valuation τ sig (Elt F)}
    (k : ∀ V' : Valuation τ sig (Elt F), V' (Proc.devRef .tc y) = v →
      (∀ r : Ref sig .tc, r ≠ y → V' (Proc.devRef .tc r) = V (Proc.devRef .tc r)) → Q (after rest V')) :
    Q (after (nullary y v hy :: rest) V) :=
  k _ (nullary_result y v hy V) (fun r hr => nullary_result_ne y v hy V hr)

theorem after_unary_k {Q : Valuation τ sig (Elt F) → Prop} {x y : Ref sig .tc} {f : x.ty.Contents (Elt F) → y.ty.Contents (Elt F)} {hx hy}
    {rest : List (HloOp τ sig (Elt F))} {V : Valuation τ sig (Elt F)} {X : x.ty.Contents (Elt F)}
    (hX : V (Proc.devRef .tc x) = X)
    (k : ∀ V' : Valuation τ sig (Elt F), V' (Proc.devRef .tc y) = f X →
      (∀ r : Ref sig .tc, r ≠ y → V' (Proc.devRef .tc r) = V (Proc.devRef .tc r)) → Q (after rest V')) :
    Q (after (unary x y f hx hy :: rest) V) := by
  subst hX
  exact k _ (unary_result x y f hx hy V) (fun r hr => unary_result_ne x y f hx hy V hr)

theorem after_binary_k {Q : Valuation τ sig (Elt F) → Prop} {a b y : Ref sig .tc}
    {f : a.ty.Contents (Elt F) → b.ty.Contents (Elt F) → y.ty.Contents (Elt F)} {ha hb hy}
    {rest : List (HloOp τ sig (Elt F))} {V : Valuation τ sig (Elt F)} {A : a.ty.Contents (Elt F)} {B : b.ty.Contents (Elt F)}
    (hA : V (Proc.devRef .tc a) = A) (hB : V (Proc.devRef .tc b) = B)
    (k : ∀ V' : Valuation τ sig (Elt F), V' (Proc.devRef .tc y) = f A B →
      (∀ r : Ref sig .tc, r ≠ y → V' (Proc.devRef .tc r) = V (Proc.devRef .tc r)) → Q (after rest V')) :
    Q (after (binary a b y f ha hb hy :: rest) V) := by
  subst hA hB
  exact k _ (binary_result a b y f ha hb hy V) (fun r hr => binary_result_ne a b y f ha hb hy V hr)

/-- Contents moved to a typed reference's buffer and back are the contents. -/
theorem ofBuf_toBuf {T : BufTy} (x : TRef sig T) (v : T.Contents (Elt F)) : x.ofBuf (x.toBuf v) = v := by
  obtain ⟨r, rfl, _, _⟩ := x
  rfl

theorem after_tnullary_k {Q : Valuation τ sig (Elt F) → Prop} {Ty : BufTy} {y : TRef sig Ty} {v : Ty.Contents (Elt F)}
    {rest : List (HloOp τ sig (Elt F))} {V : Valuation τ sig (Elt F)}
    (k : ∀ V' : Valuation τ sig (Elt F), y.ofBuf (V' (Proc.devRef .tc y.ref)) = v →
      (∀ r : Ref sig .tc, r ≠ y.ref → V' (Proc.devRef .tc r) = V (Proc.devRef .tc r)) → Q (after rest V')) :
    Q (after (TRef.nullary y v :: rest) V) :=
  k _ ((congrArg y.ofBuf (nullary_result y.ref (y.toBuf v) y.dev V)).trans (ofBuf_toBuf y v))
    (fun r hr => nullary_result_ne y.ref (y.toBuf v) y.dev V hr)

theorem after_tunary_k {Q : Valuation τ sig (Elt F) → Prop} {Tx Ty : BufTy} {x : TRef sig Tx} {y : TRef sig Ty}
    {f : Tx.Contents (Elt F) → Ty.Contents (Elt F)}
    {rest : List (HloOp τ sig (Elt F))} {V : Valuation τ sig (Elt F)} {X : Tx.Contents (Elt F)}
    (hX : x.ofBuf (V (Proc.devRef .tc x.ref)) = X)
    (k : ∀ V' : Valuation τ sig (Elt F), y.ofBuf (V' (Proc.devRef .tc y.ref)) = f X →
      (∀ r : Ref sig .tc, r ≠ y.ref → V' (Proc.devRef .tc r) = V (Proc.devRef .tc r)) → Q (after rest V')) :
    Q (after (TRef.unary x y f :: rest) V) := by
  subst hX
  exact k _ ((congrArg y.ofBuf (unary_result x.ref y.ref (fun u => y.toBuf (f (x.ofBuf u))) x.dev y.dev V)).trans (ofBuf_toBuf y _))
    (fun r hr => unary_result_ne x.ref y.ref (fun u => y.toBuf (f (x.ofBuf u))) x.dev y.dev V hr)

theorem after_tbinary_k {Q : Valuation τ sig (Elt F) → Prop} {Ta Tb Ty : BufTy} {a : TRef sig Ta} {b : TRef sig Tb} {y : TRef sig Ty}
    {f : Ta.Contents (Elt F) → Tb.Contents (Elt F) → Ty.Contents (Elt F)}
    {rest : List (HloOp τ sig (Elt F))} {V : Valuation τ sig (Elt F)} {A : Ta.Contents (Elt F)} {B : Tb.Contents (Elt F)}
    (hA : a.ofBuf (V (Proc.devRef .tc a.ref)) = A) (hB : b.ofBuf (V (Proc.devRef .tc b.ref)) = B)
    (k : ∀ V' : Valuation τ sig (Elt F), y.ofBuf (V' (Proc.devRef .tc y.ref)) = f A B →
      (∀ r : Ref sig .tc, r ≠ y.ref → V' (Proc.devRef .tc r) = V (Proc.devRef .tc r)) → Q (after rest V')) :
    Q (after (TRef.binary a b y f :: rest) V) := by
  subst hA hB
  exact k _ ((congrArg y.ofBuf (binary_result a.ref b.ref y.ref (fun u v => y.toBuf (f (a.ofBuf u) (b.ofBuf v))) a.dev b.dev y.dev V)).trans
      (ofBuf_toBuf y _))
    (fun r hr => binary_result_ne a.ref b.ref y.ref (fun u v => y.toBuf (f (a.ofBuf u) (b.ofBuf v))) a.dev b.dev y.dev V hr)

/-! ## The bookkeeping of one step

`carry fr [h₁, …]`: each fact `hᵢ : V r = …` about the old contents becomes the same fact about the new ones, the
buffer `r` not being the one just written. `hlo_n` / `hlo_u` / `hlo_b` (and `thlo_…` for an operation of a called
function, whose references carry their types): read the next operation, name the fact at its result buffer — its
named value, which is by definition the operation's function of its operands' named values — and carry the listed facts. -/

open Lean in
macro "carry " fr:ident " [" ks:ident,* "]" : tactic => do
  let mut acc ← `(tactic| skip)
  for k in ks.getElems do
    acc ← `(tactic| ($acc; replace $k := (($fr _ (by decide)).trans $k)))
  return acc

macro "hlo_n " h:ident y:ident rhs:term:max " [" ks:ident,* "]" : tactic =>
  `(tactic| (refine after_nullary_k (fun V' e fr => ?_)
             have $h : V' (Proc.devRef .tc $y) = $rhs := e
             carry fr [$ks,*]
             clear e fr))
macro "hlo_u " h:ident y:ident rhs:term:max hx:ident " [" ks:ident,* "]" : tactic =>
  `(tactic| (refine after_unary_k $hx (fun V' e fr => ?_)
             have $h : V' (Proc.devRef .tc $y) = $rhs := e
             carry fr [$ks,*]
             clear e fr))
macro "hlo_b " h:ident y:ident rhs:term:max ha:ident hb:ident " [" ks:ident,* "]" : tactic =>
  `(tactic| (refine after_binary_k $ha $hb (fun V' e fr => ?_)
             have $h : V' (Proc.devRef .tc $y) = $rhs := e
             carry fr [$ks,*]
             clear e fr))
macro "thlo_n " h:ident y:ident rhs:term:max " [" ks:ident,* "]" : tactic =>
  `(tactic| (refine after_tnullary_k (fun V' e fr => ?_)
             have $h : V' (Proc.devRef .tc $y) = $rhs := e
             carry fr [$ks,*]
             clear e fr))
macro "thlo_u " h:ident y:ident rhs:term:max hx:ident " [" ks:ident,* "]" : tactic =>
  `(tactic| (refine after_tunary_k $hx (fun V' e fr => ?_)
             have $h : V' (Proc.devRef .tc $y) = $rhs := e
             carry fr [$ks,*]
             clear e fr))
macro "thlo_b " h:ident y:ident rhs:term:max ha:ident hb:ident " [" ks:ident,* "]" : tactic =>
  `(tactic| (refine after_tbinary_k $ha $hb (fun V' e fr => ?_)
             have $h : V' (Proc.devRef .tc $y) = $rhs := e
             carry fr [$ks,*]
             clear e fr))

end Cert.RefRunH

end
-- ==== Proof.RefRunH.lean ====
/-
  The reference program's run, read one operation at a time.

  The reference's @main is a straight line of 107 operations, each writing one buffer that no other operation writes.
  What a buffer holds after the line is the fold of the operations' results over the launch contents. Reading the fold
  from the front, one operation at a time: if each operand's buffer held its named value of the three arguments, the
  written buffer now holds its own named value, which is by definition the operation's function of those, and the
  buffers still to be read keep theirs. After the last operation the result buffer holds the named value of the whole
  program, and the three arguments, which no operation writes, are unchanged.

  The list of steps below — one per operation of the reference, in program order: its kind, its result buffer, the
  facts about its operands, the facts still needed later — is tabulated by the script named in line 1 from the
  operation list; each step is an instance of a lemma of the module RefRunLemmas, which holds the argument.
-/
import proofs.«133375_j41592463294489_2_alg».proof.Proof.RefRead
import proofs.«133375_j41592463294489_2_alg».proof.Proof.RefOps
import proofs.«133375_j41592463294489_2_alg».proof.Proof.RefRunLemmas
import Idealize.ShloMosaic.Lib.StableHlo.Run

noncomputable section

namespace Cert.RefRunH

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- From contents at which the three arguments' buffers hold x0, x1, x2: a property of contents that have the result
    buffer at the program's named value of x0, x1, x2 and the arguments' buffers unchanged holds of the contents after
    the line. -/
theorem after_ops (V : Valuation τ sig (Elt F)) (Q : Valuation τ sig (Elt F) → Prop)
    (x0 : (⟨S4x1024x2048, .f32⟩ : BufTy).Contents (Elt F)) (x1 : (⟨S8192x2048, .f32⟩ : BufTy).Contents (Elt F))
    (x2 : (⟨S2048x8192, .f32⟩ : BufTy).Contents (Elt F))
    (h_a0 : V (Proc.devRef .tc main_arg0) = x0) (h_a1 : V (Proc.devRef .tc main_arg1) = x1) (h_a2 : V (Proc.devRef .tc main_arg2) = x2)
    (hQ : ∀ W : Valuation τ sig (Elt F), W (Proc.devRef .tc main_v56) = val_main_v56 (F := F) x0 x1 x2 →
      W (Proc.devRef .tc main_arg0) = x0 → W (Proc.devRef .tc main_arg1) = x1 → W (Proc.devRef .tc main_arg2) = x2 → Q W) :
    Q (after (ops (F := F)) V) := by
  unfold ops
  hlo_u h_v0 main_v0 (val_main_v0 (F := F) x0) h_a0 [h_a0, h_a1, h_a2]
  hlo_n h_cst main_cst (val_main_cst (F := F)) [h_a0, h_a1, h_a2, h_v0]
  hlo_b h_v1 main_v1 (val_main_v1 (F := F) x0) h_v0 h_cst [h_a0, h_a1, h_a2]
  hlo_u h_v2 main_v2 (val_main_v2 (F := F) x0) h_v1 [h_a0, h_a1, h_a2]
  hlo_n h_cst_0 main_cst_0 (val_main_cst_0 (F := F)) [h_a0, h_a1, h_a2, h_v2]
  thlo_u h_call0_v0 main_call0_v0 (val_main_call0_v0 (F := F)) h_cst_0 [h_a0, h_a1, h_a2, h_v2]
  thlo_u h_call0_v1 main_call0_v1 (val_main_call0_v1 (F := F)) h_call0_v0 [h_a0, h_a1, h_a2, h_v2]
  thlo_b h_v3 main_v3 (val_main_v3 (F := F) x0) h_call0_v1 h_v2 [h_a0, h_a1, h_a2]
  hlo_n h_cst_1 main_cst_1 (val_main_cst_1 (F := F)) [h_a0, h_a1, h_a2, h_v3]
  hlo_u h_v4 main_v4 (val_main_v4 (F := F)) h_cst_1 [h_a0, h_a1, h_a2, h_v3]
  hlo_b h_v5 main_v5 (val_main_v5 (F := F) x0) h_v4 h_v3 [h_a0, h_a1, h_a2]
  hlo_u h_v6 main_v6 (val_main_v6 (F := F) x0) h_v5 [h_a0, h_a1, h_a2, h_v5]
  hlo_b h_v7 main_v7 (val_main_v7 (F := F) x0) h_a0 h_v6 [h_a0, h_a1, h_a2, h_v5]
  thlo_u h_v8 main_v8 (val_main_v8 (F := F) x0) h_v7 [h_a0, h_a1, h_a2, h_v5]
  hlo_n h_cst_2 main_cst_2 (val_main_cst_2 (F := F)) [h_a0, h_a1, h_a2, h_v5, h_v8]
  hlo_n h_cst_3 main_cst_3 (val_main_cst_3 (F := F)) [h_a0, h_a1, h_a2, h_v5, h_v8, h_cst_2]
  thlo_u h_call2_v0 main_call2_v0 (val_main_call2_v0 (F := F)) h_cst_2 [h_a0, h_a1, h_a2, h_v5, h_v8, h_cst_3]
  thlo_u h_call2_v1 main_call2_v1 (val_main_call2_v1 (F := F)) h_call2_v0 [h_a0, h_a1, h_a2, h_v5, h_v8, h_cst_3]
  thlo_b h_call2_v2 main_call2_v2 (val_main_call2_v2 (F := F) x0) h_call2_v1 h_v8 [h_a0, h_a1, h_a2, h_v5, h_cst_3]
  thlo_u h_call2_v3 main_call2_v3 (val_main_call2_v3 (F := F)) h_cst_3 [h_a0, h_a1, h_a2, h_v5, h_call2_v2]
  thlo_u h_call2_v4 main_call2_v4 (val_main_call2_v4 (F := F)) h_call2_v3 [h_a0, h_a1, h_a2, h_v5, h_call2_v2]
  thlo_b h_v9 main_v9 (val_main_v9 (F := F) x0) h_call2_v4 h_call2_v2 [h_a0, h_a1, h_a2, h_v5]
  hlo_u h_v10 main_v10 (val_main_v10 (F := F) x0) h_v5 [h_a0, h_a1, h_a2, h_v9]
  hlo_b h_v11 main_v11 (val_main_v11 (F := F) x0) h_v9 h_v10 [h_a0, h_a1, h_a2]
  hlo_b h_v12 main_v12 (val_main_v12 (F := F) x0) h_v11 h_a0 [h_a0, h_a1, h_a2]
  hlo_b h_v13 main_v13 (val_main_v13 (F := F) x0) h_a0 h_v12 [h_a0, h_a1, h_a2]
  hlo_u h_v14 main_v14 (val_main_v14 (F := F) x1) h_a1 [h_a0, h_a1, h_a2, h_v13]
  hlo_n h_cst_4 main_cst_4 (val_main_cst_4 (F := F)) [h_a0, h_a1, h_a2, h_v13, h_v14]
  hlo_b h_v15 main_v15 (val_main_v15 (F := F) x1) h_v14 h_cst_4 [h_a0, h_a1, h_a2, h_v13]
  hlo_n h_cst_5 main_cst_5 (val_main_cst_5 (F := F)) [h_a0, h_a1, h_a2, h_v13, h_v15]
  hlo_b h_v16 main_v16 (val_main_v16 (F := F) x1) h_v15 h_cst_5 [h_a0, h_a1, h_a2, h_v13]
  hlo_n h_cst_6 main_cst_6 (val_main_cst_6 (F := F)) [h_a0, h_a1, h_a2, h_v13, h_v16]
  thlo_u h_call3_v0 main_call3_v0 (val_main_call3_v0 (F := F)) h_cst_6 [h_a0, h_a1, h_a2, h_v13, h_v16]
  thlo_b h_v17 main_v17 (val_main_v17 (F := F) x1) h_call3_v0 h_v16 [h_a0, h_a1, h_a2, h_v13]
  hlo_n h_cst_7 main_cst_7 (val_main_cst_7 (F := F)) [h_a0, h_a1, h_a2, h_v13, h_v17]
  hlo_b h_v18 main_v18 (val_main_v18 (F := F) x1) h_cst_7 h_v17 [h_a0, h_a1, h_a2, h_v13]
  hlo_u h_v19 main_v19 (val_main_v19 (F := F) x1) h_v18 [h_a0, h_a1, h_a2, h_v13, h_v18]
  hlo_b h_v20 main_v20 (val_main_v20 (F := F) x1) h_a1 h_v19 [h_a0, h_a1, h_a2, h_v13, h_v18]
  thlo_u h_v21 main_v21 (val_main_v21 (F := F) x1) h_v20 [h_a0, h_a1, h_a2, h_v13, h_v18]
  hlo_n h_cst_8 main_cst_8 (val_main_cst_8 (F := F)) [h_a0, h_a1, h_a2, h_v13, h_v18, h_v21]
  hlo_n h_cst_9 main_cst_9 (val_main_cst_9 (F := F)) [h_a0, h_a1, h_a2, h_v13, h_v18, h_v21, h_cst_8]
  thlo_u h_call5_v0 main_call5_v0 (val_main_call5_v0 (F := F)) h_cst_8 [h_a0, h_a1, h_a2, h_v13, h_v18, h_v21, h_cst_9]
  thlo_u h_call5_v1 main_call5_v1 (val_main_call5_v1 (F := F)) h_call5_v0 [h_a0, h_a1, h_a2, h_v13, h_v18, h_v21, h_cst_9]
  thlo_b h_call5_v2 main_call5_v2 (val_main_call5_v2 (F := F) x1) h_call5_v1 h_v21 [h_a0, h_a1, h_a2, h_v13, h_v18, h_cst_9]
  thlo_u h_call5_v3 main_call5_v3 (val_main_call5_v3 (F := F)) h_cst_9 [h_a0, h_a1, h_a2, h_v13, h_v18, h_call5_v2]
  thlo_u h_call5_v4 main_call5_v4 (val_main_call5_v4 (F := F)) h_call5_v3 [h_a0, h_a1, h_a2, h_v13, h_v18, h_call5_v2]
  thlo_b h_v22 main_v22 (val_main_v22 (F := F) x1) h_call5_v4 h_call5_v2 [h_a0, h_a1, h_a2, h_v13, h_v18]
  hlo_u h_v23 main_v23 (val_main_v23 (F := F) x1) h_v18 [h_a0, h_a1, h_a2, h_v13, h_v22]
  hlo_b h_v24 main_v24 (val_main_v24 (F := F) x1) h_v22 h_v23 [h_a0, h_a1, h_a2, h_v13]
  hlo_b h_v25 main_v25 (val_main_v25 (F := F) x1) h_v24 h_a1 [h_a0, h_a1, h_a2, h_v13]
  hlo_b h_v26 main_v26 (val_main_v26 (F := F) x1) h_a1 h_v25 [h_a0, h_a1, h_a2, h_v13]
  hlo_b h_v27 main_v27 (val_main_v27 (F := F) x0 x1) h_v13 h_v26 [h_a0, h_a1, h_a2]
  thlo_n h_call6_cst main_call6_cst (val_main_call6_cst (F := F)) [h_a0, h_a1, h_a2, h_v27]
  thlo_u h_call6_v0 main_call6_v0 (val_main_call6_v0 (F := F)) h_call6_cst [h_a0, h_a1, h_a2, h_v27]
  thlo_b h_v28 main_v28 (val_main_v28 (F := F) x0 x1) h_v27 h_call6_v0 [h_a0, h_a1, h_a2]
  hlo_u h_v29 main_v29 (val_main_v29 (F := F) x0 x1) h_v28 [h_a0, h_a1, h_a2, h_v28]
  hlo_n h_cst_10 main_cst_10 (val_main_cst_10 (F := F)) [h_a0, h_a1, h_a2, h_v28, h_v29]
  hlo_b h_v30 main_v30 (val_main_v30 (F := F) x0 x1) h_v29 h_cst_10 [h_a0, h_a1, h_a2, h_v28]
  hlo_u h_v31 main_v31 (val_main_v31 (F := F) x0 x1) h_v30 [h_a0, h_a1, h_a2, h_v28]
  hlo_n h_cst_11 main_cst_11 (val_main_cst_11 (F := F)) [h_a0, h_a1, h_a2, h_v28, h_v31]
  thlo_u h_call7_v0 main_call7_v0 (val_main_call7_v0 (F := F)) h_cst_11 [h_a0, h_a1, h_a2, h_v28, h_v31]
  thlo_u h_call7_v1 main_call7_v1 (val_main_call7_v1 (F := F)) h_call7_v0 [h_a0, h_a1, h_a2, h_v28, h_v31]
  thlo_b h_v32 main_v32 (val_main_v32 (F := F) x0 x1) h_call7_v1 h_v31 [h_a0, h_a1, h_a2, h_v28]
  hlo_n h_cst_12 main_cst_12 (val_main_cst_12 (F := F)) [h_a0, h_a1, h_a2, h_v28, h_v32]
  hlo_u h_v33 main_v33 (val_main_v33 (F := F)) h_cst_12 [h_a0, h_a1, h_a2, h_v28, h_v32]
  hlo_b h_v34 main_v34 (val_main_v34 (F := F) x0 x1) h_v33 h_v32 [h_a0, h_a1, h_a2, h_v28]
  hlo_u h_v35 main_v35 (val_main_v35 (F := F) x0 x1) h_v34 [h_a0, h_a1, h_a2, h_v28, h_v34]
  hlo_b h_v36 main_v36 (val_main_v36 (F := F) x0 x1) h_v28 h_v35 [h_a0, h_a1, h_a2, h_v28, h_v34]
  thlo_u h_v37 main_v37 (val_main_v37 (F := F) x0 x1) h_v36 [h_a0, h_a1, h_a2, h_v28, h_v34]
  hlo_n h_cst_13 main_cst_13 (val_main_cst_13 (F := F)) [h_a0, h_a1, h_a2, h_v28, h_v34, h_v37]
  hlo_n h_cst_14 main_cst_14 (val_main_cst_14 (F := F)) [h_a0, h_a1, h_a2, h_v28, h_v34, h_v37, h_cst_13]
  thlo_u h_call9_v0 main_call9_v0 (val_main_call9_v0 (F := F)) h_cst_13 [h_a0, h_a1, h_a2, h_v28, h_v34, h_v37, h_cst_14]
  thlo_u h_call9_v1 main_call9_v1 (val_main_call9_v1 (F := F)) h_call9_v0 [h_a0, h_a1, h_a2, h_v28, h_v34, h_v37, h_cst_14]
  thlo_b h_call9_v2 main_call9_v2 (val_main_call9_v2 (F := F) x0 x1) h_call9_v1 h_v37 [h_a0, h_a1, h_a2, h_v28, h_v34, h_cst_14]
  thlo_u h_call9_v3 main_call9_v3 (val_main_call9_v3 (F := F)) h_cst_14 [h_a0, h_a1, h_a2, h_v28, h_v34, h_call9_v2]
  thlo_u h_call9_v4 main_call9_v4 (val_main_call9_v4 (F := F)) h_call9_v3 [h_a0, h_a1, h_a2, h_v28, h_v34, h_call9_v2]
  thlo_b h_v38 main_v38 (val_main_v38 (F := F) x0 x1) h_call9_v4 h_call9_v2 [h_a0, h_a1, h_a2, h_v28, h_v34]
  hlo_u h_v39 main_v39 (val_main_v39 (F := F) x0 x1) h_v34 [h_a0, h_a1, h_a2, h_v28, h_v38]
  hlo_b h_v40 main_v40 (val_main_v40 (F := F) x0 x1) h_v38 h_v39 [h_a0, h_a1, h_a2, h_v28]
  hlo_b h_v41 main_v41 (val_main_v41 (F := F) x0 x1) h_v40 h_v28 [h_a0, h_a1, h_a2, h_v28]
  hlo_b h_v42 main_v42 (val_main_v42 (F := F) x0 x1) h_v28 h_v41 [h_a0, h_a1, h_a2]
  hlo_u h_v43 main_v43 (val_main_v43 (F := F) x2) h_a2 [h_a0, h_a1, h_a2, h_v42]
  hlo_n h_cst_15 main_cst_15 (val_main_cst_15 (F := F)) [h_a0, h_a1, h_a2, h_v42, h_v43]
  hlo_b h_v44 main_v44 (val_main_v44 (F := F) x2) h_v43 h_cst_15 [h_a0, h_a1, h_a2, h_v42]
  hlo_n h_cst_16 main_cst_16 (val_main_cst_16 (F := F)) [h_a0, h_a1, h_a2, h_v42, h_v44]
  hlo_b h_v45 main_v45 (val_main_v45 (F := F) x2) h_v44 h_cst_16 [h_a0, h_a1, h_a2, h_v42]
  hlo_n h_cst_17 main_cst_17 (val_main_cst_17 (F := F)) [h_a0, h_a1, h_a2, h_v42, h_v45]
  thlo_u h_call10_v0 main_call10_v0 (val_main_call10_v0 (F := F)) h_cst_17 [h_a0, h_a1, h_a2, h_v42, h_v45]
  thlo_b h_v46 main_v46 (val_main_v46 (F := F) x2) h_call10_v0 h_v45 [h_a0, h_a1, h_a2, h_v42]
  hlo_n h_cst_18 main_cst_18 (val_main_cst_18 (F := F)) [h_a0, h_a1, h_a2, h_v42, h_v46]
  hlo_b h_v47 main_v47 (val_main_v47 (F := F) x2) h_cst_18 h_v46 [h_a0, h_a1, h_a2, h_v42]
  hlo_u h_v48 main_v48 (val_main_v48 (F := F) x2) h_v47 [h_a0, h_a1, h_a2, h_v42, h_v47]
  hlo_b h_v49 main_v49 (val_main_v49 (F := F) x2) h_a2 h_v48 [h_a0, h_a1, h_a2, h_v42, h_v47]
  thlo_u h_v50 main_v50 (val_main_v50 (F := F) x2) h_v49 [h_a0, h_a1, h_a2, h_v42, h_v47]
  hlo_n h_cst_19 main_cst_19 (val_main_cst_19 (F := F)) [h_a0, h_a1, h_a2, h_v42, h_v47, h_v50]
  hlo_n h_cst_20 main_cst_20 (val_main_cst_20 (F := F)) [h_a0, h_a1, h_a2, h_v42, h_v47, h_v50, h_cst_19]
  thlo_u h_call12_v0 main_call12_v0 (val_main_call12_v0 (F := F)) h_cst_19 [h_a0, h_a1, h_a2, h_v42, h_v47, h_v50, h_cst_20]
  thlo_u h_call12_v1 main_call12_v1 (val_main_call12_v1 (F := F)) h_call12_v0 [h_a0, h_a1, h_a2, h_v42, h_v47, h_v50, h_cst_20]
  thlo_b h_call12_v2 main_call12_v2 (val_main_call12_v2 (F := F) x2) h_call12_v1 h_v50 [h_a0, h_a1, h_a2, h_v42, h_v47, h_cst_20]
  thlo_u h_call12_v3 main_call12_v3 (val_main_call12_v3 (F := F)) h_cst_20 [h_a0, h_a1, h_a2, h_v42, h_v47, h_call12_v2]
  thlo_u h_call12_v4 main_call12_v4 (val_main_call12_v4 (F := F)) h_call12_v3 [h_a0, h_a1, h_a2, h_v42, h_v47, h_call12_v2]
  thlo_b h_v51 main_v51 (val_main_v51 (F := F) x2) h_call12_v4 h_call12_v2 [h_a0, h_a1, h_a2, h_v42, h_v47]
  hlo_u h_v52 main_v52 (val_main_v52 (F := F) x2) h_v47 [h_a0, h_a1, h_a2, h_v42, h_v51]
  hlo_b h_v53 main_v53 (val_main_v53 (F := F) x2) h_v51 h_v52 [h_a0, h_a1, h_a2, h_v42]
  hlo_b h_v54 main_v54 (val_main_v54 (F := F) x2) h_v53 h_a2 [h_a0, h_a1, h_a2, h_v42]
  hlo_b h_v55 main_v55 (val_main_v55 (F := F) x2) h_a2 h_v54 [h_a0, h_a1, h_a2, h_v42]
  hlo_b h_v56 main_v56 (val_main_v56 (F := F) x0 x1 x2) h_v42 h_v55 [h_a0, h_a1, h_a2]
  exact hQ _ h_v56 h_a0 h_a1 h_a2

/-- On every device, for any float values, from any memory with zero counters: every weakly fair execution of @main
    terminates with the result at the program's named value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = val_main_v56 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      have key := after_ops (F := F) (launchContents m c)
        (fun W => W (Proc.devRef .tc main_v56) = val_main_v56 (F := F) (m ((c.tc : Thread nD τ).loc main_arg0)) (m ((c.tc : Thread nD τ).loc main_arg1)) (m ((c.tc : Thread nD τ).loc main_arg2))
          ∧ W (Proc.devRef .tc main_arg0) = m ((c.tc : Thread nD τ).loc main_arg0) ∧ W (Proc.devRef .tc main_arg1) = m ((c.tc : Thread nD τ).loc main_arg1) ∧ W (Proc.devRef .tc main_arg2) = m ((c.tc : Thread nD τ).loc main_arg2))
        (m ((c.tc : Thread nD τ).loc main_arg0)) (m ((c.tc : Thread nD τ).loc main_arg1)) (m ((c.tc : Thread nD τ).loc main_arg2)) rfl rfl rfl (fun W e e0 e1 e2 => ⟨e, e0, e1, e2⟩)
      exact ⟨(h c main_v56).trans key.1, (h c main_arg0).trans key.2.1, (h c main_arg1).trans key.2.2.1, (h c main_arg2).trans key.2.2.2⟩)
    (run_seq scopedRefs_eq scopedSems_eq defs main (fun _ => ops) main_eq (fun _ => ops_sub) m ρ)

end Cert.RefRunH

end
-- ==== Proof.KRunValue.lean ====
/-
  The program's run with its result read: as the frame, and the result array ends holding what the last item, a
  reshape of the second region's output array, leaves.
-/
import proofs.«133375_j41592463294489_2_alg».proof.Proof.KRun
import proofs.«133375_j41592463294489_2_alg».proof.Proof.KRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- From any memory with zero counters every weakly fair execution terminates, nothing faulting, with the result array at
    the last valuation's contents and the three argument arrays as launched. -/
theorem run_value (ρ : Dev nD → PrngReg) : θ_run defs (onTc (τ := τ) (main (F := F))) ⟨m, fun _ => 0, ρ⟩ (fun r => ∀ c : Dev nD,
      r.2.mem ((c.tc : Thread nD τ).loc main_v53) = V29 m (outs m) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.KernelIdeal.GenP.run_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      iintro ⟨H, -⟩
      imodintro
      iapply (show (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ fun c : Dev nD => (R c : sProp 𝕄)) from bigSep_mono fun c _ => launchR ρ c)
      iexact H)
    (hE2 := fun c => by iintro ⟨-, HO⟩; iexact HO)
    (R0 := reg0 m) (hpre0 := fun _ => .rfl) (hpost0 := fun _ => .rfl)
    (R1 := reg1 m) (hpre1 := fun c => by rw [V27_outs]; exact .rfl) (hpost1 := fun _ => .rfl)

end Cert.KernelIdeal.Hand

end
-- ==== Proof.KPay.lean ====
/-
  The three stored values of the two kernels, read at an index over the extended reals.

  The first kernel stores the positive part of a product of its two blocks: at (p, q) the larger of 0 and the sum over
  k of x0(p, k) * x1(q, k) (both operands are contracted along their second axis). The second kernel first stores the
  zero block, and then, at each step, the accumulator plus a product of its two blocks: at (p, d) the accumulator
  there plus the sum over jj of x0(p, jj) * x1(d, jj). A shape cast to the same shape is the identity, the zero word
  denotes 0, and a contraction into the zero block is the bare sum.
-/
import proofs.«133375_j41592463294489_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ### The operand indices of the first kernel's contraction -/

theorem lhs0_0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem lhs0_1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem rhs0_0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem rhs0_1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

/-- The first kernel's contraction at (p, q): the sum over k of x0(p, k) * x1(q, k). -/
theorem dot0_sum (x0 x1 : FVec Ideal S512x2048 .bf16) (p q : Fin 512) :
    (∑ k : dot_S512x2048_S512x2048_S512x512_1_1_0_0_n_n.contr.Idx, x0 (dot_S512x2048_S512x2048_S512x512_1_1_0_0_n_n.lhsIdx (ix2 p q) k) * x1 (dot_S512x2048_S512x2048_S512x512_1_1_0_0_n_n.rhsIdx (ix2 p q) k))
      = ∑ k : Fin 2048, x0 (ix2 p k) * x1 (ix2 q k) := by
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun a => Fin.ext (by
    match a with
    | ⟨0, _⟩ => exact lhs0_0 _ _
    | ⟨1, _⟩ => exact (lhs0_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun a => Fin.ext (by
    match a with
    | ⟨0, _⟩ => exact rhs0_0 _ _
    | ⟨1, _⟩ => exact (rhs0_1 _ _).trans hk)
  rw [el, er]

/-- The first kernel's stored value at (p, q). -/
theorem pay0_apply (x0 x1 : Vec Ideal S512x2048 .bf16) (p q : Fin 512) :
    k0_pay1 (F := Ideal) x0 x1 (ix2 p q) = max (∑ k : Fin 2048, x0 (ix2 p k) * x1 (ix2 q k)) (0 : EReal) := by
  unfold k0_pay1
  simp only [shapeCast_self]
  show max (FloatOps.matmul dot_S512x2048_S512x2048_S512x512_1_1_0_0_n_n none x0 x1 (constant S512x512 .f32 0x00000000#32) (ix2 p q))
      (Ideal.ofBits .f32 0x00000000#32) = _
  rw [Ideal.matmul_constant_zero_apply, Ideal.ofBits_zero_f32]
  exact congrArg (fun z => max z (0 : EReal)) (dot0_sum x0 x1 p q)

/-! ### The second kernel -/

/-- The second kernel's first stored value: the zero block. -/
theorem pay1_apply (p : Fin 512) (d : Fin 2048) : k1_pay1 (F := Ideal) (ix2 p d) = (0 : EReal) := by
  unfold k1_pay1
  simp only [shapeCast_self]
  exact Ideal.ofBits_zero_f32

theorem lhs1_0 (i : S512x2048.Idx) (q : dot_S512x512_S2048x512_S512x2048_1_1_0_0_n_n.contr.Idx) : (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem lhs1_1 (i : S512x2048.Idx) (q : dot_S512x512_S2048x512_S512x2048_1_1_0_0_n_n.contr.Idx) : (dot_S512x512_S2048x512_S512x2048_1_1_0_0_n_n.lhsIdx i q 1).val = (q ⟨0, by decide⟩).val :=
  dot_S512x512_S2048x512_S512x2048_1_1_0_0_n_n.lhsIdx_val_of_single rfl i q
theorem rhs1_0 (i : S512x2048.Idx) (q : dot_S512x512_S2048x512_S512x2048_1_1_0_0_n_n.contr.Idx) : (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem rhs1_1 (i : S512x2048.Idx) (q : dot_S512x512_S2048x512_S512x2048_1_1_0_0_n_n.contr.Idx) : (dot_S512x512_S2048x512_S512x2048_1_1_0_0_n_n.rhsIdx i q 1).val = (q ⟨0, by decide⟩).val :=
  dot_S512x512_S2048x512_S512x2048_1_1_0_0_n_n.rhsIdx_val_of_single rfl i q

/-- The second kernel's contraction at (p, d): the sum over jj of x0(p, jj) * x1(d, jj). -/
theorem dot1_sum (x0 : FVec Ideal S512x512 .bf16) (x1 : FVec Ideal S2048x512 .bf16) (p : Fin 512) (d : Fin 2048) :
    (∑ k : dot_S512x512_S2048x512_S512x2048_1_1_0_0_n_n.contr.Idx, x0 (dot_S512x512_S2048x512_S512x2048_1_1_0_0_n_n.lhsIdx (ix2 p d) k) * x1 (dot_S512x512_S2048x512_S512x2048_1_1_0_0_n_n.rhsIdx (ix2 p d) k))
      = ∑ jj : Fin 512, x0 (ix2 p jj) * x1 (ix2 d jj) := by
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p d) ((contrEquiv1 dot_S512x512_S2048x512_S512x2048_1_1_0_0_n_n 512 rfl rfl).symm k) = ix2 p k := funext fun a => Fin.ext (by
    match a with
    | ⟨0, _⟩ => exact lhs1_0 _ _
    | ⟨1, _⟩ => exact (lhs1_1 _ _).trans hk)
  have er : dot_S512x512_S2048x512_S512x2048_1_1_0_0_n_n.rhsIdx (ix2 p d) ((contrEquiv1 dot_S512x512_S2048x512_S512x2048_1_1_0_0_n_n 512 rfl rfl).symm k) = ix2 d k := funext fun a => Fin.ext (by
    match a with
    | ⟨0, _⟩ => exact rhs1_0 _ _
    | ⟨1, _⟩ => exact (rhs1_1 _ _).trans hk)
  rw [el, er]

/-- The second kernel's running value at (p, d): the accumulator there plus the block's contraction. -/
theorem pay2_apply (x0 : Vec Ideal S512x512 .bf16) (x1 : Vec Ideal S2048x512 .bf16) (acc : Vec Ideal S512x2048 .f32)
    (p : Fin 512) (d : Fin 2048) :
    k1_pay2 (F := Ideal) x0 x1 acc (ix2 p d) = acc (ix2 p d) + ∑ jj : Fin 512, x0 (ix2 p jj) * x1 (ix2 d jj) := by
  unfold k1_pay2
  simp only [shapeCast_self]
  show (acc (ix2 p d) : EReal) + FloatOps.matmul (F := Ideal) (φ₁ := .bf16) (φ₂ := .bf16) dot_S512x512_S2048x512_S512x2048_1_1_0_0_n_n none x0 x1
      (constant S512x2048 .f32 0x00000000#32) (ix2 p d) = _
  rw [Ideal.matmul_constant_zero_apply]
  exact congrArg (fun z : EReal => (acc (ix2 p d) : EReal) + z) (dot1_sum x0 x1 p d)

end Cert.KernelIdeal.Pay

end
-- ==== Proof.KVal0.lean ====
/-
  What the first matrix product's region leaves in the hidden array, index by index.

  Grid point (i, j) writes block (i, j) of the hidden array: at (p, q) inside the block, the positive part of the sum over
  k of the activations' row 512 i + p times the weights' row 512 j + q. The 8 x 16 blocks tile the array, so its entry at
  (r, h) is the positive part of the sum over k of row r of the one times row h of the other.
-/
import proofs.«133375_j41592463294489_2_alg».proof.Proof.KReg0
import proofs.«133375_j41592463294489_2_alg».proof.Proof.KPay
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two arrays the region reads, as the region finds them. -/
abbrev A13 (c : Dev nD) : S4096x2048.Idx → EReal := V c main_v13
abbrev A25 (c : Dev nD) : S8192x2048.Idx → EReal := V c main_v25

theorem hz2 : (![0, 0] : Fin 2 → Nat) = fun _ => 0 := funext fun a => by fin_cases a <;> rfl

/-- The hidden array as a function of the two quantized arrays. -/
def G0 (a : S4096x2048.Idx → EReal) (b : S8192x2048.Idx → EReal) : S4096x8192.Idx → EReal := fun i =>
  max (∑ k : Fin 2048, a (ix2 (⟨(i 0).val, (i 0).isLt⟩ : Fin 4096) k) * b (ix2 (⟨(i 1).val, (i 1).isLt⟩ : Fin 8192) k)) (0 : EReal)

/-- How the three windows' blocks move over the grid: point t = 16 i + j reads row block i of the first array, row block j of the
    second, and writes block (i, j). -/
theorem idx_facts0 : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 15 :=
  (by decide +kernel : ∀ t : Fin grid0.N, _)

/-- Every block of the hidden array is some point's. -/
theorem idx_onto0 : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-- What point t writes back is block t of `G0` of the two arrays as the region finds them. -/
theorem flushed0_eq (c : Dev nD) (t : Fin cfg0.N) :
    (dat0 V c).flushed 2 t = ((cfg0.win 2).blk t).view.read (Elt Ideal) (G0 (A13 V c) (A25 V c)) := by
  show (cfg0.win 2).cut (grid0.coords t) ((dat0 V c).after 2 t) = _
  rw [after0_2]
  unfold out0_2
  rw [View.canon_unit_zero hz2]
  simp only [View.ld_unit_zero (S := S512x2048) hz2]
  obtain ⟨e0, e1, e2, e3, e4, e5⟩ := idx_facts0 t
  funext j
  obtain ⟨p, q, rfl⟩ : ∃ (p : Fin 512) (q : Fin 512), j = ix2 p q := ⟨j 0, j 1, eq_ix2 j⟩
  refine (pay0_apply (iblk0 V c 0 t) (iblk0 V c 1 t) p q).trans ?_
  show max (∑ k : Fin 2048, A13 V c (((cfg0.win 0).blk t).view.emb (ix2 p k)) * A25 V c (((cfg0.win 1).blk t).view.emb (ix2 q k))) (0 : EReal)
    = G0 (A13 V c) (A25 V c) (((cfg0.win 2).blk t).view.emb (ix2 p q))
  unfold G0
  refine congrArg (fun s => max s (0 : EReal)) (Finset.sum_congr rfl fun k _ => ?_)
  have h0 : ((cfg0.win 0).blk t).view.emb (ix2 p k) = ix2 (⟨((((cfg0.win 2).blk t).view.emb (ix2 p q)) 0).val, ((((cfg0.win 2).blk t).view.emb (ix2 p q)) 0).isLt⟩ : Fin 4096) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * k.val = k.val; omega
  have h1 : ((cfg0.win 1).blk t).view.emb (ix2 q k) = ix2 (⟨((((cfg0.win 2).blk t).view.emb (ix2 p q)) 1).val, ((((cfg0.win 2).blk t).view.emb (ix2 p q)) 1).isLt⟩ : Fin 8192) k := by
    funext a; apply Fin.ext
    match a with
    | ⟨0, _⟩ => show win0_1.index t (0 : Fin 2) * 512 + 1 * q.val = win0_2.index t (1 : Fin 2) * 512 + 1 * q.val; omega
    | ⟨1, _⟩ => show win0_1.index t (1 : Fin 2) * 2048 + 1 * k.val = k.val; omega
  rw [h0, h1]

/-- An index is in point t's block iff each coordinate is in the block's range. -/
theorem mem_blk0 (t : Fin cfg0.N) (i : S4096x8192.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v26).slice (win0_2.rect t)).set ↔ _
  rw [View.set_slice_whole, Rect.mem_set_unit]
  exact Iff.rfl

/-- Every index is in some point's block: the point of block (row / 512, column / 512). -/
theorem cover0 (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := idx_onto0 ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The hidden array after the region. -/
theorem final0 (c : Dev nD) : (dat0 V c).arrAt 2 cfg0.N = G0 (A13 V c) (A25 V c) :=
  (dat0 V c).arrAt_eq_of_cover 2 (G0 (A13 V c) (A25 V c)) (fun t _ => flushed0_eq V c t) (cover0)

end Cert.KernelIdeal.Hand

end
-- ==== Proof.Spec.lean ====
/-
  The two quantized layers as functions over the extended reals.

  A row of activations is quantized with its own scale: 127 over the larger of 1e-5 and the row's largest
  magnitude; an entry is multiplied by the scale, rounded to the nearest even integer, clipped to [-128, 127]
  and divided by the scale again. A weight matrix is quantized with one scale: 1 over the larger of 1e-5 and
  the mean magnitude (the total magnitude over 2^24 entries); an entry is multiplied by the scale, rounded,
  clipped to [-1, 1] and divided by the scale. The hidden layer is the positive part of the product of the
  quantized activations with the transposed quantized weights; the output is the same product of the quantized
  hidden layer with the second quantized weight matrix.

  The second family of definitions writes every quantized operand in the straight-through form
  a + (q - a); on the extended reals that is q whenever a is a real number.

  Every literal is kept as the binary32 word it is printed as.
-/
import Idealize.ShloMosaic.PureOps.Ideal
import Idealize.ShloMosaic.PureOps.Ideal.Laws
import Idealize.ShloMosaic.Lib.ValueIdx

noncomputable section

namespace Cert.Spec

open Idealize.ShloMosaic

/-- An extended real. -/
abbrev R : Type := Ideal .f32

/-- The extended real a binary32 word denotes. -/
def lit (b : BitVec 32) : R := FloatOps.ofBits (F := Ideal) .f32 b

/-- The largest magnitude of a row: the fold of max over the row's magnitudes from the word 0xFF800000. -/
def rowMax {n : ℕ} (a : Fin n → R) : R :=
  (Finset.univ : Finset (Fin n)).fold (FloatOps.maximumf (F := Ideal) (φ := .f32)) (lit 0xFF800000#32)
    (fun k => FloatOps.hostAbsf (F := Ideal) (a k))

/-- A row's scale: 127 over the larger of 1e-5 and the row's largest magnitude. -/
def aScale {n : ℕ} (a : Fin n → R) : R :=
  FloatOps.hostDivf (F := Ideal) (lit 0x42FE0000#32) (FloatOps.maximumf (F := Ideal) (lit 0x3727C5AC#32) (rowMax a))

/-- An activation at scale `s`: scaled, rounded to the nearest even integer, clipped to [-128, 127], unscaled. -/
def aQ (s v : R) : R :=
  FloatOps.hostDivf (F := Ideal)
    (FloatOps.minimumf (F := Ideal) (lit 0x42FE0000#32)
      (FloatOps.maximumf (F := Ideal) (lit 0xC3000000#32)
        (FloatOps.hostUnary (F := Ideal) .roundeven (FloatOps.mulf (F := Ideal) v s)))) s

/-- A weight matrix's scale from its total magnitude `tot`: 1 over the larger of 1e-5 and `tot / 2^24`. -/
def wScale (tot : R) : R :=
  FloatOps.hostDivf (F := Ideal) (lit 0x3F800000#32)
    (FloatOps.maximumf (F := Ideal) (lit 0x3727C5AC#32) (FloatOps.hostDivf (F := Ideal) tot (lit 0x4B800000#32)))

/-- A weight at scale `s`: scaled, rounded to the nearest even integer, clipped to [-1, 1], unscaled. -/
def wQ (s v : R) : R :=
  FloatOps.hostDivf (F := Ideal)
    (FloatOps.minimumf (F := Ideal) (lit 0x3F800000#32)
      (FloatOps.maximumf (F := Ideal) (lit 0xBF800000#32)
        (FloatOps.hostUnary (F := Ideal) .roundeven (FloatOps.mulf (F := Ideal) v s)))) s

/-- The total magnitude of a family: the zero word plus the sum of the magnitudes. -/
def absTot {ι : Type} [Fintype ι] (w : ι → R) : R :=
  lit 0x00000000#32 + ∑ i, FloatOps.hostAbsf (F := Ideal) (w i)

section Layers

variable (x : Fin 4096 → Fin 2048 → R) (w1 : Fin 8192 → Fin 2048 → R) (w2 : Fin 2048 → Fin 8192 → R) (s1 s2 : R)

/-- The quantized activations of the first layer. -/
def xq (r : Fin 4096) (k : Fin 2048) : R := aQ (aScale (x r)) (x r k)

/-- The hidden layer: the positive part of the quantized activations times the transposed quantized weights. -/
def hid (r : Fin 4096) (j : Fin 8192) : R :=
  FloatOps.maximumf (F := Ideal) (∑ k : Fin 2048, xq x r k * wQ s1 (w1 j k)) (lit 0x00000000#32)

/-- The quantized hidden layer. -/
def hq (r : Fin 4096) (j : Fin 8192) : R := aQ (aScale (hid x w1 s1 r)) (hid x w1 s1 r j)

/-- The output: the quantized hidden layer times the transposed second quantized weights. -/
def out (r : Fin 4096) (d : Fin 2048) : R :=
  ∑ j : Fin 8192, hq x w1 s1 r j * wQ s2 (w2 d j)

/-- The straight-through form of a quantized value. -/
def ste (a q : R) : R := FloatOps.addf (F := Ideal) a (FloatOps.subf (F := Ideal) q a)

/-- The hidden layer with every quantized operand in the straight-through form. -/
def hidS (r : Fin 4096) (j : Fin 8192) : R :=
  FloatOps.maximumf (F := Ideal)
    (∑ k : Fin 2048, ste (x r k) (xq x r k) * ste (w1 j k) (wQ s1 (w1 j k))) (lit 0x00000000#32)

/-- The output with every quantized operand in the straight-through form. -/
def outS (r : Fin 4096) (d : Fin 2048) : R :=
  ∑ j : Fin 8192, ste (hidS x w1 s1 r j) (aQ (aScale (hidS x w1 s1 r)) (hidS x w1 s1 r j))
    * ste (w2 d j) (wQ s2 (w2 d j))

end Layers

end Cert.Spec

end
-- ==== Proof.SpecReal.lean ====
/-
  Realness of the two quantized layers over the extended reals.

  An extended real is REAL when it is neither infinity. The facts proved here, in order:

  * the straight-through form a + (q - a) is q at every real a, for every q (the infinities included);
  * the binary32 words the specification spells denote 0, 1, -1, 127, -128, 2^24, a positive real (the
    word of 1e-5) and the bottom (the word of minus infinity);
  * a quotient of a real by a positive real is real, and positive when the numerator is;
  * the largest magnitude of a row of reals is real or the bottom (the empty row), so a row's scale,
    127 over the larger of a positive real and that magnitude, is a positive real;
  * a value clipped to a real interval is real whatever the value, so a quantized activation or weight
    at a positive real scale is real, also when the unquantized value is an infinity;
  * the weight scale of a real total magnitude is a positive real (for an infinite total the larger of the
    two is the top and its inverse is 0, so realness of the total is needed);
  * a finite sum of products of reals is real, hence the hidden layer of real inputs is real, the
    straight-through hidden layer is the hidden layer, and the straight-through output is the output.
-/
import proofs.«133375_j41592463294489_2_alg».proof.Proof.Spec
import Idealize.ShloMosaic.PureOps.Ideal
import Idealize.ShloMosaic.PureOps.Ideal.Laws

noncomputable section

namespace Cert.Spec

open Idealize.ShloMosaic

/-- An extended real is REAL when it is the coercion of a real number. -/
def IsReal (v : R) : Prop := ∃ r : ℝ, v = (r : EReal)

theorem isReal_coe (r : ℝ) : IsReal ((r : EReal)) := ⟨r, rfl⟩

theorem isReal_iff (v : R) : IsReal v ↔ v ≠ ⊤ ∧ v ≠ ⊥ := by
  constructor
  · rintro ⟨r, rfl⟩; exact ⟨EReal.coe_ne_top r, EReal.coe_ne_bot r⟩
  · rintro ⟨h1, h2⟩
    induction v using EReal.rec with
    | bot => exact absurd rfl h2
    | coe r => exact ⟨r, rfl⟩
    | top => exact absurd rfl h1

theorem IsReal.ne_top {v : R} (h : IsReal v) : v ≠ ⊤ := ((isReal_iff v).1 h).1
theorem IsReal.ne_bot {v : R} (h : IsReal v) : v ≠ ⊥ := ((isReal_iff v).1 h).2

theorem IsReal.add {a b : R} (ha : IsReal a) (hb : IsReal b) : IsReal (a + b) := by
  obtain ⟨r, rfl⟩ := ha; obtain ⟨t, rfl⟩ := hb; exact ⟨r + t, (EReal.coe_add r t).symm⟩

theorem IsReal.mul {a b : R} (ha : IsReal a) (hb : IsReal b) : IsReal (a * b) := by
  obtain ⟨r, rfl⟩ := ha; obtain ⟨t, rfl⟩ := hb; exact ⟨r * t, (EReal.coe_mul r t).symm⟩

theorem IsReal.neg {a : R} (ha : IsReal a) : IsReal (-a) := by
  obtain ⟨r, rfl⟩ := ha; exact ⟨-r, (EReal.coe_neg r).symm⟩

theorem IsReal.max {a b : R} (ha : IsReal a) (hb : IsReal b) : IsReal (max a b) := by
  rcases max_choice a b with h | h <;> rw [h] <;> assumption

theorem IsReal.min {a b : R} (ha : IsReal a) (hb : IsReal b) : IsReal (min a b) := by
  rcases min_choice a b with h | h <;> rw [h] <;> assumption

theorem isReal_zero : IsReal (0 : R) := ⟨0, EReal.coe_zero.symm⟩

/-- A finite sum of reals is real. -/
theorem isReal_sum {ι : Type} (s : Finset ι) (f : ι → R) (h : ∀ i ∈ s, IsReal (f i)) :
    IsReal (∑ i ∈ s, f i) :=
  Finset.sum_induction f IsReal (fun _ _ ha hb => ha.add hb) isReal_zero h

/-- The straight-through form of a value at a real point is that value, the infinities included. -/
theorem ste_eq {a : R} (q : R) (ha : IsReal a) : ste a q = q := by
  obtain ⟨r, rfl⟩ := ha
  show (r : EReal) + (q - (r : EReal)) = q
  induction q using EReal.rec with
  | bot => simp
  | coe t => rw [← EReal.coe_sub, ← EReal.coe_add]; congr 1; ring
  | top => simp

/-! ### The literal words -/

theorem lit_zero : lit 0x00000000#32 = 0 := by
  simp [lit, Ideal.ofBits, Ideal.ieee]

theorem lit_negInf : lit 0xFF800000#32 = ⊥ := by
  simp [lit, Ideal.ofBits, Ideal.ieee]

theorem lit_one : lit 0x3F800000#32 = ((1 : ℝ) : EReal) := by
  simp [lit, Ideal.ofBits, Ideal.ieee, -EReal.coe_mul]; norm_num

theorem lit_negOne : lit 0xBF800000#32 = ((-1 : ℝ) : EReal) := by
  simp [lit, Ideal.ofBits, Ideal.ieee, -EReal.coe_mul]; norm_num

theorem lit_127 : lit 0x42FE0000#32 = ((127 : ℝ) : EReal) := by
  simp [lit, Ideal.ofBits, Ideal.ieee, -EReal.coe_mul]; norm_num

theorem lit_neg128 : lit 0xC3000000#32 = ((-128 : ℝ) : EReal) := by
  simp [lit, Ideal.ofBits, Ideal.ieee, -EReal.coe_mul]; norm_num

theorem lit_two24 : lit 0x4B800000#32 = ((16777216 : ℝ) : EReal) := by
  simp [lit, Ideal.ofBits, Ideal.ieee, -EReal.coe_mul]; norm_num

theorem lit_eps : ∃ e : ℝ, 0 < e ∧ lit 0x3727C5AC#32 = (e : EReal) := by
  refine ⟨_, ?_, by simp [lit, Ideal.ofBits, Ideal.ieee, -EReal.coe_mul]; rfl⟩
  positivity

/-! ### Quotients by a positive real -/

/-- A positive real: the coercion of a positive real number. -/
theorem pos_real_iff {s : R} : (0 < s ∧ IsReal s) ↔ ∃ t : ℝ, 0 < t ∧ s = (t : EReal) := by
  constructor
  · rintro ⟨h, t, rfl⟩; exact ⟨t, by exact_mod_cast h, rfl⟩
  · rintro ⟨t, ht, rfl⟩; exact ⟨by exact_mod_cast ht, t, rfl⟩

/-- The quotient by a positive real number is the product with its inverse. -/
theorem div_pos_coe (x : EReal) {t : ℝ} (ht : 0 < t) :
    Ideal.div x (t : EReal) = x * ((t⁻¹ : ℝ) : EReal) := by
  rw [Ideal.div_coe ht.ne' x, one_div]

theorem isReal_div {x s : R} (hx : IsReal x) (hs : 0 < s ∧ IsReal s) :
    IsReal (FloatOps.hostDivf (F := Ideal) x s) := by
  obtain ⟨t, ht, rfl⟩ := pos_real_iff.1 hs
  rw [Ideal.hostDivf_def, div_pos_coe x ht]
  exact hx.mul (isReal_coe _)

theorem div_pos_of_pos {x s : R} (hx : 0 < x ∧ IsReal x) (hs : 0 < s ∧ IsReal s) :
    0 < FloatOps.hostDivf (F := Ideal) x s ∧ IsReal (FloatOps.hostDivf (F := Ideal) x s) := by
  refine ⟨?_, isReal_div hx.2 hs⟩
  obtain ⟨t, ht, rfl⟩ := pos_real_iff.1 hs
  obtain ⟨u, hu, rfl⟩ := pos_real_iff.1 hx
  rw [Ideal.hostDivf_def, div_pos_coe _ ht, ← EReal.coe_mul]
  exact_mod_cast mul_pos hu (inv_pos.2 ht)

/-- The larger of a positive real and a value that is real or the bottom is a positive real. -/
theorem max_pos_real {e v : R} (he : 0 < e ∧ IsReal e) (hv : v = ⊥ ∨ IsReal v) :
    0 < FloatOps.maximumf (F := Ideal) (φ := .f32) e v ∧ IsReal (FloatOps.maximumf (F := Ideal) (φ := .f32) e v) := by
  rw [Ideal.maximumf_def]
  refine ⟨lt_of_lt_of_le he.1 (le_max_left _ _), ?_⟩
  rcases hv with rfl | hv
  · rw [max_eq_left bot_le]; exact he.2
  · exact he.2.max hv

theorem eps_pos : 0 < lit 0x3727C5AC#32 ∧ IsReal (lit 0x3727C5AC#32) := by
  obtain ⟨e, he, h⟩ := lit_eps
  exact pos_real_iff.2 ⟨e, he, h⟩

theorem isReal_abs {a : R} (ha : IsReal a) : IsReal (FloatOps.hostAbsf (F := Ideal) (φ := .f32) a) := by
  rw [Ideal.hostAbsf_def, Ideal.absf_def]
  exact ha.max ha.neg

/-- The largest magnitude of a row of reals is real, or the bottom (the empty row). -/
theorem rowMax_real {n : ℕ} (a : Fin n → R) (ha : ∀ k, IsReal (a k)) :
    rowMax a = ⊥ ∨ IsReal (rowMax a) := by
  unfold rowMax
  rw [lit_negInf]
  generalize (Finset.univ : Finset (Fin n)) = s
  induction s using Finset.induction_on with
  | empty => left; rw [Finset.fold_empty]
  | insert k s hk ih =>
    right
    rw [Finset.fold_insert hk, Ideal.maximumf_def]
    rcases ih with h | h
    · rw [h, max_eq_left bot_le]; exact isReal_abs (ha k)
    · exact (isReal_abs (ha k)).max h

/-- A row's scale is a positive real when the row's entries are real. -/
theorem aScale_pos {n : ℕ} (a : Fin n → R) (ha : ∀ k, IsReal (a k)) :
    0 < aScale a ∧ IsReal (aScale a) := by
  unfold aScale
  refine div_pos_of_pos ?_ (max_pos_real eps_pos (rowMax_real a ha))
  rw [lit_127]; exact pos_real_iff.2 ⟨127, by norm_num, rfl⟩

/-! ### Clipping, the quantized values, the weight scale -/

/-- A value clipped to a real interval is real, whatever the value. -/
theorem isReal_clip {lo hi : R} (hlo : IsReal lo) (hhi : IsReal hi) (z : R) :
    IsReal (FloatOps.minimumf (F := Ideal) (φ := .f32) hi (FloatOps.maximumf (F := Ideal) (φ := .f32) lo z)) := by
  rw [Ideal.minimumf_def, Ideal.maximumf_def, isReal_iff]
  constructor
  · exact ne_of_lt (lt_of_le_of_lt (min_le_left _ _) (lt_top_iff_ne_top.2 hhi.ne_top))
  · exact ne_of_gt (lt_of_lt_of_le (bot_lt_iff_ne_bot.2 (hhi.min hlo).ne_bot)
      (min_le_min_left hi (le_max_left lo z)))

/-- A quantized activation at a positive real scale is real, whatever the activation. -/
theorem aQ_real {s : R} (hs : 0 < s ∧ IsReal s) (v : R) : IsReal (aQ s v) := by
  unfold aQ
  refine isReal_div (isReal_clip ?_ ?_ _) hs
  · rw [lit_neg128]; exact isReal_coe _
  · rw [lit_127]; exact isReal_coe _

/-- A quantized weight at a positive real scale is real, whatever the weight. -/
theorem wQ_real {s : R} (hs : 0 < s ∧ IsReal s) (v : R) : IsReal (wQ s v) := by
  unfold wQ
  refine isReal_div (isReal_clip ?_ ?_ _) hs
  · rw [lit_negOne]; exact isReal_coe _
  · rw [lit_one]; exact isReal_coe _

/-- The weight scale of a real total is a positive real. -/
theorem wScale_pos_of_real {tot : R} (ht : IsReal tot) : 0 < wScale tot ∧ IsReal (wScale tot) := by
  unfold wScale
  refine div_pos_of_pos ?_ (max_pos_real eps_pos (Or.inr (isReal_div ht ?_)))
  · rw [lit_one]; exact pos_real_iff.2 ⟨1, one_pos, rfl⟩
  · rw [lit_two24]; exact pos_real_iff.2 ⟨16777216, by norm_num, rfl⟩

/-- The total magnitude of a family of reals is real. -/
theorem absTot_real {ι : Type} [Fintype ι] (w : ι → R) (hw : ∀ i, IsReal (w i)) : IsReal (absTot w) := by
  unfold absTot
  rw [lit_zero]
  exact isReal_zero.add (isReal_sum _ _ fun i _ => isReal_abs (hw i))

/-- The weight scale of a family of reals is a positive real. -/
theorem wScale_pos {ι : Type} [Fintype ι] (w : ι → R) (hw : ∀ i, IsReal (w i)) :
    0 < wScale (absTot w) ∧ IsReal (wScale (absTot w)) :=
  wScale_pos_of_real (absTot_real w hw)

/-! ### The layers -/

section Layers

variable (x : Fin 4096 → Fin 2048 → R) (w1 : Fin 8192 → Fin 2048 → R) (w2 : Fin 2048 → Fin 8192 → R) (s1 s2 : R)

theorem xq_real (hx : ∀ r k, IsReal (x r k)) (r : Fin 4096) (k : Fin 2048) : IsReal (xq x r k) :=
  aQ_real (aScale_pos (x r) (hx r)) _

/-- The hidden layer of real inputs at a positive real scale is real. -/
theorem hid_real (hx : ∀ r k, IsReal (x r k)) (hs1 : 0 < s1 ∧ IsReal s1) (r : Fin 4096) (j : Fin 8192) :
    IsReal (hid x w1 s1 r j) := by
  unfold hid
  rw [Ideal.maximumf_def, lit_zero]
  exact (isReal_sum _ _ fun k _ => (xq_real x hx r k).mul (wQ_real hs1 _)).max isReal_zero

/-- With real inputs the straight-through hidden layer is the hidden layer. -/
theorem hidS_eq_hid (hx : ∀ r k, IsReal (x r k)) (hw1 : ∀ j k, IsReal (w1 j k)) (r : Fin 4096) (j : Fin 8192) :
    hidS x w1 s1 r j = hid x w1 s1 r j := by
  unfold hidS hid
  refine congrArg (fun z => FloatOps.maximumf (F := Ideal) (φ := .f32) z (lit 0x00000000#32)) ?_
  refine Finset.sum_congr rfl fun k _ => ?_
  rw [ste_eq _ (hx r k), ste_eq _ (hw1 j k)]

theorem hidS_row_eq_hid (hx : ∀ r k, IsReal (x r k)) (hw1 : ∀ j k, IsReal (w1 j k)) (r : Fin 4096) :
    hidS x w1 s1 r = hid x w1 s1 r :=
  funext fun j => hidS_eq_hid x w1 s1 hx hw1 r j

/-- With real inputs and positive real weight scales the straight-through output is the output. -/
theorem outS_eq_out (hx : ∀ r k, IsReal (x r k)) (hw1 : ∀ j k, IsReal (w1 j k)) (hw2 : ∀ d j, IsReal (w2 d j))
    (hs1 : 0 < s1 ∧ IsReal s1) (hs2 : 0 < s2 ∧ IsReal s2) (r : Fin 4096) (d : Fin 2048) :
    outS x w1 w2 s1 s2 r d = out x w1 w2 s1 s2 r d := by
  unfold outS out hq
  refine Finset.sum_congr rfl fun j _ => ?_
  rw [hidS_row_eq_hid x w1 s1 hx hw1 r, ste_eq _ (hid_real x w1 s1 hx hs1 r j), ste_eq _ (hw2 d j)]

end Layers

section Layers

variable (x : Fin 4096 → Fin 2048 → R) (w1 : Fin 8192 → Fin 2048 → R) (w2 : Fin 2048 → Fin 8192 → R) (s1 s2 : R)

/-- The quantized hidden layer of real inputs at a positive real scale is real. -/
theorem hq_real (hx : ∀ r k, IsReal (x r k)) (hs1 : 0 < s1 ∧ IsReal s1) (r : Fin 4096) (j : Fin 8192) :
    IsReal (hq x w1 s1 r j) :=
  aQ_real (aScale_pos _ (hid_real x w1 s1 hx hs1 r)) _

/-- The output of real inputs at positive real scales is real. -/
theorem out_real (hx : ∀ r k, IsReal (x r k)) (hs1 : 0 < s1 ∧ IsReal s1) (hs2 : 0 < s2 ∧ IsReal s2)
    (r : Fin 4096) (d : Fin 2048) : IsReal (out x w1 w2 s1 s2 r d) := by
  unfold out
  exact isReal_sum _ _ fun j _ => (hq_real x w1 s1 hx hs1 r j).mul (wQ_real hs2 _)

end Layers

end Cert.Spec

end
-- ==== Proof.SpecSum.lean ====
/-
  The summation laws of a blocked contraction over the extended reals.

  A sum over m * n positions is the sum, over the m blocks, of the sums over the n positions of a block, the
  position of the pair (a, b) being a * n + b: the pairs are in bijection with the positions and addition on the
  extended reals is commutative and associative (no finiteness is needed). Stated for 16 blocks of 512 over 8192
  positions and for 4 blocks of 512 over 2048 positions.

  A running sum that starts as the zero word plus the first term and gains one term at each later step holds,
  after step n, the sum of the terms 0, …, n: the zero word denotes 0 and 0 + v = v for every extended real v.
-/
import proofs.«133375_j41592463294489_2_alg».proof.Proof.Spec
import proofs.«133375_j41592463294489_2_alg».proof.Proof.SpecReal

noncomputable section

namespace Cert.Spec

open Idealize.ShloMosaic

/-! ### Sums over blocks -/

/-- A sum over a product of two finite ranges, the pair read as the position a * n + b. -/
theorem sum_blocks_gen {M : Type} [AddCommMonoid M] (m n N : ℕ) (hN : m * n = N) (f : Fin N → M)
    (g : Fin m → Fin n → Fin N) (hg : ∀ a b, (g a b).val = a.val * n + b.val) :
    (∑ a : Fin m, ∑ b : Fin n, f (g a b)) = ∑ j : Fin N, f j := by
  subst hN
  rw [← Fintype.sum_prod_type']
  refine Fintype.sum_equiv finProdFinEquiv _ _ fun p => congrArg f (Fin.ext ?_)
  rw [hg]
  simp only [finProdFinEquiv_apply_val]
  rw [Nat.mul_comm, Nat.add_comm]

/-- A sum over 8192 positions is the sum over 16 blocks of the sums over the 512 positions of a block. -/
theorem sum_blocks16 (f : Fin 8192 → R) :
    (∑ kb : Fin 16, ∑ jj : Fin 512, f (⟨kb.val * 512 + jj.val, by omega⟩ : Fin 8192)) = ∑ j : Fin 8192, f j :=
  sum_blocks_gen 16 512 8192 (by norm_num) f (fun kb jj => ⟨kb.val * 512 + jj.val, by omega⟩) (fun _ _ => rfl)

/-- A sum over 2048 positions is the sum over 4 blocks of the sums over the 512 positions of a block. -/
theorem sum_blocks4 (f : Fin 2048 → R) :
    (∑ kb : Fin 4, ∑ jj : Fin 512, f (⟨kb.val * 512 + jj.val, by omega⟩ : Fin 2048)) = ∑ j : Fin 2048, f j :=
  sum_blocks_gen 4 512 2048 (by norm_num) f (fun kb jj => ⟨kb.val * 512 + jj.val, by omega⟩) (fun _ _ => rfl)

/-! ### The running sum -/

/-- An accumulator that is the zero word plus the first term at the first step, and gains one term at each
    later step, holds after step n the sum of the terms 0, …, n. -/
theorem chain_eq_sum (s acc : ℕ → R) (h0 : acc 0 = lit 0x00000000#32 + s 0)
    (hs : ∀ k, acc (k + 1) = acc k + s (k + 1)) (n : ℕ) :
    acc n = ∑ k ∈ Finset.range (n + 1), s k := by
  induction n with
  | zero => rw [h0, lit_zero, zero_add, Finset.sum_range_one]
  | succ n ih => rw [hs, ih, ← Finset.sum_range_succ]

/-- After the sixteenth step the accumulator holds the sum of the sixteen terms. -/
theorem chain16_eq_sum (s acc : ℕ → R) (h0 : acc 0 = lit 0x00000000#32 + s 0)
    (hs : ∀ k, acc (k + 1) = acc k + s (k + 1)) :
    acc 15 = ∑ kb : Fin 16, s kb.val := by
  rw [chain_eq_sum s acc h0 hs 15, Fin.sum_univ_eq_sum_range]

end Cert.Spec

end
-- ==== Proof.KVal1.lean ====
/-
  What the second matrix product's region leaves in the output array, index by index.

  Along a row i of the grid the accumulator is set to zero at k = 0 and gains, at each k, the product of block (i, k) of the
  quantized hidden array with the transpose of column block k of the quantized weights: after point (i, k) its entry (p, d)
  is the sum over the blocks 0 … k and over jj < 512 of the hidden array at (512 i + p, 512 kb + jj) times the weights at
  (d, 512 kb + jj). At k = 15 that is the whole sum over 8192, and it is what is copied to block (i, 0) of the output array
  and written back. The eight blocks tile the array.
-/
import proofs.«133375_j41592463294489_2_alg».proof.Proof.KReg1
import proofs.«133375_j41592463294489_2_alg».proof.Proof.KPay
import proofs.«133375_j41592463294489_2_alg».proof.Proof.SpecSum
import Idealize.ShloMosaic.Lib.Pipeline.Value
import Idealize.ShloMosaic.Lib.Tactic

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic Idealize.ShloMosaic.ValueIdx Idealize.SL.Sem
open Idealize.ShloMosaic.Pipeline (Dat)

theorem hz2' : (![0, 0] : Fin 2 → Nat) = fun _ => 0 := funext fun a => by fin_cases a <;> rfl

section Cases

variable {F : FTy → Type} [FloatOps F]

/-- With k = 0 the accumulator ends at the product added to the zero block. -/
theorem sout_A_eq (c : Dev nD) (i : grid1.Coords) (a2 : Memref sig .tc .vmem S512x512 .bf16) (h2 : a2.IsWhole) (a3 : Memref sig .tc .vmem S2048x512 .bf16) (h3 : a3.IsWhole) (a4 : Memref sig .tc .vmem S512x2048 .f32) (h4 : a4.IsWhole) (a5 : Memref sig .tc .vmem S512x2048 .f32) (h5 : a5.IsWhole) (hc0 : cond1_0 i) (hc1 : ¬cond1_1 i)
    (x0 : Vec F S512x512 .bf16) (x1 : Vec F S2048x512 .bf16) :
    sout1_A_0 c i a2 h2 a3 h3 a4 h4 a5 h5 hc0 hc1 x0 x1 = k1_pay2 x0 x1 (k1_pay1 (F := F)) := by
  have hz2 := hz2'
  unfold sout1_A_0
  rw [View.read_writes_eq_canon _ _ _ (scover1_A_0 c i a2 h2 a3 h3 a4 h4 a5 h5 hc0 hc1 x0 x1)]
  unfold kernelRun1_A
  dsimp only
  sl_unfold_words
  rw [View.canon_cons_unit_zero (S := S512x2048) hz2, View.readCov_unit_zero (S := S512x2048) _ hz2]
  simp only [View.readAt_eq_ld, h2.read_unread, h3.read_unread, h4.read_unread, h5.read_unread, View.ld_unit_zero (S := S512x512) hz2, View.ld_unit_zero (S := S2048x512) hz2, View.ld_unit_zero (S := S512x2048) hz2]

/-- With 0 < k < 15 it ends at the product added to what it held. -/
theorem sout_B_eq (c : Dev nD) (i : grid1.Coords) (a2 : Memref sig .tc .vmem S512x512 .bf16) (h2 : a2.IsWhole) (a3 : Memref sig .tc .vmem S2048x512 .bf16) (h3 : a3.IsWhole) (a4 : Memref sig .tc .vmem S512x2048 .f32) (h4 : a4.IsWhole) (a5 : Memref sig .tc .vmem S512x2048 .f32) (h5 : a5.IsWhole) (hc0 : ¬cond1_0 i) (hc1 : ¬cond1_1 i)
    (x0 : Vec F S512x512 .bf16) (x1 : Vec F S2048x512 .bf16) (xs0 : Vec F S512x2048 .f32) :
    sout1_B_0 c i a2 h2 a3 h3 a4 h4 a5 h5 hc0 hc1 x0 x1 xs0 = k1_pay2 x0 x1 xs0 := by
  have hz2 := hz2'
  unfold sout1_B_0
  rw [View.read_writes_eq_canon _ _ _ (scover1_B_0 c i a2 h2 a3 h3 a4 h4 a5 h5 hc0 hc1 x0 x1 xs0)]
  unfold kernelRun1_B
  dsimp only
  rw [View.canon_unit_zero hz2]
  simp only [View.readAt_eq_ld, h2.read_unread, h3.read_unread, h4.read_unread, h5.read_unread, View.ld_unit_zero (S := S512x512) hz2, View.ld_unit_zero (S := S2048x512) hz2, View.ld_unit_zero (S := S512x2048) hz2]

/-- With k = 15 likewise, -/
theorem sout_C_eq (c : Dev nD) (i : grid1.Coords) (a2 : Memref sig .tc .vmem S512x512 .bf16) (h2 : a2.IsWhole) (a3 : Memref sig .tc .vmem S2048x512 .bf16) (h3 : a3.IsWhole) (a4 : Memref sig .tc .vmem S512x2048 .f32) (h4 : a4.IsWhole) (a5 : Memref sig .tc .vmem S512x2048 .f32) (h5 : a5.IsWhole) (hc0 : ¬cond1_0 i) (hc1 : cond1_1 i)
    (x0 : Vec F S512x512 .bf16) (x1 : Vec F S2048x512 .bf16) (xs0 : Vec F S512x2048 .f32) :
    sout1_C_0 c i a2 h2 a3 h3 a4 h4 a5 h5 hc0 hc1 x0 x1 xs0 = k1_pay2 x0 x1 xs0 := by
  have hz2 := hz2'
  unfold sout1_C_0
  rw [View.read_writes_eq_canon _ _ _ (scover1_C_0 c i a2 h2 a3 h3 a4 h4 a5 h5 hc0 hc1 x0 x1 xs0)]
  unfold kernelRun1_C
  dsimp only
  sl_unfold_words
  rw [View.canon_unit_zero hz2]
  simp only [View.readAt_eq_ld, h2.read_unread, h3.read_unread, h4.read_unread, h5.read_unread, View.ld_unit_zero (S := S512x512) hz2, View.ld_unit_zero (S := S2048x512) hz2, View.ld_unit_zero (S := S512x2048) hz2]

/-- and the output block receives the same. -/
theorem out_C_eq (c : Dev nD) (i : grid1.Coords) (a2 : Memref sig .tc .vmem S512x512 .bf16) (h2 : a2.IsWhole) (a3 : Memref sig .tc .vmem S2048x512 .bf16) (h3 : a3.IsWhole) (a4 : Memref sig .tc .vmem S512x2048 .f32) (h4 : a4.IsWhole) (a5 : Memref sig .tc .vmem S512x2048 .f32) (h5 : a5.IsWhole) (hc0 : ¬cond1_0 i) (hc1 : cond1_1 i)
    (x0 : Vec F S512x512 .bf16) (x1 : Vec F S2048x512 .bf16) (xs0 : Vec F S512x2048 .f32) :
    out1_C_2 c i a2 h2 a3 h3 a4 h4 a5 h5 hc0 hc1 x0 x1 xs0 = k1_pay2 x0 x1 xs0 := by
  have hz2 := hz2'
  unfold out1_C_2
  rw [View.read_writes_eq_canon _ _ _ (cover1_C_2 c i a2 h2 a3 h3 a4 h4 a5 h5 hc0 hc1 x0 x1 xs0)]
  unfold kernelRun1_C
  dsimp only
  sl_unfold_words
  rw [View.canon_unit_zero hz2, View.readCov_unit_zero (S := S512x2048) _ hz2]
  simp only [View.readAt_eq_ld, h2.read_unread, h3.read_unread, h4.read_unread, h5.read_unread, View.ld_unit_zero (S := S512x512) hz2, View.ld_unit_zero (S := S2048x512) hz2, View.ld_unit_zero (S := S512x2048) hz2]

end Cases

variable (V : (c : Dev nD) → (b : Ref sig .tc) → Buf (Elt Ideal) ((c : Thread nD τ).loc b))

/-- The two arrays the region reads, as the region finds them. -/
abbrev A39 (c : Dev nD) : S4096x8192.Idx → EReal := V c main_v39
abbrev A51 (c : Dev nD) : S2048x8192.Idx → EReal := V c main_v51

/-- The accumulator after position n. -/
def acc1 (c : Dev nD) : (n : ℕ) → n < cfg1.N → Vec Ideal S512x2048 .f32
  | 0, h => k1_pay2 (iblk1 V c 0 ⟨0, h⟩) (iblk1 V c 1 ⟨0, h⟩) (k1_pay1 (F := Ideal))
  | n + 1, h =>
    if (n + 1) % 16 = 0 then k1_pay2 (iblk1 V c 0 ⟨n + 1, h⟩) (iblk1 V c 1 ⟨n + 1, h⟩) (k1_pay1 (F := Ideal))
    else k1_pay2 (iblk1 V c 0 ⟨n + 1, h⟩) (iblk1 V c 1 ⟨n + 1, h⟩) (acc1 c n (Nat.lt_of_succ_lt h))

theorem acc1_congr (c : Dev nD) (n n' : ℕ) (e : n = n') (hn : n < cfg1.N) (hn' : n' < cfg1.N) : acc1 V c n hn = acc1 V c n' hn' := by
  subst e; rfl

/-- At a position that starts a row of the grid: the point's product added to the zero block. -/
theorem acc1_first (c : Dev nD) (n : ℕ) (h : n < cfg1.N) (h0 : n % 16 = 0) :
    acc1 V c n h = k1_pay2 (iblk1 V c 0 ⟨n, h⟩) (iblk1 V c 1 ⟨n, h⟩) (k1_pay1 (F := Ideal)) := by
  cases n with
  | zero => rfl
  | succ n => unfold acc1; rw [if_pos h0]

/-- At any other position: the point's product added to what the position before left. -/
theorem acc1_next (c : Dev nD) (n : ℕ) (h : n + 1 < cfg1.N) (h0 : ¬(n + 1) % 16 = 0) :
    acc1 V c (n + 1) h = k1_pay2 (iblk1 V c 0 ⟨n + 1, h⟩) (iblk1 V c 1 ⟨n + 1, h⟩) (acc1 V c n (Nat.lt_of_succ_lt h)) := by
  rw [acc1]; rw [if_neg h0]

/-- The case values at a grid point, every argument spelt. -/
theorem soutA_at (c : Dev nD) (t : Fin cfg1.N) (hc0 : cond1_0 (grid1.coords t)) (hc1 : ¬cond1_1 (grid1.coords t)) :
    sout1_A_0 c (grid1.coords t) (ms1_0 t) (hs1_0 t) (ms1_1 t) (hs1_1 t) (ms1_2 t) (hs1_2 t) scM1_0 (Memref.isWhole_whole _) hc0 hc1 (iblk1 V c 0 t) (iblk1 V c 1 t) = k1_pay2 (iblk1 V c 0 t) (iblk1 V c 1 t) (k1_pay1 (F := Ideal)) :=
  sout_A_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t)
theorem soutB_at (c : Dev nD) (t : Fin cfg1.N) (hc0 : ¬cond1_0 (grid1.coords t)) (hc1 : ¬cond1_1 (grid1.coords t)) (xs : Vec Ideal S512x2048 .f32) :
    sout1_B_0 c (grid1.coords t) (ms1_0 t) (hs1_0 t) (ms1_1 t) (hs1_1 t) (ms1_2 t) (hs1_2 t) scM1_0 (Memref.isWhole_whole _) hc0 hc1 (iblk1 V c 0 t) (iblk1 V c 1 t) xs = k1_pay2 (iblk1 V c 0 t) (iblk1 V c 1 t) xs :=
  sout_B_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t) xs
theorem soutC_at (c : Dev nD) (t : Fin cfg1.N) (hc0 : ¬cond1_0 (grid1.coords t)) (hc1 : cond1_1 (grid1.coords t)) (xs : Vec Ideal S512x2048 .f32) :
    sout1_C_0 c (grid1.coords t) (ms1_0 t) (hs1_0 t) (ms1_1 t) (hs1_1 t) (ms1_2 t) (hs1_2 t) scM1_0 (Memref.isWhole_whole _) hc0 hc1 (iblk1 V c 0 t) (iblk1 V c 1 t) xs = k1_pay2 (iblk1 V c 0 t) (iblk1 V c 1 t) xs :=
  sout_C_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t) xs
theorem outC_at (c : Dev nD) (t : Fin cfg1.N) (hc0 : ¬cond1_0 (grid1.coords t)) (hc1 : cond1_1 (grid1.coords t)) (xs : Vec Ideal S512x2048 .f32) :
    out1_C_2 c (grid1.coords t) (ms1_0 t) (hs1_0 t) (ms1_1 t) (hs1_1 t) (ms1_2 t) (hs1_2 t) scM1_0 (Memref.isWhole_whole _) hc0 hc1 (iblk1 V c 0 t) (iblk1 V c 1 t) xs = k1_pay2 (iblk1 V c 0 t) (iblk1 V c 1 t) xs :=
  out_C_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t) xs

/-- The second component of the recursion at a point of each case, -/
theorem outsAt1_A_snd (c : Dev nD) (t : Fin cfg1.N) (h0 : t.val % 16 = 0) (h1 : ¬t.val % 16 = 15) :
    (outsAt1 V c t.val t.isLt).2 = sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  rw [outsAt1_A V c t h0 h1]
theorem outsAt1_B_snd (c : Dev nD) (t : Fin cfg1.N) (h0 : ¬t.val % 16 = 0) (h1 : ¬t.val % 16 = 15) :
    (outsAt1 V c t.val t.isLt).2 = sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2 := by
  rw [outsAt1_B V c t h0 h1]
theorem outsAt1_C_snd (c : Dev nD) (t : Fin cfg1.N) (h0 : ¬t.val % 16 = 0) (h1 : t.val % 16 = 15) :
    (outsAt1 V c t.val t.isLt).2 = sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2 := by
  rw [outsAt1_C V c t h0 h1]
/-- and the first where it matters. -/
theorem outsAt1_C_fst (c : Dev nD) (t : Fin cfg1.N) (h0 : ¬t.val % 16 = 0) (h1 : t.val % 16 = 15) :
    (outsAt1 V c t.val t.isLt).1 = out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2 := by
  rw [outsAt1_C V c t h0 h1]

/-- The accumulator at a grid point that starts a row, -/
theorem acc1_first' (c : Dev nD) (t : Fin cfg1.N) (h0 : t.val % 16 = 0) :
    acc1 V c t.val t.isLt = k1_pay2 (iblk1 V c 0 t) (iblk1 V c 1 t) (k1_pay1 (F := Ideal)) :=
  acc1_first V c t.val t.isLt h0

/-- and at any other. -/
theorem acc1_next' (c : Dev nD) (t : Fin cfg1.N) (h0 : ¬t.val % 16 = 0) (hp : t.val - 1 < cfg1.N) :
    acc1 V c t.val t.isLt = k1_pay2 (iblk1 V c 0 t) (iblk1 V c 1 t) (acc1 V c (t.val - 1) hp) := by
  obtain ⟨n, hn⟩ := t
  cases n with
  | zero => exact absurd (Nat.zero_mod _) h0
  | succ n => exact acc1_next V c n hn h0

/-- The accumulator is what the point-by-point recursion carries. -/
theorem outsAt1_snd (c : Dev nD) : ∀ (n : ℕ) (t : Fin cfg1.N), t.val = n → (outsAt1 V c t.val t.isLt).2 = acc1 V c t.val t.isLt := by
  intro n
  induction n with
  | zero =>
    intro t ht
    have h0 : t.val % 16 = 0 := by omega
    have h1 : ¬t.val % 16 = 15 := by omega
    refine (outsAt1_A_snd V c t h0 h1).trans ?_
    exact (soutA_at V c t ((hcond1_0 t).mpr h0) (fun h => h1 ((hcond1_1 t).mp h))).trans (acc1_first' V c t h0).symm
  | succ n ih =>
    intro t ht
    have hN : cfg1.N = 128 := N_1
    by_cases h0 : t.val % 16 = 0
    · have h1 : ¬t.val % 16 = 15 := by omega
      refine (outsAt1_A_snd V c t h0 h1).trans ?_
      exact (soutA_at V c t ((hcond1_0 t).mpr h0) (fun h => h1 ((hcond1_1 t).mp h))).trans (acc1_first' V c t h0).symm
    · have hp : t.val - 1 < cfg1.N := Nat.lt_of_le_of_lt (Nat.sub_le _ _) t.isLt
      have ihp : (outsAt1 V c (t.val - 1) hp).2 = acc1 V c (t.val - 1) hp := ih ⟨t.val - 1, hp⟩ (by dsimp only; omega)
      by_cases h1 : t.val % 16 = 15
      · refine (outsAt1_C_snd V c t h0 h1).trans ?_
        refine (soutC_at V c t (fun h => h0 ((hcond1_0 t).mp h)) ((hcond1_1 t).mpr h1) (outsAt1 V c (t.val - 1) (Nat.lt_of_le_of_lt (Nat.sub_le _ _) t.isLt)).2).trans ?_
        rw [acc1_next' V c t h0 hp]
        exact congrArg (k1_pay2 (iblk1 V c 0 t) (iblk1 V c 1 t)) ihp
      · refine (outsAt1_B_snd V c t h0 h1).trans ?_
        refine (soutB_at V c t (fun h => h0 ((hcond1_0 t).mp h)) (fun h => h1 ((hcond1_1 t).mp h)) (outsAt1 V c (t.val - 1) (Nat.lt_of_le_of_lt (Nat.sub_le _ _) t.isLt)).2).trans ?_
        rw [acc1_next' V c t h0 hp]
        exact congrArg (k1_pay2 (iblk1 V c 0 t) (iblk1 V c 1 t)) ihp

/-- At a point with k = 15 the output block holds the accumulator. -/
theorem outsAt1_fst (c : Dev nD) (t : Fin cfg1.N) (h1 : t.val % 16 = 15) : (outsAt1 V c t.val t.isLt).1 = acc1 V c t.val t.isLt := by
  have h0 : ¬t.val % 16 = 0 := by omega
  refine (outsAt1_C_fst V c t h0 h1).trans ?_
  refine (outC_at V c t (fun h => h0 ((hcond1_0 t).mp h)) ((hcond1_1 t).mpr h1) (outsAt1 V c (t.val - 1) (Nat.lt_of_le_of_lt (Nat.sub_le _ _) t.isLt)).2).trans ?_
  refine (soutC_at V c t (fun h => h0 ((hcond1_0 t).mp h)) ((hcond1_1 t).mpr h1) (outsAt1 V c (t.val - 1) (Nat.lt_of_le_of_lt (Nat.sub_le _ _) t.isLt)).2).symm.trans ?_
  exact (outsAt1_C_snd V c t h0 h1).symm.trans (outsAt1_snd V c t.val t rfl)

/-- How the three windows' blocks move over the grid: point t = 16 i + k reads block (i, k) of the hidden array and column block k of
    the weights, and (at k = 15) writes block (i, 0). -/
theorem idx_facts1 : ∀ t : Fin cfg1.N, win1_0.index t (0 : Fin 2) = t.val / 16 ∧ win1_0.index t (1 : Fin 2) = t.val % 16
    ∧ win1_1.index t (0 : Fin 2) = 0 ∧ win1_1.index t (1 : Fin 2) = t.val % 16
    ∧ win1_2.index t (0 : Fin 2) = t.val / 16 ∧ win1_2.index t (1 : Fin 2) = 0 :=
  (by decide +kernel : ∀ t : Fin grid1.N, _)

/-- The product a point adds, at row r and column d: over block kb of the contraction. -/
def term1 (c : Dev nD) (r : Fin 4096) (d : Fin 2048) (kb : ℕ) : EReal :=
  if hk : kb < 16 then ∑ jj : Fin 512, A39 V c (ix2 r (⟨kb * 512 + jj.val, by omega⟩ : Fin 8192)) * A51 V c (ix2 d (⟨kb * 512 + jj.val, by omega⟩ : Fin 8192)) else 0

/-- One point's payload at (p, d): what it held plus the point's product. -/
theorem step1 (c : Dev nD) (t : Fin cfg1.N) (xs : Vec Ideal S512x2048 .f32) (p : Fin 512) (d : Fin 2048)
    (r : Fin 4096) (hr : r.val = t.val / 16 * 512 + p.val) (kb : ℕ) (hkb : kb = t.val % 16) :
    k1_pay2 (iblk1 V c 0 t) (iblk1 V c 1 t) xs (ix2 p d) = xs (ix2 p d) + term1 V c r d kb := by
  obtain ⟨e0, e1, e2, e3, e4, e5⟩ := idx_facts1 t
  subst hkb
  refine (pay2_apply (iblk1 V c 0 t) (iblk1 V c 1 t) xs p d).trans ?_
  unfold term1
  rw [dif_pos (Nat.mod_lt _ (by decide))]
  refine congrArg (fun s => xs (ix2 p d) + s) (Finset.sum_congr rfl fun jj _ => ?_)
  show A39 V c (((cfg1.win 0).blk t).view.emb (ix2 p jj)) * A51 V c (((cfg1.win 1).blk t).view.emb (ix2 d jj)) = _
  have h0 : ((cfg1.win 0).blk t).view.emb (ix2 p jj) = ix2 r (⟨t.val % 16 * 512 + jj.val, by omega⟩ : Fin 8192) := by
    funext a; apply Fin.ext
    match a with
    | ⟨0, _⟩ => show win1_0.index t (0 : Fin 2) * 512 + 1 * p.val = r.val; omega
    | ⟨1, _⟩ => show win1_0.index t (1 : Fin 2) * 512 + 1 * jj.val = t.val % 16 * 512 + jj.val; omega
  have h1 : ((cfg1.win 1).blk t).view.emb (ix2 d jj) = ix2 d (⟨t.val % 16 * 512 + jj.val, by omega⟩ : Fin 8192) := by
    funext a; apply Fin.ext
    match a with
    | ⟨0, _⟩ => show win1_1.index t (0 : Fin 2) * 2048 + 1 * d.val = d.val; omega
    | ⟨1, _⟩ => show win1_1.index t (1 : Fin 2) * 512 + 1 * jj.val = t.val % 16 * 512 + jj.val; omega
  rw [h0, h1]

/-- The accumulator after point 16 i + k at (p, d): the sum of the products of the blocks 0 … k. -/
theorem acc1_apply (c : Dev nD) (i : ℕ) (hi : i < 8) (p : Fin 512) (d : Fin 2048) :
    ∀ (k : ℕ) (hk : k < 16) (h : 16 * i + k < cfg1.N), acc1 V c (16 * i + k) h (ix2 p d)
      = ∑ kb ∈ Finset.range (k + 1), term1 V c (⟨i * 512 + p.val, by omega⟩ : Fin 4096) d kb
  | 0, hk, h => by
    rw [acc1_first V c (16 * i + 0) h (by omega),
      step1 V c ⟨16 * i + 0, h⟩ (k1_pay1 (F := Ideal)) p d (⟨i * 512 + p.val, by omega⟩ : Fin 4096) (by dsimp only; omega) 0 (by dsimp only; omega),
      pay1_apply, zero_add, Finset.sum_range_one]
  | k + 1, hk, h => by
    have hN : cfg1.N = 128 := N_1
    have ih := acc1_apply c i hi p d k (by omega) (by omega)
    rw [acc1_congr V c (16 * i + (k + 1)) (16 * i + k + 1) (by omega) h (by omega), acc1_next V c (16 * i + k) (by omega) (by omega),
      step1 V c ⟨16 * i + k + 1, by omega⟩ (acc1 V c (16 * i + k) (by omega)) p d (⟨i * 512 + p.val, by omega⟩ : Fin 4096) (by dsimp only; omega) (k + 1) (by dsimp only; omega),
      ih, Finset.sum_range_succ _ (k + 1)]

/-- The output array as a function of the two quantized arrays. -/
def G1 (a : S4096x8192.Idx → EReal) (b : S2048x8192.Idx → EReal) : S4096x2048.Idx → EReal := fun i =>
  ∑ j : Fin 8192, a (ix2 (⟨(i 0).val, (i 0).isLt⟩ : Fin 4096) j) * b (ix2 (⟨(i 1).val, (i 1).isLt⟩ : Fin 2048) j)

/-- Every row block of the output array is written back by some point with k = 15. -/
theorem idx_onto1 : ∀ q0 : Fin 8, ∃ t : Fin cfg1.N, (cfg1.win 2).flush t = true ∧ win1_2.index t = ![q0.val, 0] :=
  (by decide +kernel : ∀ q0 : Fin 8, ∃ t : Fin grid1.N, win1_2.flush t = true ∧ win1_2.index t = ![q0.val, 0])

/-- What a point with k = 15 writes back is its block of `G1` of the two arrays as the region finds them. -/
theorem flushed1_eq (c : Dev nD) (t : Fin cfg1.N) (hf : (cfg1.win 2).flush t = true) :
    (dat1 V c).flushed 2 t = ((cfg1.win 2).blk t).view.read (Elt Ideal) (G1 (A39 V c) (A51 V c)) := by
  have h15 : t.val % 16 = 15 := (flush1_2 t).mp hf
  have hN : cfg1.N = 128 := N_1
  have htlt : t.val < 128 := lt_of_lt_of_eq t.isLt hN
  show (cfg1.win 2).cut (grid1.coords t) ((dat1 V c).after 2 t) = _
  rw [after1_2, outsAt1_fst V c t h15]
  obtain ⟨e0, e1, e2, e3, e4, e5⟩ := idx_facts1 t
  funext j
  obtain ⟨p, d, rfl⟩ : ∃ (p : Fin 512) (d : Fin 2048), j = ix2 p d := ⟨j 0, j 1, eq_ix2 j⟩
  have hacc := acc1_apply V c (t.val / 16) (by omega) p d 15 (by decide) (by omega)
  refine ((congrFun (acc1_congr V c t.val (16 * (t.val / 16) + 15) (by omega) t.isLt (by omega)) (ix2 p d)).trans hacc).trans ?_
  show _ = G1 (A39 V c) (A51 V c) (((cfg1.win 2).blk t).view.emb (ix2 p d))
  unfold G1
  have hr : (⟨((((cfg1.win 2).blk t).view.emb (ix2 p d)) 0).val, ((((cfg1.win 2).blk t).view.emb (ix2 p d)) 0).isLt⟩ : Fin 4096) = (⟨t.val / 16 * 512 + p.val, by omega⟩ : Fin 4096) :=
    Fin.ext (by show win1_2.index t (0 : Fin 2) * 512 + 1 * p.val = t.val / 16 * 512 + p.val; omega)
  have hd : (⟨((((cfg1.win 2).blk t).view.emb (ix2 p d)) 1).val, ((((cfg1.win 2).blk t).view.emb (ix2 p d)) 1).isLt⟩ : Fin 2048) = d :=
    Fin.ext (by show win1_2.index t (1 : Fin 2) * 2048 + 1 * d.val = d.val; omega)
  rw [hr, hd, Finset.sum_range (fun kb => term1 V c (⟨t.val / 16 * 512 + p.val, by omega⟩ : Fin 4096) d kb)]
  rw [← Cert.Spec.sum_blocks16 (fun j : Fin 8192 => A39 V c (ix2 (⟨t.val / 16 * 512 + p.val, by omega⟩ : Fin 4096) j) * A51 V c (ix2 d j))]
  refine Finset.sum_congr rfl fun kb _ => ?_
  unfold term1
  rw [dif_pos kb.isLt]

/-- An index is in point t's block iff each coordinate is in the block's range. -/
theorem mem_blk1 (t : Fin cfg1.N) (i : S4096x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v52).slice (win1_2.rect t)).set ↔ _
  rw [View.set_slice_whole, Rect.mem_set_unit]
  exact Iff.rfl

/-- Every index is in the block some point with k = 15 writes back: the point of row block (row / 512). -/
theorem cover1 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, hft, ht⟩ := idx_onto1 ⟨(i 0).val / 512, by omega⟩
  have q0 : win1_2.index t (0 : Fin 2) = (i 0).val / 512 := congrFun ht 0
  have q1 : win1_2.index t (1 : Fin 2) = 0 := congrFun ht 1
  refine ⟨t, hft, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- The output array after the region. -/
theorem final1 (c : Dev nD) : (dat1 V c).arrAt 2 cfg1.N = G1 (A39 V c) (A51 V c) :=
  (dat1 V c).arrAt_eq_of_cover 2 (G1 (A39 V c) (A51 V c)) (fun t hf => flushed1_eq V c t hf) (cover1)

end Cert.KernelIdeal.Hand

end
-- ==== Proof.KHost.lean ====
/-
  The kernel program's host operations read at an index.

  Around its two kernel regions the program quantizes with StableHLO operations: the activations are set out as
  4096 rows, each row is scaled by 127 over the larger of 1e-5 and its largest magnitude, rounded to the nearest even
  integer, clipped to [-128, 127] and divided by the scale again; a weight matrix is scaled by 1 over the larger of
  1e-5 and its mean magnitude, rounded, clipped to [-1, 1] and divided by the scale. Every such operation acts on
  whole arrays: a broadcast, a reduction over the columns, a sum over every entry, or an entrywise operation.

  The first part reads these whole-array operations at one index, for arrays of any size: a scalar broadcast reads
  the scalar, a column broadcast along the rows reads the column's entry of that row, the reduction of the magnitudes
  over the columns with a maximum body reads the row's largest magnitude, the sum of the magnitudes over every entry
  reads the total magnitude. Composed, the program's two quantizing chains read, at an index, the specification's
  quantizers of the entry there.

  The second part follows the program's buffers stretch by stretch from the launch contents and finds, in the
  buffers the two kernel regions read, those two chains applied to the arguments and to the hidden array the first
  region leaves; the program's result is the second region's output with its 4096 rows set out as 4 batches of 1024.
-/
import proofs.«133375_j41592463294489_2_alg».proof.Proof.Gen.KernelIdeal.Regions
import proofs.«133375_j41592463294489_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KHost

open Cert.KernelIdeal Cert.KernelIdeal.Gen Idealize.ShloMosaic Idealize.ShloMosaic.TcCoe Idealize.ShloMosaic.ValueIdx
open Idealize.ShloMosaic.StableHlo

/-! ## Layout operations read at an index -/

/-- A scalar broadcast to any shape reads, everywhere, the scalar. -/
theorem bcastS_apply {t : Shape} (h : (⟨0, ![]⟩ : Shape).BroadcastsInDim t (![] : Fin 0 → Fin t.rank))
    (y : (⟨0, ![]⟩ : Shape).Idx → Spec.R) (j : t.Idx) :
    broadcastInDim t ![] h y j = y ix0 :=
  broadcastInDim_apply _ h y j ix0 (fun a => a.elim0)

/-- A literal broadcast to any shape reads, everywhere, the extended real the literal denotes. -/
theorem bcastLit_apply {t : Shape} (h : (⟨0, ![]⟩ : Shape).BroadcastsInDim t (![] : Fin 0 → Fin t.rank)) (b : BitVec 32) (j : t.Idx) :
    broadcastInDim t ![] h (constant (F := Ideal) (⟨0, ![]⟩ : Shape) .f32 b) j = Spec.lit b :=
  bcastS_apply h _ j

/-- The same through the identity conversion the clip functions apply to their bounds. -/
theorem bcastIdLit_apply {t : Shape} (h : (⟨0, ![]⟩ : Shape).BroadcastsInDim t (![] : Fin 0 → Fin t.rank)) (b : BitVec 32) (j : t.Idx) :
    broadcastInDim t ![] h (id (constant (F := Ideal) (⟨0, ![]⟩ : Shape) .f32 b)) j = Spec.lit b :=
  bcastS_apply h _ j

/-- A vector of `m` entries broadcast to a column [m, 1] reads, at row `r`, entry `r`. -/
theorem bcastCol_apply {m : ℕ} (h : (⟨1, ![m]⟩ : Shape).BroadcastsInDim ⟨2, ![m, 1]⟩ (![0] : Fin 1 → Fin 2))
    (y : (⟨1, ![m]⟩ : Shape).Idx → Spec.R) (r : Fin m) (z : Fin 1) :
    broadcastInDim ⟨2, ![m, 1]⟩ ![0] h y (ix2 r z) = y (ix1 r) :=
  broadcastInDim_apply _ h y _ (ix1 r) (fun a => match a with
    | ⟨0, _⟩ => by
      show r.val = if m = 1 then 0 else r.val
      have := r.isLt
      split <;> omega)

/-- A column [m, 1] broadcast along the rows to [m, n] reads, at (r, k), the column's row `r`. -/
theorem bcastRow_apply {m n : ℕ} (h : (⟨2, ![m, 1]⟩ : Shape).BroadcastsInDim ⟨2, ![m, n]⟩ (![0, 1] : Fin 2 → Fin 2))
    (y : (⟨2, ![m, 1]⟩ : Shape).Idx → Spec.R) (r : Fin m) (k : Fin n) :
    broadcastInDim ⟨2, ![m, n]⟩ ![0, 1] h y (ix2 r k) = y (ix2 r (0 : Fin 1)) :=
  broadcastInDim_apply _ h y _ _ (fun a => match a with
    | ⟨0, _⟩ => by
      show r.val = if m = 1 then 0 else r.val
      have := r.isLt
      split <;> omega
    | ⟨1, _⟩ => by
      show 0 = if (1 : ℕ) = 1 then 0 else k.val
      rw [if_pos rfl])

/-! ## The row maximum -/

/-- Row `r` of an [m, n] array with column `k` put back is (r, k). -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The reduction with a maximum body over the columns of the magnitudes, at row `r`, is that row's largest magnitude. -/
theorem rowMax_apply {m n : ℕ} (x : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (r : Fin m) :
    Host.reduce FloatOps.maximumf (Host.absf x) (constant (F := Ideal) (⟨0, ![]⟩ : Shape) .f32 0xFF800000#32) h' hu (ix1 r)
      = Spec.rowMax (fun k : Fin n => x (ix2 r k)) := by
  rw [Host.reduce_eq_fold_single FloatOps.maximumf (Host.absf x) _ h' h hu]
  have hf : (Host.absf x ∘ h.lift (ix1 r)) = fun k : Fin n => FloatOps.hostAbsf (F := Ideal) (x (ix2 r k)) :=
    funext fun k => congrArg (Host.absf x) (lift_row h r k)
  exact congrArg (fun f => Finset.fold (FloatOps.maximumf (F := Ideal) (φ := .f32)) (Spec.lit 0xFF800000#32) f
    (Finset.univ : Finset (Fin n))) hf

/-! ## The two quantizers as the program writes them -/

section Terms

variable {m n : ℕ}

/-- The column of row scales as the program computes it: 127 broadcast, over the larger of 1e-5 broadcast and the
    row maxima of the magnitudes set as a column. -/
def scaleCol (h' : (⟨2, ![m, n]⟩ : Shape).ReducesTo [1] (⟨1, ![m]⟩ : Shape)) (hu : 0 < (⟨0, ![]⟩ : Shape).numel)
    (hbS : (⟨0, ![]⟩ : Shape).BroadcastsInDim ⟨2, ![m, 1]⟩ (![] : Fin 0 → Fin 2))
    (hb0 : (⟨1, ![m]⟩ : Shape).BroadcastsInDim ⟨2, ![m, 1]⟩ (![0] : Fin 1 → Fin 2))
    (x : FVec Ideal ⟨2, ![m, n]⟩ .f32) : FVec Ideal ⟨2, ![m, 1]⟩ .f32 :=
  Host.divf (F := Ideal)
    (broadcastInDim ⟨2, ![m, 1]⟩ ![] hbS (constant (F := Ideal) (⟨0, ![]⟩ : Shape) .f32 0x42FE0000#32))
    (maximumf (broadcastInDim ⟨2, ![m, 1]⟩ ![] hbS (id (constant (F := Ideal) (⟨0, ![]⟩ : Shape) .f32 0x3727C5AC#32)))
      (broadcastInDim ⟨2, ![m, 1]⟩ ![0] hb0
        (Host.reduce FloatOps.maximumf (Host.absf x) (constant (F := Ideal) (⟨0, ![]⟩ : Shape) .f32 0xFF800000#32) h' hu)))

/-- The column of scales at row `r` is that row's scale. -/
theorem scaleCol_apply (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel)
    (hbS : (⟨0, ![]⟩ : Shape).BroadcastsInDim ⟨2, ![m, 1]⟩ (![] : Fin 0 → Fin 2))
    (hb0 : (⟨1, ![m]⟩ : Shape).BroadcastsInDim ⟨2, ![m, 1]⟩ (![0] : Fin 1 → Fin 2))
    (x : FVec Ideal ⟨2, ![m, n]⟩ .f32) (r : Fin m) (z : Fin 1) :
    scaleCol h' hu hbS hb0 x (ix2 r z) = Spec.aScale (fun k : Fin n => x (ix2 r k)) := by
  unfold Spec.aScale scaleCol
  rw [← rowMax_apply x h' h hu r]
  generalize Host.reduce FloatOps.maximumf (Host.absf x) (constant (F := Ideal) (⟨0, ![]⟩ : Shape) .f32 0xFF800000#32) h' hu = y
  rw [← bcastCol_apply hb0 y r z,
    ← bcastLit_apply hbS 0x42FE0000#32 (ix2 r z), ← bcastIdLit_apply hbS 0x3727C5AC#32 (ix2 r z)]
  rfl

/-- The activations quantized as the program computes them from the column of scales `sc`: multiplied by the scale
    broadcast along the rows, rounded, clipped between −128 and 127 broadcast, divided by the scale, cast. -/
def quantRows (hbT : (⟨0, ![]⟩ : Shape).BroadcastsInDim ⟨2, ![m, n]⟩ (![] : Fin 0 → Fin 2))
    (hbR : (⟨2, ![m, 1]⟩ : Shape).BroadcastsInDim ⟨2, ![m, n]⟩ (![0, 1] : Fin 2 → Fin 2))
    (hbits : FTy.bits .bf16 < FTy.bits .f32)
    (x : FVec Ideal ⟨2, ![m, n]⟩ .f32) (sc : FVec Ideal ⟨2, ![m, 1]⟩ .f32) : FVec Ideal ⟨2, ![m, n]⟩ .bf16 :=
  truncf .bf16
    (Host.divf (F := Ideal)
      (minimumf (broadcastInDim ⟨2, ![m, n]⟩ ![] hbT (id (constant (F := Ideal) (⟨0, ![]⟩ : Shape) .f32 0x42FE0000#32)))
        (maximumf (broadcastInDim ⟨2, ![m, n]⟩ ![] hbT (id (constant (F := Ideal) (⟨0, ![]⟩ : Shape) .f32 0xC3000000#32)))
          (Host.roundeven (mulf x (broadcastInDim ⟨2, ![m, n]⟩ ![0, 1] hbR sc)))))
      (broadcastInDim ⟨2, ![m, n]⟩ ![0, 1] hbR sc)) hbits

/-- The quantized activations at (r, k): entry (r, k) quantized at row `r`'s scale. -/
theorem quantRows_apply (hbT : (⟨0, ![]⟩ : Shape).BroadcastsInDim ⟨2, ![m, n]⟩ (![] : Fin 0 → Fin 2))
    (hbR : (⟨2, ![m, 1]⟩ : Shape).BroadcastsInDim ⟨2, ![m, n]⟩ (![0, 1] : Fin 2 → Fin 2))
    (hbits : FTy.bits .bf16 < FTy.bits .f32)
    (x : FVec Ideal ⟨2, ![m, n]⟩ .f32) (sc : FVec Ideal ⟨2, ![m, 1]⟩ .f32) (r : Fin m) (k : Fin n) :
    quantRows hbT hbR hbits x sc (ix2 r k) = Spec.aQ (sc (ix2 r (0 : Fin 1))) (x (ix2 r k)) := by
  unfold Spec.aQ quantRows
  rw [← bcastRow_apply hbR sc r k,
    ← bcastIdLit_apply hbT 0x42FE0000#32 (ix2 r k), ← bcastIdLit_apply hbT 0xC3000000#32 (ix2 r k)]
  rfl

end Terms

section Tensor

variable {s : Shape}

/-- A weight matrix's scale as the program computes it: 1 over the larger of 1e-5 and the sum of the magnitudes
    from zero over 2^24. -/
def tensorScale {axes : List (Fin s.rank)} (h' : s.ReducesTo axes (⟨0, ![]⟩ : Shape)) (hu : 0 < (⟨0, ![]⟩ : Shape).numel)
    (x : FVec Ideal s .f32) : FVec Ideal (⟨0, ![]⟩ : Shape) .f32 :=
  Host.divf (F := Ideal) (constant (F := Ideal) (⟨0, ![]⟩ : Shape) .f32 0x3F800000#32)
    (maximumf (id (constant (F := Ideal) (⟨0, ![]⟩ : Shape) .f32 0x3727C5AC#32))
      (Host.divf (F := Ideal)
        (Host.reduceAdd (F := Ideal) (Host.absf x) (constant (F := Ideal) (⟨0, ![]⟩ : Shape) .f32 0x00000000#32) h' hu)
        (constant (F := Ideal) (⟨0, ![]⟩ : Shape) .f32 0x4B800000#32)))

/-- It is the scale of the total magnitude. -/
theorem tensorScale_apply {axes : List (Fin s.rank)} (h' : s.ReducesTo axes (⟨0, ![]⟩ : Shape))
    (hu : 0 < (⟨0, ![]⟩ : Shape).numel) (x : FVec Ideal s .f32) (j : (⟨0, ![]⟩ : Shape).Idx) :
    tensorScale h' hu x j = Spec.wScale (Spec.absTot x) := by
  have e : Host.reduceAdd (F := Ideal) (Host.absf x) (constant (F := Ideal) (⟨0, ![]⟩ : Shape) .f32 0x00000000#32) h' hu j
      = Spec.absTot x := by
    generalize hy : Host.absf x = y
    simp only [Host.reduceAdd, Ideal.hostReduceAdd_def]
    refine (Ideal.hostReduceAdd_total h' (fun b => b.elim0) y _ j).trans ?_
    subst hy
    rfl
  unfold Spec.wScale
  rw [← e]
  rfl

/-- The weights quantized as the program computes them from the scalar scale `sc`. -/
def quantTensor (hbT : (⟨0, ![]⟩ : Shape).BroadcastsInDim s (![] : Fin 0 → Fin s.rank)) (hbits : FTy.bits .bf16 < FTy.bits .f32)
    (x : FVec Ideal s .f32) (sc : FVec Ideal (⟨0, ![]⟩ : Shape) .f32) : FVec Ideal s .bf16 :=
  truncf .bf16
    (Host.divf (F := Ideal)
      (minimumf (broadcastInDim s ![] hbT (id (constant (F := Ideal) (⟨0, ![]⟩ : Shape) .f32 0x3F800000#32)))
        (maximumf (broadcastInDim s ![] hbT (id (constant (F := Ideal) (⟨0, ![]⟩ : Shape) .f32 0xBF800000#32)))
          (Host.roundeven (mulf x (broadcastInDim s ![] hbT sc)))))
      (broadcastInDim s ![] hbT sc)) hbits

/-- The quantized weights at an index: the entry there quantized at the scale. -/
theorem quantTensor_apply (hbT : (⟨0, ![]⟩ : Shape).BroadcastsInDim s (![] : Fin 0 → Fin s.rank))
    (hbits : FTy.bits .bf16 < FTy.bits .f32) (x : FVec Ideal s .f32) (sc : FVec Ideal (⟨0, ![]⟩ : Shape) .f32) (j : s.Idx) :
    quantTensor hbT hbits x sc j = Spec.wQ (sc ix0) (x j) := by
  unfold Spec.wQ quantTensor
  rw [← bcastS_apply hbT sc j,
    ← bcastIdLit_apply hbT 0x3F800000#32 j, ← bcastIdLit_apply hbT 0xBF800000#32 j]
  rfl

end Tensor

/-! ## The program's buffers before the first kernel region -/

section Layer1

variable (m : (ℓ : Loc nD τ sig) → Buf (Elt Ideal) ℓ) (outs : Outs (F := Ideal)) (c : Dev nD)

/-- The three arguments at launch. -/
abbrev A0 : S4x1024x2048.Idx → Spec.R := m ((c : Thread nD τ).loc main_arg0)
abbrev A1 : S8192x2048.Idx → Spec.R := m ((c : Thread nD τ).loc main_arg1)
abbrev A2 : S2048x8192.Idx → Spec.R := m ((c : Thread nD τ).loc main_arg2)

/-- The hidden array as the first kernel region leaves it. -/
abbrev H : S4096x8192.Idx → Spec.R := outs 14 main_v26 c

/-- The activations as 4096 rows. -/
abbrev X0 : S4096x2048.Idx → Spec.R := shapeCast S4096x2048 (A0 m c) shapeCasts_S4x1024x2048_S4096x2048

theorem V1_v0 : (V1 m c main_v0 : S4096x2048.Idx → Spec.R) = X0 m c := by
  dsimp only [V1]; after_results; all_goals rfl

theorem V1_v3 : (V1 m c main_v3 : S4096x1.Idx → Spec.R) =
    broadcastInDim S4096x1 ![0] bcast_S4096_S4096x1_0
      (Host.reduce FloatOps.maximumf (Host.absf (X0 m c)) (constant (F := Ideal) S_ .f32 0xFF800000#32)
        reducesTo_S4096x2048_S4096_d1 h_S_) := by
  dsimp only [V1]; after_results; all_goals rfl

theorem V1_cst0 : (V1 m c main_cst_0 : S_.Idx → Spec.R) = constant (F := Ideal) S_ .f32 0x3727C5AC#32 := by
  dsimp only [V1]; after_results; all_goals rfl

theorem V2_v4 : (V2 m c main_v4 : S4096x1.Idx → Spec.R) =
    (maximumf (broadcastInDim S4096x1 ![] bcast_S_S4096x1 (id (V1 m c main_cst_0 : S_.Idx → Spec.R)))
      (V1 m c main_v3 : S4096x1.Idx → Spec.R) : FVec Ideal S4096x1 .f32) := by
  dsimp only [V2]; generalize V1 m c = W; after_results; all_goals rfl

/-- The column of scales. -/
theorem V3_v6 : (V3 m c main_v6 : S4096x1.Idx → Spec.R) =
    scaleCol reducesTo_S4096x2048_S4096_d1 h_S_ bcast_S_S4096x1 bcast_S4096_S4096x1_0 (X0 m c) := by
  have e : (V3 m c main_v6 : S4096x1.Idx → Spec.R) =
      Host.divf (F := Ideal) (broadcastInDim S4096x1 ![] bcast_S_S4096x1 (constant (F := Ideal) S_ .f32 0x42FE0000#32))
        (V2 m c main_v4 : S4096x1.Idx → Spec.R) := by
    dsimp only [V3]; generalize V2 m c = W; after_results; all_goals rfl
  rw [e, V2_v4, V1_cst0, V1_v3]
  rfl

/-- The scaled activations. -/
theorem V3_v8 : (V3 m c main_v8 : S4096x2048.Idx → Spec.R) =
    (mulf (X0 m c) (broadcastInDim S4096x2048 ![0, 1] bcast_S4096x1_S4096x2048_0_1
      (scaleCol reducesTo_S4096x2048_S4096_d1 h_S_ bcast_S_S4096x1 bcast_S4096_S4096x1_0 (X0 m c))) : FVec Ideal S4096x2048 .f32) := by
  have e : (V3 m c main_v8 : S4096x2048.Idx → Spec.R) =
      (mulf (V2 m c main_v0 : S4096x2048.Idx → Spec.R) (broadcastInDim S4096x2048 ![0, 1] bcast_S4096x1_S4096x2048_0_1
        (Host.divf (F := Ideal) (broadcastInDim S4096x1 ![] bcast_S_S4096x1 (constant (F := Ideal) S_ .f32 0x42FE0000#32))
          (V2 m c main_v4 : S4096x1.Idx → Spec.R))) : FVec Ideal S4096x2048 .f32) := by
    dsimp only [V3]; generalize V2 m c = W; after_results; all_goals rfl
  rw [e, V2_v4, V1_cst0, V1_v3, V2_of m c main_v0 (by decide), V1_v0]
  rfl

/-- The clipped, rounded, scaled activations. -/
theorem V6_v10 : (V6 m c main_v10 : S4096x2048.Idx → Spec.R) =
    (minimumf (broadcastInDim S4096x2048 ![] bcast_S_S4096x2048 (id (constant (F := Ideal) S_ .f32 0x42FE0000#32)))
      (maximumf (broadcastInDim S4096x2048 ![] bcast_S_S4096x2048 (id (constant (F := Ideal) S_ .f32 0xC3000000#32)))
        (Host.roundeven (V3 m c main_v8 : S4096x2048.Idx → Spec.R))) : FVec Ideal S4096x2048 .f32) := by
  have e9 : (V4 m c main_v9 : S4096x2048.Idx → Spec.R) =
      (Host.roundeven (V3 m c main_v8 : S4096x2048.Idx → Spec.R) : FVec Ideal S4096x2048 .f32) := by
    dsimp only [V4]; generalize V3 m c = W; after_results; all_goals rfl
  have e2 : (V5 m c main_cst_2 : S_.Idx → Spec.R) = constant (F := Ideal) S_ .f32 0xC3000000#32 := by
    dsimp only [V5]; generalize V4 m c = W; after_results; all_goals rfl
  have e3 : (V5 m c main_cst_3 : S_.Idx → Spec.R) = constant (F := Ideal) S_ .f32 0x42FE0000#32 := by
    dsimp only [V5]; generalize V4 m c = W; after_results; all_goals rfl
  have e : (V6 m c main_v10 : S4096x2048.Idx → Spec.R) =
      (minimumf (broadcastInDim S4096x2048 ![] bcast_S_S4096x2048 (id (V5 m c main_cst_3 : S_.Idx → Spec.R)))
        (maximumf (broadcastInDim S4096x2048 ![] bcast_S_S4096x2048 (id (V5 m c main_cst_2 : S_.Idx → Spec.R)))
          (V5 m c main_v9 : S4096x2048.Idx → Spec.R)) : FVec Ideal S4096x2048 .f32) := by
    dsimp only [V6]; generalize V5 m c = W; after_results; all_goals rfl
  rw [e, e2, e3, V5_of m c main_v9 (by decide), e9]

/-- The quantized activations, as the first kernel region finds them. -/
theorem V13_v13 : (V13 m c main_v13 : S4096x2048.Idx → Spec.R) =
    quantRows bcast_S_S4096x2048 bcast_S4096x1_S4096x2048_0_1 bitsLt_bf16_f32 (X0 m c)
      (scaleCol reducesTo_S4096x2048_S4096_d1 h_S_ bcast_S_S4096x1 bcast_S4096_S4096x1_0 (X0 m c)) := by
  have e : (V7 m c main_v13 : S4096x2048.Idx → Spec.R) =
      (truncf .bf16 (Host.divf (F := Ideal) (V6 m c main_v10 : S4096x2048.Idx → Spec.R)
        (broadcastInDim S4096x2048 ![0, 1] bcast_S4096x1_S4096x2048_0_1 (V6 m c main_v6 : S4096x1.Idx → Spec.R)))
        bitsLt_bf16_f32 : FVec Ideal S4096x2048 .bf16) := by
    dsimp only [V7]; generalize V6 m c = W; after_results; all_goals rfl
  rw [V13_of m c main_v13 (by decide), V12_of m c main_v13 (by decide), V11_of m c main_v13 (by decide),
    V10_of m c main_v13 (by decide), V9_of m c main_v13 (by decide), V8_of m c main_v13 (by decide), e,
    V6_v10, V3_v8, V6_of m c main_v6 (by decide), V5_of m c main_v6 (by decide), V4_of m c main_v6 (by decide), V3_v6]
  rfl

/-- The activations' rows: row `r` of the 4096 is row `r % 1024` of batch `r / 1024`. -/
def xRows (r : Fin 4096) (k : Fin 2048) : Spec.R :=
  A0 m c (ix3 (⟨r.val / 1024, by omega⟩ : Fin 4) (⟨r.val % 1024, by omega⟩ : Fin 1024) k)

theorem X0_apply (r : Fin 4096) (k : Fin 2048) : X0 m c (ix2 r k) = xRows m c r k :=
  shapeCast_apply _ _ _ _ (by
    rw [Shape.rowMajor_val_three, Shape.rowMajor_val_two]
    show (r.val / 1024 * 1024 + r.val % 1024) * 2048 + k.val = r.val * 2048 + k.val
    omega)

/-- The first kernel region's left operand is the quantized activations of the specification. -/
theorem v13_apply (r : Fin 4096) (k : Fin 2048) :
    (V13 m c main_v13 : S4096x2048.Idx → Spec.R) (ix2 r k) = Spec.xq (xRows m c) r k := by
  rw [V13_v13, quantRows_apply, scaleCol_apply reducesTo_S4096x2048_S4096_d1 (by decide)]
  unfold Spec.xq
  have hrow : (fun k' : Fin 2048 => X0 m c (ix2 r k')) = xRows m c r := funext fun k' => X0_apply m c r k'
  rw [hrow, X0_apply]

end Layer1

/-! ## The first weight matrix -/

section Weights1

variable (m : (ℓ : Loc nD τ sig) → Buf (Elt Ideal) ℓ) (outs : Outs (F := Ideal)) (c : Dev nD)

theorem V6_arg1 : (V6 m c main_arg1 : S8192x2048.Idx → Spec.R) = A1 m c := by
  rw [V6_of m c main_arg1 (by decide), V5_of m c main_arg1 (by decide), V4_of m c main_arg1 (by decide),
    V3_of m c main_arg1 (by decide), V2_of m c main_arg1 (by decide), V1_of m c main_arg1 (by decide)]

theorem V8_arg1 : (V8 m c main_arg1 : S8192x2048.Idx → Spec.R) = A1 m c := by
  rw [V8_of m c main_arg1 (by decide), V7_of m c main_arg1 (by decide), V6_arg1]

/-- The scale of the first weight matrix. -/
theorem V9_v18 : (V9 m c main_v18 : S_.Idx → Spec.R) = tensorScale reducesTo_S8192x2048_S_d0_1 h_S_ (A1 m c) := by
  have e16 : (V7 m c main_v16 : S_.Idx → Spec.R) =
      Host.divf (F := Ideal)
        (Host.reduceAdd (F := Ideal) (Host.absf (V6 m c main_arg1 : S8192x2048.Idx → Spec.R))
          (constant (F := Ideal) S_ .f32 0x00000000#32) reducesTo_S8192x2048_S_d0_1 h_S_)
        (constant (F := Ideal) S_ .f32 0x4B800000#32) := by
    dsimp only [V7]; generalize V6 m c = W; after_results; all_goals rfl
  have e6 : (V7 m c main_cst_6 : S_.Idx → Spec.R) = constant (F := Ideal) S_ .f32 0x3727C5AC#32 := by
    dsimp only [V7]; generalize V6 m c = W; after_results; all_goals rfl
  have e17 : (V8 m c main_v17 : S_.Idx → Spec.R) =
      (maximumf (id (V7 m c main_cst_6 : S_.Idx → Spec.R)) (V7 m c main_v16 : S_.Idx → Spec.R) : FVec Ideal S_ .f32) := by
    dsimp only [V8]; generalize V7 m c = W; after_results; all_goals rfl
  have e18 : (V9 m c main_v18 : S_.Idx → Spec.R) =
      Host.divf (F := Ideal) (constant (F := Ideal) S_ .f32 0x3F800000#32) (V8 m c main_v17 : S_.Idx → Spec.R) := by
    dsimp only [V9]; generalize V8 m c = W; after_results; all_goals rfl
  rw [e18, e17, e6, e16, V6_arg1]
  rfl

/-- The clipped, rounded, scaled weights. -/
theorem V12_v22 : (V12 m c main_v22 : S8192x2048.Idx → Spec.R) =
    (minimumf (broadcastInDim S8192x2048 ![] bcast_S_S8192x2048 (id (constant (F := Ideal) S_ .f32 0x3F800000#32)))
      (maximumf (broadcastInDim S8192x2048 ![] bcast_S_S8192x2048 (id (constant (F := Ideal) S_ .f32 0xBF800000#32)))
        (Host.roundeven (mulf (A1 m c) (broadcastInDim S8192x2048 ![] bcast_S_S8192x2048
          (tensorScale reducesTo_S8192x2048_S_d0_1 h_S_ (A1 m c)))))) : FVec Ideal S8192x2048 .f32) := by
  have e20 : (V9 m c main_v20 : S8192x2048.Idx → Spec.R) =
      (mulf (V8 m c main_arg1 : S8192x2048.Idx → Spec.R) (broadcastInDim S8192x2048 ![] bcast_S_S8192x2048
        (V9 m c main_v18 : S_.Idx → Spec.R)) : FVec Ideal S8192x2048 .f32) := by
    have e18 : (V9 m c main_v18 : S_.Idx → Spec.R) =
        Host.divf (F := Ideal) (constant (F := Ideal) S_ .f32 0x3F800000#32) (V8 m c main_v17 : S_.Idx → Spec.R) := by
      dsimp only [V9]; generalize V8 m c = W; after_results; all_goals rfl
    rw [e18]
    dsimp only [V9]; generalize V8 m c = W; after_results; all_goals rfl
  have e21 : (V10 m c main_v21 : S8192x2048.Idx → Spec.R) =
      (Host.roundeven (V9 m c main_v20 : S8192x2048.Idx → Spec.R) : FVec Ideal S8192x2048 .f32) := by
    dsimp only [V10]; generalize V9 m c = W; after_results; all_goals rfl
  have e8 : (V11 m c main_cst_8 : S_.Idx → Spec.R) = constant (F := Ideal) S_ .f32 0xBF800000#32 := by
    dsimp only [V11]; generalize V10 m c = W; after_results; all_goals rfl
  have e9 : (V11 m c main_cst_9 : S_.Idx → Spec.R) = constant (F := Ideal) S_ .f32 0x3F800000#32 := by
    dsimp only [V11]; generalize V10 m c = W; after_results; all_goals rfl
  have e : (V12 m c main_v22 : S8192x2048.Idx → Spec.R) =
      (minimumf (broadcastInDim S8192x2048 ![] bcast_S_S8192x2048 (id (V11 m c main_cst_9 : S_.Idx → Spec.R)))
        (maximumf (broadcastInDim S8192x2048 ![] bcast_S_S8192x2048 (id (V11 m c main_cst_8 : S_.Idx → Spec.R)))
          (V11 m c main_v21 : S8192x2048.Idx → Spec.R)) : FVec Ideal S8192x2048 .f32) := by
    dsimp only [V12]; generalize V11 m c = W; after_results; all_goals rfl
  rw [e, e8, e9, V11_of m c main_v21 (by decide), e21, e20, V8_arg1, V9_v18]

/-- The quantized first weight matrix, as the first kernel region finds it. -/
theorem V13_v25 : (V13 m c main_v25 : S8192x2048.Idx → Spec.R) =
    quantTensor bcast_S_S8192x2048 bitsLt_bf16_f32 (A1 m c) (tensorScale reducesTo_S8192x2048_S_d0_1 h_S_ (A1 m c)) := by
  have e : (V13 m c main_v25 : S8192x2048.Idx → Spec.R) =
      (truncf .bf16 (Host.divf (F := Ideal) (V12 m c main_v22 : S8192x2048.Idx → Spec.R)
        (broadcastInDim S8192x2048 ![] bcast_S_S8192x2048 (V12 m c main_v18 : S_.Idx → Spec.R)))
        bitsLt_bf16_f32 : FVec Ideal S8192x2048 .bf16) := by
    dsimp only [V13]; generalize V12 m c = W; after_results; all_goals rfl
  rw [e, V12_v22, V12_of m c main_v18 (by decide), V11_of m c main_v18 (by decide), V10_of m c main_v18 (by decide), V9_v18]
  rfl

/-- The first kernel region's right operand is the quantized first weight matrix of the specification. -/
theorem v25_apply (j : Fin 8192) (k : Fin 2048) :
    (V13 m c main_v25 : S8192x2048.Idx → Spec.R) (ix2 j k)
      = Spec.wQ (Spec.wScale (Spec.absTot (A1 m c))) (A1 m c (ix2 j k)) := by
  rw [V13_v25, quantTensor_apply, tensorScale_apply]

end Weights1

/-! ## The program's result -/

section Output

variable (m : (ℓ : Loc nD τ sig) → Buf (Elt Ideal) ℓ) (outs : Outs (F := Ideal)) (c : Dev nD)

/-- 4096 rows set out as 4 batches of 1024 rows: entry (b, t, d) is row `b * 1024 + t`, column `d`. -/
theorem batches_apply (y : S4096x2048.Idx → Spec.R) (b : Fin 4) (t : Fin 1024) (d : Fin 2048) :
    shapeCast S4x1024x2048 y shapeCasts_S4096x2048_S4x1024x2048 (ix3 b t d)
      = y (ix2 (⟨b.val * 1024 + t.val, by omega⟩ : Fin 4096) d) :=
  shapeCast_apply y _ _ _ (by
    rw [Shape.rowMajor_val_two, Shape.rowMajor_val_three]
    rfl)

/-- The result at (b, t, d) is the second kernel region's output at row `b * 1024 + t`, column `d`. -/
theorem v53_apply (b : Fin 4) (t : Fin 1024) (d : Fin 2048) :
    (V29 m outs c main_v53 : S4x1024x2048.Idx → Spec.R) (ix3 b t d)
      = outs 28 main_v52 c (ix2 (⟨b.val * 1024 + t.val, by omega⟩ : Fin 4096) d) := by
  have e : (V29 m outs c main_v53 : S4x1024x2048.Idx → Spec.R) =
      shapeCast S4x1024x2048 (V28 m outs c main_v52 : S4096x2048.Idx → Spec.R) shapeCasts_S4096x2048_S4x1024x2048 := by
    dsimp only [V29]; generalize V28 m outs c = W; after_results; all_goals rfl
  have e52 : (V28 m outs c main_v52 : S4096x2048.Idx → Spec.R) = outs 28 main_v52 c := by
    dsimp only [V28]; exact Function.update_self _ _ _
  rw [e, e52]
  exact batches_apply _ b t d

end Output

end Cert.KHost

end
-- ==== Proof.KHost2.lean ====
/-
  The kernel program's host operations between its two kernel regions, read at an index.

  Between the two regions the program quantizes the hidden array the first region leaves, row by row, with the same
  chain of whole-array operations as the activations before the first region: the rows' largest magnitudes, the column
  of scales 127 over the larger of 1e-5 and that magnitude, the product with the scale broadcast along the rows, the
  rounding, the clip to [-128, 127] and the quotient by the scale. It quantizes the second weight matrix with the same
  chain as the first: the total magnitude over 2^24, the scale 1 over the larger of 1e-5 and that mean, the product,
  the rounding, the clip to [-1, 1] and the quotient. Following the program's buffers stretch by stretch from the
  first region's output and from the third argument (which no stretch writes), the two buffers the second region
  reads hold those chains; read at an index they are the specification's quantizers of the entry there.
-/
import proofs.«133375_j41592463294489_2_alg».proof.Proof.KHost

noncomputable section

namespace Cert.KHost

open Cert.KernelIdeal Cert.KernelIdeal.Gen Idealize.ShloMosaic Idealize.ShloMosaic.TcCoe Idealize.ShloMosaic.ValueIdx
open Idealize.ShloMosaic.StableHlo

/-! ## The hidden array's row quantizer, between the two kernel regions -/

section Layer2

variable (m : (ℓ : Loc nD τ sig) → Buf (Elt Ideal) ℓ) (outs : Outs (F := Ideal)) (c : Dev nD)

theorem V14_v26 : (V14 m outs c main_v26 : S4096x8192.Idx → Spec.R) = H outs c := by
  dsimp only [V14]; exact Function.update_self _ _ _

theorem V16_v26 : (V16 m outs c main_v26 : S4096x8192.Idx → Spec.R) = H outs c := by
  rw [V16_of m outs c main_v26 (by decide), V15_of m outs c main_v26 (by decide), V14_v26]

theorem V15_v29 : (V15 m outs c main_v29 : S4096x1.Idx → Spec.R) =
    broadcastInDim S4096x1 ![0] bcast_S4096_S4096x1_0
      (Host.reduce FloatOps.maximumf (Host.absf (H outs c)) (constant (F := Ideal) S_ .f32 0xFF800000#32)
        reducesTo_S4096x8192_S4096_d1 h_S_) := by
  have e : (V15 m outs c main_v29 : S4096x1.Idx → Spec.R) =
      broadcastInDim S4096x1 ![0] bcast_S4096_S4096x1_0
        (Host.reduce FloatOps.maximumf (Host.absf (V14 m outs c main_v26 : S4096x8192.Idx → Spec.R))
          (constant (F := Ideal) S_ .f32 0xFF800000#32) reducesTo_S4096x8192_S4096_d1 h_S_) := by
    dsimp only [V15]; generalize V14 m outs c = W; after_results; all_goals rfl
  rw [e, V14_v26]

theorem V15_cst11 : (V15 m outs c main_cst_11 : S_.Idx → Spec.R) = constant (F := Ideal) S_ .f32 0x3727C5AC#32 := by
  dsimp only [V15]; generalize V14 m outs c = W; after_results; all_goals rfl

theorem V16_v30 : (V16 m outs c main_v30 : S4096x1.Idx → Spec.R) =
    (maximumf (broadcastInDim S4096x1 ![] bcast_S_S4096x1 (id (V15 m outs c main_cst_11 : S_.Idx → Spec.R)))
      (V15 m outs c main_v29 : S4096x1.Idx → Spec.R) : FVec Ideal S4096x1 .f32) := by
  dsimp only [V16]; generalize V15 m outs c = W; after_results; all_goals rfl

/-- The column of the hidden rows' scales. -/
theorem V17_v32 : (V17 m outs c main_v32 : S4096x1.Idx → Spec.R) =
    scaleCol reducesTo_S4096x8192_S4096_d1 h_S_ bcast_S_S4096x1 bcast_S4096_S4096x1_0 (H outs c) := by
  have e : (V17 m outs c main_v32 : S4096x1.Idx → Spec.R) =
      Host.divf (F := Ideal) (broadcastInDim S4096x1 ![] bcast_S_S4096x1 (constant (F := Ideal) S_ .f32 0x42FE0000#32))
        (V16 m outs c main_v30 : S4096x1.Idx → Spec.R) := by
    dsimp only [V17]; generalize V16 m outs c = W; after_results; all_goals rfl
  rw [e, V16_v30, V15_cst11, V15_v29]
  rfl

/-- The scaled hidden array. -/
theorem V17_v34 : (V17 m outs c main_v34 : S4096x8192.Idx → Spec.R) =
    (mulf (H outs c) (broadcastInDim S4096x8192 ![0, 1] bcast_S4096x1_S4096x8192_0_1
      (scaleCol reducesTo_S4096x8192_S4096_d1 h_S_ bcast_S_S4096x1 bcast_S4096_S4096x1_0 (H outs c))) : FVec Ideal S4096x8192 .f32) := by
  have e : (V17 m outs c main_v34 : S4096x8192.Idx → Spec.R) =
      (mulf (V16 m outs c main_v26 : S4096x8192.Idx → Spec.R) (broadcastInDim S4096x8192 ![0, 1] bcast_S4096x1_S4096x8192_0_1
        (Host.divf (F := Ideal) (broadcastInDim S4096x1 ![] bcast_S_S4096x1 (constant (F := Ideal) S_ .f32 0x42FE0000#32))
          (V16 m outs c main_v30 : S4096x1.Idx → Spec.R))) : FVec Ideal S4096x8192 .f32) := by
    dsimp only [V17]; generalize V16 m outs c = W; after_results; all_goals rfl
  rw [e, V16_v30, V15_cst11, V15_v29, V16_v26]
  rfl

/-- The clipped, rounded, scaled hidden array. -/
theorem V20_v36 : (V20 m outs c main_v36 : S4096x8192.Idx → Spec.R) =
    (minimumf (broadcastInDim S4096x8192 ![] bcast_S_S4096x8192 (id (constant (F := Ideal) S_ .f32 0x42FE0000#32)))
      (maximumf (broadcastInDim S4096x8192 ![] bcast_S_S4096x8192 (id (constant (F := Ideal) S_ .f32 0xC3000000#32)))
        (Host.roundeven (V17 m outs c main_v34 : S4096x8192.Idx → Spec.R))) : FVec Ideal S4096x8192 .f32) := by
  have e35 : (V18 m outs c main_v35 : S4096x8192.Idx → Spec.R) =
      (Host.roundeven (V17 m outs c main_v34 : S4096x8192.Idx → Spec.R) : FVec Ideal S4096x8192 .f32) := by
    dsimp only [V18]; generalize V17 m outs c = W; after_results; all_goals rfl
  have e13 : (V19 m outs c main_cst_13 : S_.Idx → Spec.R) = constant (F := Ideal) S_ .f32 0xC3000000#32 := by
    dsimp only [V19]; generalize V18 m outs c = W; after_results; all_goals rfl
  have e14 : (V19 m outs c main_cst_14 : S_.Idx → Spec.R) = constant (F := Ideal) S_ .f32 0x42FE0000#32 := by
    dsimp only [V19]; generalize V18 m outs c = W; after_results; all_goals rfl
  have e : (V20 m outs c main_v36 : S4096x8192.Idx → Spec.R) =
      (minimumf (broadcastInDim S4096x8192 ![] bcast_S_S4096x8192 (id (V19 m outs c main_cst_14 : S_.Idx → Spec.R)))
        (maximumf (broadcastInDim S4096x8192 ![] bcast_S_S4096x8192 (id (V19 m outs c main_cst_13 : S_.Idx → Spec.R)))
          (V19 m outs c main_v35 : S4096x8192.Idx → Spec.R)) : FVec Ideal S4096x8192 .f32) := by
    dsimp only [V20]; generalize V19 m outs c = W; after_results; all_goals rfl
  rw [e, e13, e14, V19_of m outs c main_v35 (by decide), e35]

/-- The quantized hidden array, as the second kernel region finds it. -/
theorem V27_v39 : (V27 m outs c main_v39 : S4096x8192.Idx → Spec.R) =
    quantRows bcast_S_S4096x8192 bcast_S4096x1_S4096x8192_0_1 bitsLt_bf16_f32 (H outs c)
      (scaleCol reducesTo_S4096x8192_S4096_d1 h_S_ bcast_S_S4096x1 bcast_S4096_S4096x1_0 (H outs c)) := by
  have e : (V21 m outs c main_v39 : S4096x8192.Idx → Spec.R) =
      (truncf .bf16 (Host.divf (F := Ideal) (V20 m outs c main_v36 : S4096x8192.Idx → Spec.R)
        (broadcastInDim S4096x8192 ![0, 1] bcast_S4096x1_S4096x8192_0_1 (V20 m outs c main_v32 : S4096x1.Idx → Spec.R)))
        bitsLt_bf16_f32 : FVec Ideal S4096x8192 .bf16) := by
    dsimp only [V21]; generalize V20 m outs c = W; after_results; all_goals rfl
  rw [V27_of m outs c main_v39 (by decide), V26_of m outs c main_v39 (by decide), V25_of m outs c main_v39 (by decide),
    V24_of m outs c main_v39 (by decide), V23_of m outs c main_v39 (by decide), V22_of m outs c main_v39 (by decide), e,
    V20_v36, V17_v34, V20_of m outs c main_v32 (by decide), V19_of m outs c main_v32 (by decide),
    V18_of m outs c main_v32 (by decide), V17_v32]
  rfl

/-- The second kernel region's left operand is the hidden array quantized row by row. -/
theorem v39_apply (r : Fin 4096) (j : Fin 8192) :
    (V27 m outs c main_v39 : S4096x8192.Idx → Spec.R) (ix2 r j)
      = Spec.aQ (Spec.aScale (fun j' : Fin 8192 => H outs c (ix2 r j'))) (H outs c (ix2 r j)) := by
  rw [V27_v39, quantRows_apply, scaleCol_apply reducesTo_S4096x8192_S4096_d1 (by decide)]

end Layer2

/-! ## The second weight matrix -/

section Weights2

variable (m : (ℓ : Loc nD τ sig) → Buf (Elt Ideal) ℓ) (outs : Outs (F := Ideal)) (c : Dev nD)

theorem V13_arg2 : (V13 m c main_arg2 : S2048x8192.Idx → Spec.R) = A2 m c := by
  rw [V13_of m c main_arg2 (by decide), V12_of m c main_arg2 (by decide), V11_of m c main_arg2 (by decide),
    V10_of m c main_arg2 (by decide), V9_of m c main_arg2 (by decide), V8_of m c main_arg2 (by decide),
    V7_of m c main_arg2 (by decide), V6_of m c main_arg2 (by decide), V5_of m c main_arg2 (by decide),
    V4_of m c main_arg2 (by decide), V3_of m c main_arg2 (by decide), V2_of m c main_arg2 (by decide),
    V1_of m c main_arg2 (by decide)]

theorem V20_arg2 : (V20 m outs c main_arg2 : S2048x8192.Idx → Spec.R) = A2 m c := by
  rw [V20_of m outs c main_arg2 (by decide), V19_of m outs c main_arg2 (by decide), V18_of m outs c main_arg2 (by decide),
    V17_of m outs c main_arg2 (by decide), V16_of m outs c main_arg2 (by decide), V15_of m outs c main_arg2 (by decide),
    V14_of m outs c main_arg2 (by decide), V13_arg2]

theorem V22_arg2 : (V22 m outs c main_arg2 : S2048x8192.Idx → Spec.R) = A2 m c := by
  rw [V22_of m outs c main_arg2 (by decide), V21_of m outs c main_arg2 (by decide), V20_arg2]

/-- The scale of the second weight matrix. -/
theorem V23_v44 : (V23 m outs c main_v44 : S_.Idx → Spec.R) = tensorScale reducesTo_S2048x8192_S_d0_1 h_S_ (A2 m c) := by
  have e42 : (V21 m outs c main_v42 : S_.Idx → Spec.R) =
      Host.divf (F := Ideal)
        (Host.reduceAdd (F := Ideal) (Host.absf (V20 m outs c main_arg2 : S2048x8192.Idx → Spec.R))
          (constant (F := Ideal) S_ .f32 0x00000000#32) reducesTo_S2048x8192_S_d0_1 h_S_)
        (constant (F := Ideal) S_ .f32 0x4B800000#32) := by
    dsimp only [V21]; generalize V20 m outs c = W; after_results; all_goals rfl
  have e17 : (V21 m outs c main_cst_17 : S_.Idx → Spec.R) = constant (F := Ideal) S_ .f32 0x3727C5AC#32 := by
    dsimp only [V21]; generalize V20 m outs c = W; after_results; all_goals rfl
  have e43 : (V22 m outs c main_v43 : S_.Idx → Spec.R) =
      (maximumf (id (V21 m outs c main_cst_17 : S_.Idx → Spec.R)) (V21 m outs c main_v42 : S_.Idx → Spec.R) : FVec Ideal S_ .f32) := by
    dsimp only [V22]; generalize V21 m outs c = W; after_results; all_goals rfl
  have e44 : (V23 m outs c main_v44 : S_.Idx → Spec.R) =
      Host.divf (F := Ideal) (constant (F := Ideal) S_ .f32 0x3F800000#32) (V22 m outs c main_v43 : S_.Idx → Spec.R) := by
    dsimp only [V23]; generalize V22 m outs c = W; after_results; all_goals rfl
  rw [e44, e43, e17, e42, V20_arg2]
  rfl

/-- The clipped, rounded, scaled weights. -/
theorem V26_v48 : (V26 m outs c main_v48 : S2048x8192.Idx → Spec.R) =
    (minimumf (broadcastInDim S2048x8192 ![] bcast_S_S2048x8192 (id (constant (F := Ideal) S_ .f32 0x3F800000#32)))
      (maximumf (broadcastInDim S2048x8192 ![] bcast_S_S2048x8192 (id (constant (F := Ideal) S_ .f32 0xBF800000#32)))
        (Host.roundeven (mulf (A2 m c) (broadcastInDim S2048x8192 ![] bcast_S_S2048x8192
          (tensorScale reducesTo_S2048x8192_S_d0_1 h_S_ (A2 m c)))))) : FVec Ideal S2048x8192 .f32) := by
  have e46 : (V23 m outs c main_v46 : S2048x8192.Idx → Spec.R) =
      (mulf (V22 m outs c main_arg2 : S2048x8192.Idx → Spec.R) (broadcastInDim S2048x8192 ![] bcast_S_S2048x8192
        (V23 m outs c main_v44 : S_.Idx → Spec.R)) : FVec Ideal S2048x8192 .f32) := by
    have e44 : (V23 m outs c main_v44 : S_.Idx → Spec.R) =
        Host.divf (F := Ideal) (constant (F := Ideal) S_ .f32 0x3F800000#32) (V22 m outs c main_v43 : S_.Idx → Spec.R) := by
      dsimp only [V23]; generalize V22 m outs c = W; after_results; all_goals rfl
    rw [e44]
    dsimp only [V23]; generalize V22 m outs c = W; after_results; all_goals rfl
  have e47 : (V24 m outs c main_v47 : S2048x8192.Idx → Spec.R) =
      (Host.roundeven (V23 m outs c main_v46 : S2048x8192.Idx → Spec.R) : FVec Ideal S2048x8192 .f32) := by
    dsimp only [V24]; generalize V23 m outs c = W; after_results; all_goals rfl
  have e19 : (V25 m outs c main_cst_19 : S_.Idx → Spec.R) = constant (F := Ideal) S_ .f32 0xBF800000#32 := by
    dsimp only [V25]; generalize V24 m outs c = W; after_results; all_goals rfl
  have e20 : (V25 m outs c main_cst_20 : S_.Idx → Spec.R) = constant (F := Ideal) S_ .f32 0x3F800000#32 := by
    dsimp only [V25]; generalize V24 m outs c = W; after_results; all_goals rfl
  have e : (V26 m outs c main_v48 : S2048x8192.Idx → Spec.R) =
      (minimumf (broadcastInDim S2048x8192 ![] bcast_S_S2048x8192 (id (V25 m outs c main_cst_20 : S_.Idx → Spec.R)))
        (maximumf (broadcastInDim S2048x8192 ![] bcast_S_S2048x8192 (id (V25 m outs c main_cst_19 : S_.Idx → Spec.R)))
          (V25 m outs c main_v47 : S2048x8192.Idx → Spec.R)) : FVec Ideal S2048x8192 .f32) := by
    dsimp only [V26]; generalize V25 m outs c = W; after_results; all_goals rfl
  rw [e, e19, e20, V25_of m outs c main_v47 (by decide), e47, e46, V22_arg2, V23_v44]

/-- The quantized second weight matrix, as the second kernel region finds it. -/
theorem V27_v51 : (V27 m outs c main_v51 : S2048x8192.Idx → Spec.R) =
    quantTensor bcast_S_S2048x8192 bitsLt_bf16_f32 (A2 m c) (tensorScale reducesTo_S2048x8192_S_d0_1 h_S_ (A2 m c)) := by
  have e : (V27 m outs c main_v51 : S2048x8192.Idx → Spec.R) =
      (truncf .bf16 (Host.divf (F := Ideal) (V26 m outs c main_v48 : S2048x8192.Idx → Spec.R)
        (broadcastInDim S2048x8192 ![] bcast_S_S2048x8192 (V26 m outs c main_v44 : S_.Idx → Spec.R)))
        bitsLt_bf16_f32 : FVec Ideal S2048x8192 .bf16) := by
    dsimp only [V27]; generalize V26 m outs c = W; after_results; all_goals rfl
  rw [e, V26_v48, V26_of m outs c main_v44 (by decide), V25_of m outs c main_v44 (by decide),
    V24_of m outs c main_v44 (by decide), V23_v44]
  rfl

/-- The second kernel region's right operand is the quantized second weight matrix of the specification. -/
theorem v51_apply (d : Fin 2048) (j : Fin 8192) :
    (V27 m outs c main_v51 : S2048x8192.Idx → Spec.R) (ix2 d j)
      = Spec.wQ (Spec.wScale (Spec.absTot (A2 m c))) (A2 m c (ix2 d j)) := by
  rw [V27_v51, quantTensor_apply, tensorScale_apply]

end Weights2

end Cert.KHost

end
-- ==== Proof.RefValue.lean ====
/-
  The reference program's result, read at an index, is the specification's straight-through output.

  The reference computes, for activations x of 4 x 1024 rows of length 2048 and weight matrices w1 (8192 x 2048)
  and w2 (2048 x 8192): every operand a is replaced by a + (q(a) - a), where q quantizes a row of activations with the
  row's own scale (127 over the larger of 1e-5 and the row's largest magnitude) and a weight matrix with one scale
  (1 over the larger of 1e-5 and the mean magnitude); the hidden layer is the positive part of the product of the two
  replaced operands, contracted over the row; the output is the same product of the replaced hidden layer with the
  replaced second weight matrix.

  Each lemma below reads one named intermediate of that computation at an index (b, t, k), from the innermost outwards:
  a row's largest magnitude, the row's scale, a replaced activation, a weight matrix's scale, a replaced weight, the
  hidden layer; then the same for the second layer; then the output.
-/
import proofs.«133375_j41592463294489_2_alg».proof.Proof.RefRead
import proofs.«133375_j41592463294489_2_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-! ## A reduction over the last of three axes, at a row -/

/-- The index (b, t) of the reduced array with coordinate k put back on the last axis is (b, t, k). -/
theorem lift_ix3 {n0 n1 n2 : Nat} (h : (⟨3, ![n0, n1, n2]⟩ : Shape).Reduces [2] (⟨2, ![n0, n1]⟩ : Shape)) (b : Fin n0) (t : Fin n1)
    (k : Fin ((⟨3, ![n0, n1, n2]⟩ : Shape).size 2)) : h.lift (ix2 b t) k = ix3 b t (⟨k.val, k.isLt⟩ : Fin n2) := by
  funext c; apply Fin.ext
  fin_cases c <;> rfl

/-- For a commutative and associative operation, the reduction over the last of three axes is, at (b, t), the fold of the
    operation over the row (b, t, ·) from the initial value. -/
theorem reduce_row {n0 n1 n2 : Nat} (f : Ideal .f32 → Ideal .f32 → Ideal .f32) [Std.Commutative f] [Std.Associative f]
    (x : (⟨3, ![n0, n1, n2]⟩ : Shape).Idx → Ideal .f32) (init : (⟨0, ![]⟩ : Shape).Idx → Ideal .f32)
    (h' : (⟨3, ![n0, n1, n2]⟩ : Shape).ReducesTo [2] (⟨2, ![n0, n1]⟩ : Shape)) (hu : 0 < (⟨0, ![]⟩ : Shape).numel)
    (b : Fin n0) (t : Fin n1) :
    Host.reduce f x init h' hu (ix2 b t)
      = (Finset.univ : Finset (Fin n2)).fold f (init (Shape.Idx.first hu)) (fun k => x (ix3 b t k)) := by
  have h : (⟨3, ![n0, n1, n2]⟩ : Shape).Reduces [2] (⟨2, ![n0, n1]⟩ : Shape) := ⟨h'.1, Nat.succ_pos 1, h'.2⟩
  rw [Host.reduce_eq_fold_single f x init h' h hu]
  have hf : (x ∘ h.lift (ix2 b t)) = fun k : Fin n2 => x (ix3 b t k) := funext fun k => congrArg x (lift_ix3 h b t k)
  exact congrArg (fun g => Finset.fold f (init (Shape.Idx.first hu)) g (Finset.univ : Finset (Fin n2))) hf

/-! ## Where the layout operations read -/

theorem idx_v2 (b : Fin 4) (t : Fin 1024) (z : Fin 1) : idx_main_v2 (ix3 b t z) = ix2 b t :=
  funext fun a => Fin.ext (by match a with | ⟨0, _⟩ => rfl | ⟨1, _⟩ => rfl)
theorem idx_v6 (b : Fin 4) (t : Fin 1024) (k : Fin 2048) : idx_main_v6 (ix3 b t k) = ix3 b t (0 : Fin 1) :=
  funext fun a => Fin.ext (by match a with | ⟨0, _⟩ => rfl | ⟨1, _⟩ => rfl | ⟨2, _⟩ => rfl)
theorem idx_v10 (b : Fin 4) (t : Fin 1024) (k : Fin 2048) : idx_main_v10 (ix3 b t k) = ix3 b t (0 : Fin 1) :=
  funext fun a => Fin.ext (by match a with | ⟨0, _⟩ => rfl | ⟨1, _⟩ => rfl | ⟨2, _⟩ => rfl)
theorem idx_v31 (b : Fin 4) (t : Fin 1024) (z : Fin 1) : idx_main_v31 (ix3 b t z) = ix2 b t :=
  funext fun a => Fin.ext (by match a with | ⟨0, _⟩ => rfl | ⟨1, _⟩ => rfl)
theorem idx_v35 (b : Fin 4) (t : Fin 1024) (j : Fin 8192) : idx_main_v35 (ix3 b t j) = ix3 b t (0 : Fin 1) :=
  funext fun a => Fin.ext (by match a with | ⟨0, _⟩ => rfl | ⟨1, _⟩ => rfl | ⟨2, _⟩ => rfl)
theorem idx_v39 (b : Fin 4) (t : Fin 1024) (j : Fin 8192) : idx_main_v39 (ix3 b t j) = ix3 b t (0 : Fin 1) :=
  funext fun a => Fin.ext (by match a with | ⟨0, _⟩ => rfl | ⟨1, _⟩ => rfl | ⟨2, _⟩ => rfl)
theorem lidx_v27 (b : Fin 4) (t : Fin 1024) (j : Fin 8192) (k : Fin 2048) : lidx_main_v27 (ix3 b t j) k = ix3 b t k :=
  funext fun a => Fin.ext (by match a with | ⟨0, _⟩ => rfl | ⟨1, _⟩ => rfl | ⟨2, _⟩ => rfl)
theorem ridx_v27 (b : Fin 4) (t : Fin 1024) (j : Fin 8192) (k : Fin 2048) : ridx_main_v27 (ix3 b t j) k = ix2 j k :=
  funext fun a => Fin.ext (by match a with | ⟨0, _⟩ => rfl | ⟨1, _⟩ => rfl)
theorem lidx_v56 (b : Fin 4) (t : Fin 1024) (d : Fin 2048) (j : Fin 8192) : lidx_main_v56 (ix3 b t d) j = ix3 b t j :=
  funext fun a => Fin.ext (by match a with | ⟨0, _⟩ => rfl | ⟨1, _⟩ => rfl | ⟨2, _⟩ => rfl)
theorem ridx_v56 (b : Fin 4) (t : Fin 1024) (d : Fin 2048) (j : Fin 8192) : ridx_main_v56 (ix3 b t d) j = ix2 d j :=
  funext fun a => Fin.ext (by match a with | ⟨0, _⟩ => rfl | ⟨1, _⟩ => rfl)

/-! ## The first layer's activations -/

/-- A row's largest magnitude. -/
theorem v1_at (x0 : (⟨S4x1024x2048, .f32⟩ : BufTy).Contents (Elt Ideal)) (b : Fin 4) (t : Fin 1024) :
    val_main_v1 (F := Ideal) x0 (ix2 b t) = Spec.rowMax (fun k : Fin 2048 => x0 (ix3 b t k)) := by
  unfold val_main_v1
  refine (reduce_row _ _ _ _ _ b t).trans ?_
  rfl

/-- A row's scale. -/
theorem v5_at (x0 : (⟨S4x1024x2048, .f32⟩ : BufTy).Contents (Elt Ideal)) (b : Fin 4) (t : Fin 1024) :
    val_main_v5 (F := Ideal) x0 (ix3 b t (0 : Fin 1)) = Spec.aScale (fun k : Fin 2048 => x0 (ix3 b t k)) := by
  rw [val_main_v5_apply, val_main_v4_apply, val_main_cst_1_apply, val_main_v3_apply, val_main_call0_v1_apply,
    val_main_call0_v0_apply, val_main_cst_0_apply, val_main_v2_apply, idx_v2, v1_at]
  rfl

/-- An activation, replaced by itself plus the difference of its quantized value from it. -/
theorem v13_at (x0 : (⟨S4x1024x2048, .f32⟩ : BufTy).Contents (Elt Ideal)) (b : Fin 4) (t : Fin 1024) (k : Fin 2048) :
    val_main_v13 (F := Ideal) x0 (ix3 b t k)
      = Spec.ste (x0 (ix3 b t k)) (Spec.aQ (Spec.aScale (fun k' : Fin 2048 => x0 (ix3 b t k'))) (x0 (ix3 b t k))) := by
  rw [val_main_v13_apply, val_main_v12_apply, val_main_v11_apply, val_main_v10_apply, idx_v10, v5_at,
    val_main_v9_apply, val_main_call2_v4_apply, val_main_call2_v3_apply, val_main_cst_3_apply,
    val_main_call2_v2_apply, val_main_call2_v1_apply, val_main_call2_v0_apply, val_main_cst_2_apply,
    val_main_v8_apply, val_main_v7_apply, val_main_v6_apply, idx_v6, v5_at]
  rfl

/-! ## The first weight matrix -/

/-- The first weight matrix's scale. -/
theorem v18_at (x1 : (⟨S8192x2048, .f32⟩ : BufTy).Contents (Elt Ideal)) (i : S_.Idx) :
    val_main_v18 (F := Ideal) x1 i = Spec.wScale (Spec.absTot x1) := by
  rw [val_main_v18_apply, val_main_cst_7_apply, val_main_v17_apply, val_main_call3_v0_apply, val_main_cst_6_apply,
    val_main_v16_apply, val_main_cst_5_apply, val_main_v15_apply, val_main_cst_4_apply]
  rfl

/-- A weight of the first matrix, replaced by itself plus the difference of its quantized value from it. -/
theorem v26_at (x1 : (⟨S8192x2048, .f32⟩ : BufTy).Contents (Elt Ideal)) (i : S8192x2048.Idx) :
    val_main_v26 (F := Ideal) x1 i = Spec.ste (x1 i) (Spec.wQ (Spec.wScale (Spec.absTot x1)) (x1 i)) := by
  rw [val_main_v26_apply, val_main_v25_apply, val_main_v24_apply, val_main_v23_apply, v18_at,
    val_main_v22_apply, val_main_call5_v4_apply, val_main_call5_v3_apply, val_main_cst_9_apply,
    val_main_call5_v2_apply, val_main_call5_v1_apply, val_main_call5_v0_apply, val_main_cst_8_apply,
    val_main_v21_apply, val_main_v20_apply, val_main_v19_apply, v18_at]
  rfl

/-! ## The hidden layer -/

/-- The activations as 4096 rows: row r is (r / 1024, r % 1024). -/
def rows (x0 : (⟨S4x1024x2048, .f32⟩ : BufTy).Contents (Elt Ideal)) (r : Fin 4096) (k : Fin 2048) : Spec.R :=
  x0 (ix3 (⟨r.val / 1024, by omega⟩ : Fin 4) (⟨r.val % 1024, by omega⟩ : Fin 1024) k)

/-- Row b * 1024 + t is the row (b, t). -/
theorem rows_at (x0 : (⟨S4x1024x2048, .f32⟩ : BufTy).Contents (Elt Ideal)) (b : Fin 4) (t : Fin 1024) :
    rows x0 (⟨b.val * 1024 + t.val, by omega⟩ : Fin 4096) = fun k : Fin 2048 => x0 (ix3 b t k) := by
  funext k
  unfold rows
  have hb : (⟨(b.val * 1024 + t.val) / 1024, by omega⟩ : Fin 4) = b := Fin.ext (by show (b.val * 1024 + t.val) / 1024 = b.val; omega)
  have ht : (⟨(b.val * 1024 + t.val) % 1024, by omega⟩ : Fin 1024) = t := Fin.ext (by show (b.val * 1024 + t.val) % 1024 = t.val; omega)
  show x0 (ix3 (⟨(b.val * 1024 + t.val) / 1024, _⟩ : Fin 4) (⟨(b.val * 1024 + t.val) % 1024, _⟩ : Fin 1024) k) = _
  rw [hb, ht]

/-- The hidden layer. -/
theorem v28_at (x0 : (⟨S4x1024x2048, .f32⟩ : BufTy).Contents (Elt Ideal)) (x1 : (⟨S8192x2048, .f32⟩ : BufTy).Contents (Elt Ideal))
    (b : Fin 4) (t : Fin 1024) (j : Fin 8192) :
    val_main_v28 (F := Ideal) x0 x1 (ix3 b t j)
      = Spec.hidS (rows x0) (fun j k => x1 (ix2 j k)) (Spec.wScale (Spec.absTot x1)) (⟨b.val * 1024 + t.val, by omega⟩ : Fin 4096) j := by
  rw [val_main_v28_apply, val_main_call6_v0_apply, val_main_call6_cst_apply, val_main_v27_apply]
  unfold Spec.hidS Spec.xq
  rw [rows_at]
  refine congrArg (fun s => FloatOps.maximumf (F := Ideal) s (Spec.lit 0x00000000#32)) ?_
  refine Finset.sum_congr rfl fun k _ => ?_
  rw [lidx_v27, ridx_v27, v13_at, v26_at]

/-! ## The second layer's activations: the hidden layer, quantized by rows -/

/-- A row of the hidden layer's largest magnitude. -/
theorem v30_at (x0 : (⟨S4x1024x2048, .f32⟩ : BufTy).Contents (Elt Ideal)) (x1 : (⟨S8192x2048, .f32⟩ : BufTy).Contents (Elt Ideal))
    (b : Fin 4) (t : Fin 1024) :
    val_main_v30 (F := Ideal) x0 x1 (ix2 b t) = Spec.rowMax (fun j : Fin 8192 => val_main_v28 (F := Ideal) x0 x1 (ix3 b t j)) := by
  unfold val_main_v30
  refine (reduce_row _ _ _ _ _ b t).trans ?_
  rfl

/-- A row of the hidden layer's scale. -/
theorem v34_at (x0 : (⟨S4x1024x2048, .f32⟩ : BufTy).Contents (Elt Ideal)) (x1 : (⟨S8192x2048, .f32⟩ : BufTy).Contents (Elt Ideal))
    (b : Fin 4) (t : Fin 1024) :
    val_main_v34 (F := Ideal) x0 x1 (ix3 b t (0 : Fin 1))
      = Spec.aScale (fun j : Fin 8192 => val_main_v28 (F := Ideal) x0 x1 (ix3 b t j)) := by
  rw [val_main_v34_apply, val_main_v33_apply, val_main_cst_12_apply, val_main_v32_apply, val_main_call7_v1_apply,
    val_main_call7_v0_apply, val_main_cst_11_apply, val_main_v31_apply, idx_v31, v30_at]
  rfl

/-- An entry of the hidden layer, replaced by itself plus the difference of its quantized value from it. -/
theorem v42_at (x0 : (⟨S4x1024x2048, .f32⟩ : BufTy).Contents (Elt Ideal)) (x1 : (⟨S8192x2048, .f32⟩ : BufTy).Contents (Elt Ideal))
    (b : Fin 4) (t : Fin 1024) (j : Fin 8192) :
    val_main_v42 (F := Ideal) x0 x1 (ix3 b t j)
      = Spec.ste (val_main_v28 (F := Ideal) x0 x1 (ix3 b t j))
          (Spec.aQ (Spec.aScale (fun j' : Fin 8192 => val_main_v28 (F := Ideal) x0 x1 (ix3 b t j')))
            (val_main_v28 (F := Ideal) x0 x1 (ix3 b t j))) := by
  rw [val_main_v42_apply, val_main_v41_apply, val_main_v40_apply, val_main_v39_apply, idx_v39, v34_at,
    val_main_v38_apply, val_main_call9_v4_apply, val_main_call9_v3_apply, val_main_cst_14_apply,
    val_main_call9_v2_apply, val_main_call9_v1_apply, val_main_call9_v0_apply, val_main_cst_13_apply,
    val_main_v37_apply, val_main_v36_apply, val_main_v35_apply, idx_v35, v34_at]
  rfl

/-! ## The second weight matrix -/

/-- The second weight matrix's scale. -/
theorem v47_at (x2 : (⟨S2048x8192, .f32⟩ : BufTy).Contents (Elt Ideal)) (i : S_.Idx) :
    val_main_v47 (F := Ideal) x2 i = Spec.wScale (Spec.absTot x2) := by
  rw [val_main_v47_apply, val_main_cst_18_apply, val_main_v46_apply, val_main_call10_v0_apply, val_main_cst_17_apply,
    val_main_v45_apply, val_main_cst_16_apply, val_main_v44_apply, val_main_cst_15_apply]
  rfl

/-- A weight of the second matrix, replaced by itself plus the difference of its quantized value from it. -/
theorem v55_at (x2 : (⟨S2048x8192, .f32⟩ : BufTy).Contents (Elt Ideal)) (i : S2048x8192.Idx) :
    val_main_v55 (F := Ideal) x2 i = Spec.ste (x2 i) (Spec.wQ (Spec.wScale (Spec.absTot x2)) (x2 i)) := by
  rw [val_main_v55_apply, val_main_v54_apply, val_main_v53_apply, val_main_v52_apply, v47_at,
    val_main_v51_apply, val_main_call12_v4_apply, val_main_call12_v3_apply, val_main_cst_20_apply,
    val_main_call12_v2_apply, val_main_call12_v1_apply, val_main_call12_v0_apply, val_main_cst_19_apply,
    val_main_v50_apply, val_main_v49_apply, val_main_v48_apply, v47_at]
  rfl

/-! ## The output -/

/-- The reference's result at (b, t, d) is the specification's straight-through output at row b * 1024 + t, column d. -/
theorem ref_eq (x0 : (⟨S4x1024x2048, .f32⟩ : BufTy).Contents (Elt Ideal)) (x1 : (⟨S8192x2048, .f32⟩ : BufTy).Contents (Elt Ideal))
    (x2 : (⟨S2048x8192, .f32⟩ : BufTy).Contents (Elt Ideal)) (b : Fin 4) (t : Fin 1024) (d : Fin 2048) :
    val_main_v56 (F := Ideal) x0 x1 x2 (ix3 b t d)
      = Spec.outS (rows x0) (fun j k => x1 (ix2 j k)) (fun d j => x2 (ix2 d j)) (Spec.wScale (Spec.absTot x1))
          (Spec.wScale (Spec.absTot x2)) (⟨b.val * 1024 + t.val, by omega⟩ : Fin 4096) d := by
  have hrow : (fun j' : Fin 8192 => val_main_v28 (F := Ideal) x0 x1 (ix3 b t j'))
      = Spec.hidS (rows x0) (fun j k => x1 (ix2 j k)) (Spec.wScale (Spec.absTot x1)) (⟨b.val * 1024 + t.val, by omega⟩ : Fin 4096) :=
    funext fun j' => v28_at x0 x1 b t j'
  rw [val_main_v56_apply]
  unfold Spec.outS
  refine Finset.sum_congr rfl fun j _ => ?_
  rw [lidx_v56, ridx_v56, v42_at, v55_at, hrow, v28_at]

end Cert.RefValue

end
-- ==== Proof.LibFinite.lean ====
/-
  Arrays of real numbers at the exact extended reals.

  At the ideal instance a float is an extended real, and the laws that move a factor across a sum, cancel a term or
  expand a square hold only where no infinity is involved. An input assumed finite is an array of real numbers; this
  file carries that property through a program: an extended real that IS a real number (`IsReal`), an array all of
  whose entries are (`RealValued`), and the closure of both under what the two kinds of program do —

  * the arithmetic: sums, differences, products, negation, maximum and minimum; a quotient by a nonzero real; the
    reciprocal square root of a positive real; finite sums;
  * every operation that only MOVES entries (its result at an index is an operand's entry at some index): reshapes,
    broadcasts, slices, transposes, gathers at any dimension numbers, concatenations, selects;
  * every operation that ADDS UP entries: a contraction into a real accumulator (`tpu.matmul`) or from zero (the host's
    `dot_general`), a kernel's add-reduction and the host's from a real initial value over any axes, and the host's
    accumulating scatter at any dimension numbers (each entry: the operand's plus finitely many updates);

  and the way in: an extended real whose absolute value is below +∞ is a real number, and an array `x` of which a
  precondition says `all (|x| < +∞)` — the comparison against the +∞ word and-reduced over every axis to one bit that
  is 1 — is real-valued (`realValued_of_all_abs_lt_inf`).
-/
import Idealize.ShloMosaic.PureOps.Ideal.Laws
import Idealize.ShloMosaic.Lib.ValueIdx
import Idealize.ShloMosaic.Lib.ReduceAll

noncomputable section

namespace Cert.LibFinite

open Idealize.ShloMosaic

/-! ## One extended real -/

/-- The extended real is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- An extended real that is neither infinity is a real number. -/
theorem isReal_of_ne {x : EReal} (ht : x ≠ ⊤) (hb : x ≠ ⊥) : IsReal x :=
  ⟨x.toReal, (EReal.coe_toReal ht hb).symm⟩

/-- The way in: an extended real whose absolute value `max x (−x)` is below +∞ is a real number. -/
theorem isReal_of_abs_lt_top {x : EReal} (h : max x (-x) < ⊤) : IsReal x := by
  refine isReal_of_ne (fun e => ?_) (fun e => ?_)
  · subst e; simp at h
  · subst e; simp at h

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real number is a real number. -/
theorem isReal_rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- The reciprocal square root of `max x floor` for a real `x` and a positive real floor is a real number (the
    degree normalization of a graph layer: `rsqrt (max deg 1e-12)`). -/
theorem isReal_rsqrt_max_floor {x : EReal} (hx : IsReal x) {fl : ℝ} (hfl : 0 < fl) :
    IsReal (Ideal.rsqrt (max x (fl : EReal))) := by
  obtain ⟨a, rfl⟩ := hx
  have e : max (a : EReal) (fl : EReal) = ((max a fl : ℝ) : EReal) := (EReal.coe_strictMono.monotone.map_max).symm
  rw [e]
  exact isReal_rsqrt_of_pos (lt_max_of_lt_right hfl)

/-! ## Arrays -/

/-- Every entry of the array is a real number. -/
def RealValued {ι : Type*} (v : ι → EReal) : Prop := ∀ i, IsReal (v i)

/-- Real witnesses for a real-valued array. -/
theorem RealValued.exists_real {ι : Type*} {v : ι → EReal} (h : RealValued v) : ∃ r : ι → ℝ, ∀ i, v i = (r i : EReal) :=
  ⟨fun i => (h i).choose, fun i => (h i).choose_spec⟩

/-- An operation that only moves entries keeps the array real-valued. -/
theorem RealValued.comp {ι κ : Type*} {v : ι → EReal} (h : RealValued v) (f : κ → ι) : RealValued fun j => v (f j) :=
  fun j => h (f j)

variable {s t : Shape} {φ : FTy}

/-! ### The arithmetic, entry by entry -/

theorem RealValued.addf {a b : FVec Ideal s φ} (ha : RealValued a) (hb : RealValued b) : RealValued (addf a b) :=
  fun i => (ha i).add (hb i)
theorem RealValued.subf {a b : FVec Ideal s φ} (ha : RealValued a) (hb : RealValued b) : RealValued (subf a b) :=
  fun i => (ha i).sub (hb i)
theorem RealValued.mulf {a b : FVec Ideal s φ} (ha : RealValued a) (hb : RealValued b) : RealValued (mulf a b) :=
  fun i => (ha i).mul (hb i)
theorem RealValued.negf {a : FVec Ideal s φ} (ha : RealValued a) : RealValued (negf a) :=
  fun i => (ha i).neg
theorem RealValued.maximumf {a b : FVec Ideal s φ} (ha : RealValued a) (hb : RealValued b) : RealValued (maximumf a b) :=
  fun i => (ha i).max (hb i)
theorem RealValued.minimumf {a b : FVec Ideal s φ} (ha : RealValued a) (hb : RealValued b) : RealValued (minimumf a b) :=
  fun i => (ha i).min (hb i)

/-- A splat of a word that denotes a real number. -/
theorem realValued_constant {w : BitVec φ.bits} (hw : IsReal (Ideal.ofBits φ w)) : RealValued (constant (F := Ideal) s φ w) :=
  fun _ => hw

/-- The host's quotient by an array every entry of which is one nonzero real number. -/
theorem RealValued.hostDivf_const {a b : FVec Ideal s φ} (ha : RealValued a) {y : ℝ} (hy : y ≠ 0) (hb : ∀ i, b i = (y : EReal)) :
    RealValued (Host.divf a b) :=
  fun i => by show IsReal (Ideal.div (a i) (b i)); rw [hb i]; exact (ha i).div_coe hy

/-- A select between two real-valued arrays. -/
theorem RealValued.select {c : IVec s 1} {a b : s.Idx → EReal} (ha : RealValued a) (hb : RealValued b) :
    RealValued (select c a b) := fun i => by
  show IsReal (Scalar.select (c i) (a i) (b i))
  unfold Scalar.select
  split
  · exact ha i
  · exact hb i

/-! ### Operations that move entries -/

theorem RealValued.shapeCast {x : s.Idx → EReal} (hx : RealValued x) (h : s.ShapeCasts t) : RealValued (shapeCast t x h) :=
  fun _ => hx _
theorem RealValued.broadcastTo {x : s.Idx → EReal} (hx : RealValued x) (h : s.Broadcasts t) : RealValued (broadcastTo t x h) :=
  fun _ => hx _
theorem RealValued.broadcastInDim {x : s.Idx → EReal} (hx : RealValued x) (dims : Fin s.rank → Fin t.rank)
    (h : s.BroadcastsInDim t dims) : RealValued (broadcastInDim t dims h x) :=
  fun _ => hx _
theorem RealValued.extractStridedSlice {x : s.Idx → EReal} (hx : RealValued x) (off : Fin s.rank → Nat) (h : s.Slices off t) :
    RealValued (extractStridedSlice t off x h) :=
  fun _ => hx _
theorem RealValued.transpose {x : s.Idx → EReal} (hx : RealValued x) (perm : List (Fin s.rank)) (h : s.Transposes perm t) :
    RealValued (transpose t perm x h) :=
  fun _ => hx _

/-- A gather at any dimension numbers: every result entry is an operand entry. -/
theorem RealValued.gather {si : Shape} {w : ℕ} {x : s.Idx → EReal} (hx : RealValued x) (d : GatherDims s si t) (idx : IVec si w) :
    RealValued (Host.gather d x idx) :=
  fun _ => hx _

/-- A concatenation of any number of arrays along any axis: every result entry is an entry of one of them. -/
theorem realValued_concatenate (a : Fin t.rank) (xs : List ((s : Shape) × (s.Idx → EReal)))
    (hall : ∀ p ∈ xs, RealValued p.2) (h : Shape.Concatenates (xs.map (·.1)) t a) :
    RealValued (concatenate t a xs h) := by
  intro j
  unfold concatenate
  dsimp only
  exact hall _ (List.getElem_mem _) _

/-! ### Operations that add entries up -/

/-- A contraction into a real-valued accumulator. -/
theorem RealValued.matmul {sl sr so : Shape} {φ₁ φ₂ : FTy} (d : DotDims sl sr so) (prec : Option ContractPrecision)
    {lhs : FVec Ideal sl φ₁} {rhs : FVec Ideal sr φ₂} {acc : FVec Ideal so .f32}
    (hl : RealValued lhs) (hr : RealValued rhs) (ha : RealValued acc) : RealValued (matmul d prec lhs rhs acc) :=
  fun j => by
    show IsReal (FloatOps.matmul d prec lhs rhs acc j)
    rw [Ideal.matmul_apply]
    exact (ha j).add (isReal_sum _ _ fun k _ => (hl _).mul (hr _))

/-- A contraction into the zero accumulator. -/
theorem RealValued.matmul_zero {sl sr so : Shape} {φ₁ φ₂ : FTy} (d : DotDims sl sr so) (prec : Option ContractPrecision)
    {lhs : FVec Ideal sl φ₁} {rhs : FVec Ideal sr φ₂} (hl : RealValued lhs) (hr : RealValued rhs) :
    RealValued (Idealize.ShloMosaic.matmul d prec lhs rhs (constant so .f32 0x00000000#32)) :=
  fun j => by
    show IsReal (FloatOps.matmul d prec lhs rhs (constant so .f32 0x00000000#32) j)
    rw [Ideal.matmul_constant_zero_apply]
    exact isReal_sum _ _ fun k _ => (hl _).mul (hr _)

/-- The host's contraction. -/
theorem RealValued.dotGeneral {sl sr so : Shape} {φ₁ φ₂ : FTy} (d : DotDims sl sr so) (prec : Option ContractPrecision)
    (sched : HostSchedule) {lhs : FVec Ideal sl φ₁} {rhs : FVec Ideal sr φ₂} (hl : RealValued lhs) (hr : RealValued rhs) :
    RealValued (fun j => FloatOps.dotGeneral d prec sched lhs rhs j) :=
  fun j => by
    show IsReal (FloatOps.dotGeneral d prec sched lhs rhs j)
    rw [Ideal.dotGeneral_apply]
    exact isReal_sum _ _ fun k _ => (hl _).mul (hr _)

/-- A kernel's add-reduction over any axes. -/
theorem RealValued.reduceAdd {axes : List (Fin s.rank)} (h : s.Reduces axes t) {x : s.Idx → EReal} (hx : RealValued x) :
    RealValued (Ideal.reduceAdd h x) :=
  fun _ => isReal_sum _ _ fun i _ => hx i

/-- The host's add-reduction over any axes from a real initial value. -/
theorem RealValued.hostReduceAdd {axes : List (Fin s.rank)} (h : s.ReducesTo axes t) {x : s.Idx → EReal} (hx : RealValued x)
    {init : EReal} (hi : IsReal init) : RealValued (Ideal.hostReduceAdd h x init) :=
  fun _ => hi.add (isReal_sum _ _ fun i _ => hx i)

/-- The host's accumulating scatter at any dimension numbers: each entry is the operand's plus finitely many updates. -/
theorem RealValued.hostScatterAdd {si su : Shape} (d : ScatterDims s si su) {w : ℕ} {x : s.Idx → EReal} (hx : RealValued x)
    (idx : IVec si w) {upd : su.Idx → EReal} (hu : RealValued upd) : RealValued (Ideal.hostScatterAdd d x idx upd) :=
  fun i => (hx i).add (isReal_sum _ _ fun j _ => hu j)

/-! ## The way in: a precondition's `all (|x| < +∞)` -/

/-- The word of +∞ denotes the top of the extended reals. -/
theorem ofBits_inf : Ideal.ofBits .f32 0x7F800000#32 = ⊤ := by
  simp [Ideal.ofBits, Ideal.ieee]

instance : Subsingleton (⟨0, ![]⟩ : Shape).Idx := ⟨fun _ _ => funext fun d => d.elim0⟩

/-- A precondition's conjunct "every entry of `x` is finite", as it is spelled: the absolute values compared below the
    +∞ word laid over the shape, the bits and-reduced over all axes to a single bit. If that bit is 1, every entry of
    `x` is a real number. -/
theorem realValued_of_all_abs_lt_inf {axes : List (Fin s.rank)} (x : FVec Ideal s .f32)
    (bc : (⟨0, ![]⟩ : Shape).BroadcastsInDim s ![]) (hred : s.ReducesTo axes ⟨0, ![]⟩)
    (h0 : 0 < (⟨0, ![]⟩ : Shape).numel) (init : IVec ⟨0, ![]⟩ 1) (j : (⟨0, ![]⟩ : Shape).Idx)
    (e : Host.reduce IntOp.andi
        (cmpf .olt (Host.absf x) (broadcastInDim s ![] bc (constant (F := Ideal) ⟨0, ![]⟩ .f32 0x7F800000#32)))
        init hred h0 j = 1#1) :
    RealValued x := by
  intro i
  have hi := Host.reduce_andi_all _ _ hred h0 j e i
  have hlt : max (x i) (-(x i)) < ⊤ := by
    have h2 : Ideal.cmp .olt (max (x i) (-(x i))) (Ideal.ofBits .f32 0x7F800000#32) = 1#1 := hi
    rw [ofBits_inf] at h2
    unfold Ideal.cmp at h2
    by_contra hn
    simp [hn] at h2
  exact isReal_of_abs_lt_top hlt

end Cert.LibFinite

end
-- ==== Proof.KBridge.lean ====
/-
  From the kernel's arrays to the reference's result.

  Two facts about arrays given as functions on their index sets.

  The first: arrays that satisfy, entry by entry, the equations of the two quantized layers — quantized activations,
  quantized first weights, the hidden layer as the positive part of their product contracted over the row, the hidden
  layer quantized by rows, quantized second weights, the output as the product of the last two contracted over the
  row, and the output regrouped from 4096 rows to 4 x 1024 rows — hold the specification's output.

  The second: for real-valued inputs the reference's result is the specification's output, because the straight-through
  form a + (q - a) is q at every real a; so an array that holds the specification's output is the reference's result.
-/
import proofs.«133375_j41592463294489_2_alg».proof.Proof.Spec
import proofs.«133375_j41592463294489_2_alg».proof.Proof.SpecReal
import proofs.«133375_j41592463294489_2_alg».proof.Proof.SpecSum
import proofs.«133375_j41592463294489_2_alg».proof.Proof.RefValue
import proofs.«133375_j41592463294489_2_alg».proof.Proof.LibFinite
import Idealize.ShloMosaic.Lib.ValueIdx
import Idealize.ShloMosaic.PureOps.Ideal.Laws

noncomputable section

namespace Cert.Bridge

open Idealize.ShloMosaic Idealize.ShloMosaic.ValueIdx

/-- Arrays that satisfy the equations of the two quantized layers entry by entry hold the specification's output. -/
theorem kernel_is_out
    (x : Fin 4096 → Fin 2048 → Spec.R) (w1 : Fin 8192 → Fin 2048 → Spec.R) (w2 : Fin 2048 → Fin 8192 → Spec.R) (s1 s2 : Spec.R)
    (A13 : (⟨2, ![4096, 2048]⟩ : Shape).Idx → Spec.R) (A25 : (⟨2, ![8192, 2048]⟩ : Shape).Idx → Spec.R)
    (H : (⟨2, ![4096, 8192]⟩ : Shape).Idx → Spec.R) (A39 : (⟨2, ![4096, 8192]⟩ : Shape).Idx → Spec.R)
    (A51 : (⟨2, ![2048, 8192]⟩ : Shape).Idx → Spec.R) (O52 : (⟨2, ![4096, 2048]⟩ : Shape).Idx → Spec.R)
    (O53 : (⟨3, ![4, 1024, 2048]⟩ : Shape).Idx → Spec.R)
    (h13 : ∀ (r : Fin 4096) (k : Fin 2048), A13 (ix2 r k) = Spec.xq x r k)
    (h25 : ∀ (j : Fin 8192) (k : Fin 2048), A25 (ix2 j k) = Spec.wQ s1 (w1 j k))
    (hH : ∀ (r : Fin 4096) (j : Fin 8192), H (ix2 r j) = max (∑ k : Fin 2048, A13 (ix2 r k) * A25 (ix2 j k)) (0 : EReal))
    (h39 : ∀ (r : Fin 4096) (j : Fin 8192), A39 (ix2 r j) = Spec.aQ (Spec.aScale (fun j' : Fin 8192 => H (ix2 r j'))) (H (ix2 r j)))
    (h51 : ∀ (d : Fin 2048) (j : Fin 8192), A51 (ix2 d j) = Spec.wQ s2 (w2 d j))
    (hO : ∀ (r : Fin 4096) (d : Fin 2048), O52 (ix2 r d) = ∑ j : Fin 8192, A39 (ix2 r j) * A51 (ix2 d j))
    (h53 : ∀ (b : Fin 4) (t : Fin 1024) (d : Fin 2048),
      O53 (ix3 b t d) = O52 (ix2 (⟨b.val * 1024 + t.val, by omega⟩ : Fin 4096) d)) :
    ∀ (b : Fin 4) (t : Fin 1024) (d : Fin 2048),
      O53 (ix3 b t d) = Spec.out x w1 w2 s1 s2 (⟨b.val * 1024 + t.val, by omega⟩ : Fin 4096) d := by
  -- the hidden layer: the positive part is the larger of the sum and 0
  have hHid : ∀ (r : Fin 4096) (j : Fin 8192), H (ix2 r j) = Spec.hid x w1 s1 r j := by
    intro r j
    rw [hH]
    unfold Spec.hid
    rw [Ideal.maximumf_def, Spec.lit_zero]
    refine congrArg (fun z : EReal => max z (0 : EReal)) ?_
    refine Finset.sum_congr rfl fun k _ => ?_
    rw [h13, h25]
  have hRow : ∀ r : Fin 4096, (fun j' : Fin 8192 => H (ix2 r j')) = Spec.hid x w1 s1 r :=
    fun r => funext fun j' => hHid r j'
  intro b t d
  rw [h53, hO]
  unfold Spec.out Spec.hq
  refine Finset.sum_congr rfl fun j _ => ?_
  rw [h39, h51, hRow, hHid]

/-- Realness, stated either way, is the same statement. -/
theorem isReal_conv {v : EReal} (h : Cert.LibFinite.IsReal v) : Spec.IsReal v := by
  obtain ⟨r, hr⟩ := h
  exact ⟨r, hr⟩

/-- For real-valued inputs, an array that holds the specification's output is the reference's result. -/
theorem result_agree (x0 : (⟨Cert.ReferenceIdeal.S4x1024x2048, .f32⟩ : BufTy).Contents (Elt Ideal))
    (x1 : (⟨Cert.ReferenceIdeal.S8192x2048, .f32⟩ : BufTy).Contents (Elt Ideal))
    (x2 : (⟨Cert.ReferenceIdeal.S2048x8192, .f32⟩ : BufTy).Contents (Elt Ideal))
    (hx0 : Cert.LibFinite.RealValued x0) (hx1 : Cert.LibFinite.RealValued x1) (hx2 : Cert.LibFinite.RealValued x2)
    (O53 : Cert.ReferenceIdeal.S4x1024x2048.Idx → Spec.R)
    (hK : ∀ (b : Fin 4) (t : Fin 1024) (d : Fin 2048),
      O53 (ix3 b t d) = Spec.out (Cert.RefValue.rows x0) (fun j k => x1 (ix2 j k)) (fun d j => x2 (ix2 d j))
        (Spec.wScale (Spec.absTot x1)) (Spec.wScale (Spec.absTot x2)) (⟨b.val * 1024 + t.val, by omega⟩ : Fin 4096) d) :
    Cert.ReferenceIdeal.Read.val_main_v56 (F := Ideal) x0 x1 x2 = O53 := by
  funext i
  obtain ⟨b, t, d, rfl⟩ : ∃ (b : Fin 4) (t : Fin 1024) (d : Fin 2048), i = ix3 b t d := ⟨i 0, i 1, i 2, eq_ix3 i⟩
  rw [Cert.RefValue.ref_eq, hK]
  exact Spec.outS_eq_out (Cert.RefValue.rows x0) (fun j k => x1 (ix2 j k)) (fun d j => x2 (ix2 d j))
    (Spec.wScale (Spec.absTot x1)) (Spec.wScale (Spec.absTot x2))
    (fun r k => isReal_conv (hx0 _)) (fun j k => isReal_conv (hx1 _)) (fun d j => isReal_conv (hx2 _))
    (Spec.wScale_pos x1 fun i => isReal_conv (hx1 i)) (Spec.wScale_pos x2 fun i => isReal_conv (hx2 i)) _ d

end Cert.Bridge

end
-- ==== Proof.KPre.lean ====
/-
  The inputs are arrays of real numbers.

  The precondition says, of each of the three argument arrays, that every entry's absolute value is below +∞: the three
  comparisons, each and-reduced over all axes to one bit, and the three bits and-ed to one bit that is 1. A conjunction
  of bits is 1 only if each bit is; and an array whose "all below +∞" bit is 1 has only real entries.
-/
import proofs.«133375_j41592463294489_2_alg».proof.Defs
import proofs.«133375_j41592463294489_2_alg».proof.Proof.Gen.Pre_finite_inputs
import proofs.«133375_j41592463294489_2_alg».proof.Proof.LibFinite

noncomputable section

namespace Cert.KPre

open Idealize.ShloMosaic Idealize.SL.Sem

/-- If the precondition's bit over three arrays is 1, each of the three arrays is real-valued. -/
theorem fn_real [hPre_finite_inputs : Cert.Pre_finite_inputs.Facts]
    (a0 : FVec Ideal Cert.Pre_finite_inputs.S4x1024x2048 .f32) (a1 : FVec Ideal Cert.Pre_finite_inputs.S8192x2048 .f32)
    (a2 : FVec Ideal Cert.Pre_finite_inputs.S2048x8192 .f32)
    (h : Cert.Pre_finite_inputs.fn (F := Ideal) a0 a1 a2 = fun _ => 1#1) :
    Cert.LibFinite.RealValued a0 ∧ Cert.LibFinite.RealValued a1 ∧ Cert.LibFinite.RealValued a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨Cert.LibFinite.realValued_of_all_abs_lt_inf a0 _ _ _ _ _ h0',
    Cert.LibFinite.realValued_of_all_abs_lt_inf a1 _ _ _ _ _ h1,
    Cert.LibFinite.realValued_of_all_abs_lt_inf a2 _ _ _ _ _ h2⟩

/-- Under the precondition, on every core, the three argument arrays are real-valued. -/
theorem args_real [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibFinite.RealValued (m ((c.tc : Thread Cert.KernelIdeal.nD Cert.KernelIdeal.τ).loc Cert.KernelIdeal.main_arg0))
      ∧ Cert.LibFinite.RealValued (m ((c.tc : Thread Cert.KernelIdeal.nD Cert.KernelIdeal.τ).loc Cert.KernelIdeal.main_arg1))
      ∧ Cert.LibFinite.RealValued (m ((c.tc : Thread Cert.KernelIdeal.nD Cert.KernelIdeal.τ).loc Cert.KernelIdeal.main_arg2)) :=
  fn_real _ _ _ (h c)

end Cert.KPre

end
-- ==== Proof.KFinal.lean ====
/-
  The kernel program's result, and the two programs joined.

  The first kernel region leaves, in the hidden array, the positive part of the product of its two operands along the
  2048 columns; the second leaves, in the output array, the product of its two operands along the 8192 columns. The
  operands are the quantized arrays the host operations write, each read at an index as the specification's quantizer
  of the entry there; the program's result is the output array with its 4096 rows set out as 4 batches of 1024. Entry
  by entry these are the equations of the specification's two quantized layers, so the result holds the
  specification's output at the launch contents of the three arguments.

  The reference program's result is the same output in the straight-through form, which on real-valued arguments is
  the output itself; the precondition says the arguments are real-valued. So from memories that agree on the three
  arguments both programs run and end with equal results, the arguments unchanged.
-/
import proofs.«133375_j41592463294489_2_alg».proof.Proof.KRunValue
import proofs.«133375_j41592463294489_2_alg».proof.Proof.KVal0
import proofs.«133375_j41592463294489_2_alg».proof.Proof.KVal1
import proofs.«133375_j41592463294489_2_alg».proof.Proof.KHost
import proofs.«133375_j41592463294489_2_alg».proof.Proof.KHost2
import proofs.«133375_j41592463294489_2_alg».proof.Proof.KBridge
import proofs.«133375_j41592463294489_2_alg».proof.Proof.KPre
import proofs.«133375_j41592463294489_2_alg».proof.Proof.RefRunH

noncomputable section

namespace Cert.Final

open Cert.KernelIdeal Cert.KernelIdeal.Gen Cert.KernelIdeal.Hand
open Idealize.ShloMosaic Idealize.ShloMosaic.TcCoe Idealize.ShloMosaic.ValueIdx Idealize.SL.Sem

section Kernel

variable (m : (ℓ : Loc nD τ sig) → Buf (Elt Ideal) ℓ) (c : Dev nD)

/-- The hidden array at (r, j): the positive part of the sum over the 2048 columns of the first region's left operand
    at (r, k) times its right operand at (j, k). -/
theorem hidden_apply (r : Fin 4096) (j : Fin 8192) :
    (outs m 14 main_v26 c : S4096x8192.Idx → EReal) (ix2 r j)
      = (fun (a : S4096x2048.Idx → EReal) (b : S8192x2048.Idx → EReal) =>
          max (∑ k : Fin 2048, a (ix2 r k) * b (ix2 j k)) (0 : EReal)) (V13 m c main_v13) (V13 m c main_v25) := by
  rw [outs_14]
  unfold out14
  rw [final0 (U13 m) c]
  rfl

/-- The output array at (r, d): the sum over the 8192 columns of the second region's left operand at (r, j) times its
    right operand at (d, j). -/
theorem output_apply (r : Fin 4096) (d : Fin 2048) :
    (outs m 28 main_v52 c : S4096x2048.Idx → EReal) (ix2 r d)
      = (fun (a : S4096x8192.Idx → EReal) (b : S2048x8192.Idx → EReal) =>
          ∑ j : Fin 8192, a (ix2 r j) * b (ix2 d j)) (V27 m (outs m) c main_v39) (V27 m (outs m) c main_v51) := by
  rw [outs_28, V27_outs]
  unfold out28
  rw [final1 (U27 m) c]
  rfl

/-- The program's result at (b, t, d) is the specification's output, at row `b * 1024 + t` and column `d`, of the
    activations' rows and the two weight matrices at launch, each weight matrix at the scale of its total magnitude. -/
theorem kernel_result (b : Fin 4) (t : Fin 1024) (d : Fin 2048) :
    (V29 m (outs m) c main_v53 : S4x1024x2048.Idx → EReal) (ix3 b t d)
      = Spec.out (Cert.KHost.xRows m c) (fun j k => Cert.KHost.A1 m c (ix2 j k)) (fun d j => Cert.KHost.A2 m c (ix2 d j))
          (Spec.wScale (Spec.absTot (Cert.KHost.A1 m c))) (Spec.wScale (Spec.absTot (Cert.KHost.A2 m c)))
          (⟨b.val * 1024 + t.val, by omega⟩ : Fin 4096) d :=
  Cert.Bridge.kernel_is_out (Cert.KHost.xRows m c) (fun j k => Cert.KHost.A1 m c (ix2 j k))
    (fun d j => Cert.KHost.A2 m c (ix2 d j))
    (Spec.wScale (Spec.absTot (Cert.KHost.A1 m c))) (Spec.wScale (Spec.absTot (Cert.KHost.A2 m c)))
    (V13 m c main_v13 : S4096x2048.Idx → EReal) (V13 m c main_v25 : S8192x2048.Idx → EReal)
    (outs m 14 main_v26 c : S4096x8192.Idx → EReal) (V27 m (outs m) c main_v39 : S4096x8192.Idx → EReal)
    (V27 m (outs m) c main_v51 : S2048x8192.Idx → EReal) (outs m 28 main_v52 c : S4096x2048.Idx → EReal)
    (V29 m (outs m) c main_v53 : S4x1024x2048.Idx → EReal)
    (Cert.KHost.v13_apply m c) (Cert.KHost.v25_apply m c) (hidden_apply m c)
    (Cert.KHost.v39_apply m (outs m) c) (Cert.KHost.v51_apply m (outs m) c) (output_apply m c)
    (Cert.KHost.v53_apply m (outs m) c) b t d

/-- The activations' rows are the rows the reference's value is stated over. -/
theorem xRows_eq_rows :
    Cert.KHost.xRows m c = Cert.RefValue.rows (m ((c.tc : Thread nD τ).loc main_arg0)) := by
  funext r k
  rfl

end Kernel

/-- At the ideal values, from memories that agree on the three arguments, which the precondition makes real-valued,
    the two programs run and end with equal results and unchanged arguments. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => V29 m (outs m) c main_v53, run_value m ρ, ?_⟩
  refine (θ_run Cert.ReferenceIdeal.defs _ _).mono (fun _ h c => ⟨(h c).1.trans ?_, (h c).2⟩)
    (Cert.RefRunH.run (F := Ideal) m' ρ')
  rw [(hagree c).1, (hagree c).2.1, (hagree c).2.2]
  have hK := kernel_result m c
  rw [xRows_eq_rows m c] at hK
  exact Cert.Bridge.result_agree _ _ _ (Cert.KPre.args_real m hpre c).1 (Cert.KPre.args_real m hpre c).2.1
    (Cert.KPre.args_real m hpre c).2.2 _ hK

end Cert.Final

end
-- ==== Proof.lean ====
/-
  A two-layer feed-forward block with quantized operands: the kernel program against its reference, at the extended reals.

  Both programs compute, for activations x (4 x 1024 x 2048, read as 4096 rows) and weights w1 (8192 x 2048), w2 (2048 x 8192),
      h = max(q(x) Q(w1)^T, 0),      out = q(h) Q(w2)^T,
  where q quantizes each ROW with its own scale (127 over the larger of 1e-5 and the row's largest magnitude: scale, round to
  the nearest even integer, clip to [-128, 127], unscale) and Q quantizes a whole MATRIX with one scale (1 over the larger of
  1e-5 and its mean magnitude: scale, round, clip to [-1, 1], unscale).

  The kernel program quantizes on the host and multiplies in two grids of 8 x 16 points. The first writes the 512 x 512 block
  (i, j) of h at point (i, j) from row block i of q(x) and row block j of Q(w1). The second keeps a 512 x 2048 accumulator along
  a row of its grid: zero at k = 0, plus block (i, k) of q(h) times the transpose of column block k of Q(w2) at every k, copied to
  row block i of the output at k = 15; the sixteen partial sums over 512 are the sum over 8192. The reference writes every
  quantized operand a in the straight-through form a + (q(a) - a), which on the extended reals is q(a) as soon as a is a real
  number: x, w1, w2 are real by the precondition, and h is real because a clipped value over a positive real scale is real and
  a finite sum of products of reals is real. With that the two results are one function of the arguments, index by index.

  The three frames: each region of the kernel program runs its body at every grid point from the arrays as the host operations
  before it left them, and puts its output array back; no item writes an argument. The reference is host operations only.
  The idealized kernel is the kernel's own text read at the extended reals: nothing was rewritten, so that conjunct is trivial.
-/
import proofs.«133375_j41592463294489_2_alg».proof.Defs
import proofs.«133375_j41592463294489_2_alg».proof.Proof.Gen.Kernel
import proofs.«133375_j41592463294489_2_alg».proof.Proof.Gen.KernelIdeal
import proofs.«133375_j41592463294489_2_alg».proof.Proof.Gen.ReferenceIdeal
import proofs.«133375_j41592463294489_2_alg».proof.Proof.Gen.Pre_finite_inputs
import proofs.«133375_j41592463294489_2_alg».proof.Proof.BRun
import proofs.«133375_j41592463294489_2_alg».proof.Proof.KRun
import proofs.«133375_j41592463294489_2_alg».proof.Proof.RefRunH
import proofs.«133375_j41592463294489_2_alg».proof.Proof.KFinal
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_kernel [Cert.Kernel.Facts] [Cert.Pre_finite_inputs.Facts] : Cert.frame_Kernel :=
  fun m ρ _ => Cert.Kernel.Hand.frame (F := Bits) m ρ

/-- So does its reading at the extended reals. -/
theorem frame_kernelIdeal [Cert.KernelIdeal.Facts] [Cert.Pre_finite_inputs.Facts] : Cert.frame_KernelIdeal :=
  fun m ρ _ => Cert.KernelIdeal.Hand.frame (F := Ideal) m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.RefRunH.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Final.algebraic⟩

end Cert.Proof

end
